-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x28x28 : Shape := ⟨4, ![8192, 1, 28, 28]⟩
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S3x3x64x128 : Shape := ⟨4, ![3, 3, 64, 128]⟩
abbrev S128 : Shape := ⟨1, ![128]⟩
abbrev S1152x512 : Shape := ⟨2, ![1152, 512]⟩
abbrev S512 : Shape := ⟨1, ![512]⟩
abbrev S512x10 : Shape := ⟨2, ![512, 10]⟩
abbrev S10 : Shape := ⟨1, ![10]⟩
abbrev S_ : Shape := ⟨0, ![]⟩

class Facts : Prop where
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_
  h_S_ : 0 < S_.numel
  bcast_S_S3x3x1x32 : S_.BroadcastsInDim S3x3x1x32 (![] : Fin 0 → Fin S3x3x1x32.rank)
  reducesTo_S3x3x1x32_S_d0_1_2_3 : S3x3x1x32.ReducesTo [0, 1, 2, 3] S_
  bcast_S_S32 : S_.BroadcastsInDim S32 (![] : Fin 0 → Fin S32.rank)
  reducesTo_S32_S_d0 : S32.ReducesTo [0] S_
  bcast_S_S3x3x32x64 : S_.BroadcastsInDim S3x3x32x64 (![] : Fin 0 → Fin S3x3x32x64.rank)
  reducesTo_S3x3x32x64_S_d0_1_2_3 : S3x3x32x64.ReducesTo [0, 1, 2, 3] S_
  bcast_S_S64 : S_.BroadcastsInDim S64 (![] : Fin 0 → Fin S64.rank)
  reducesTo_S64_S_d0 : S64.ReducesTo [0] S_
  bcast_S_S3x3x64x128 : S_.BroadcastsInDim S3x3x64x128 (![] : Fin 0 → Fin S3x3x64x128.rank)
  reducesTo_S3x3x64x128_S_d0_1_2_3 : S3x3x64x128.ReducesTo [0, 1, 2, 3] S_
  bcast_S_S128 : S_.BroadcastsInDim S128 (![] : Fin 0 → Fin S128.rank)
  reducesTo_S128_S_d0 : S128.ReducesTo [0] S_
  bcast_S_S1152x512 : S_.BroadcastsInDim S1152x512 (![] : Fin 0 → Fin S1152x512.rank)
  reducesTo_S1152x512_S_d0_1 : S1152x512.ReducesTo [0, 1] S_
  bcast_S_S512 : S_.BroadcastsInDim S512 (![] : Fin 0 → Fin S512.rank)
  reducesTo_S512_S_d0 : S512.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg7 : FVec F S1152x512 .f32) (main_arg8 : FVec F S512 .f32) (main_arg9 : FVec F S512x10 .f32) (main_arg10 : FVec F S10 .f32) (main_v33 : IVec S_ 1) : IVec S_ 1 :=
  let main_v34 : FVec F S1152x512 .f32 := Host.absf main_arg7
  let main_cst_12 : FVec F S_ .f32 := constant S_ .f32 0x7F800000#32
  let main_v35 : FVec F S1152x512 .f32 := broadcastInDim S1152x512 ![] bcast_S_S1152x512 main_cst_12
  let main_v36 : IVec S1152x512 1 := cmpf .olt main_v34 main_v35
  let main_c_13 : IVec S_ 1 := constantI S_ 1 1#1
  let main_v37 : IVec S_ 1 := (fun x v => Host.reduce IntOp.andi x v reducesTo_S1152x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x10 .f32 := Host.absf main_arg9
  let main_cst_16 : FVec F S_ .f32 := constant S_ .f32 0x7F800000#32
  let main_v45 : FVec F S512x10 .f32 := broadcastInDim S512x10 ![] bcast_S_S512x10 main_cst_16
  let main_v46 : IVec S512x10 1 := cmpf .olt main_v44 main_v45
  let main_c_17 : IVec S_ 1 := constantI S_ 1 1#1
  let main_v47 : IVec S_ 1 := (fun x v => Host.reduce IntOp.andi x v reducesTo_S512x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg4 : FVec F S64 .f32) (main_arg5 : FVec F S3x3x64x128 .f32) (main_arg6 : FVec F S128 .f32) (main_arg7 : FVec F S1152x512 .f32) (main_arg8 : FVec F S512 .f32) (main_arg9 : FVec F S512x10 .f32) (main_arg10 : FVec F S10 .f32) (main_v13 : IVec S_ 1) (main_v16 : IVec S3x3x32x64 1) : IVec S_ 1 :=
  let main_c_5 : IVec S_ 1 := constantI S_ 1 1#1
  let main_v17 : IVec S_ 1 := (fun x v => Host.reduce IntOp.andi x v reducesTo_S3x3x32x64_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x3x64x128 .f32 := Host.absf main_arg5
  let main_cst_8 : FVec F S_ .f32 := constant S_ .f32 0x7F800000#32
  let main_v25 : FVec F S3x3x64x128 .f32 := broadcastInDim S3x3x64x128 ![] bcast_S_S3x3x64x128 main_cst_8
  let main_v26 : IVec S3x3x64x128 1 := cmpf .olt main_v24 main_v25
  let main_c_9 : IVec S_ 1 := constantI S_ 1 1#1
  let main_v27 : IVec S_ 1 := (fun x v => Host.reduce IntOp.andi x v reducesTo_S3x3x64x128_S_d0_1_2_3 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1x28x28 .f32) (main_arg1 : FVec F S3x3x1x32 .f32) (main_arg2 : FVec F S32 .f32) (main_arg3 : FVec F S3x3x32x64 .f32) (main_arg4 : FVec F S64 .f32) (main_arg5 : FVec F S3x3x64x128 .f32) (main_arg6 : FVec F S128 .f32) (main_arg7 : FVec F S1152x512 .f32) (main_arg8 : FVec F S512 .f32) (main_arg9 : FVec F S512x10 .f32) (main_arg10 : FVec F S10 .f32) : IVec S_ 1 :=
  let main_v0 : FVec F S8192x1x28x28 .f32 := Host.absf main_arg0
  let main_cst : FVec F S_ .f32 := constant S_ .f32 0x7F800000#32
  let main_v1 : FVec F S8192x1x28x28 .f32 := broadcastInDim S8192x1x28x28 ![] bcast_S_S8192x1x28x28 main_cst
  let main_v2 : IVec S8192x1x28x28 1 := cmpf .olt main_v0 main_v1
  let main_c : IVec S_ 1 := constantI S_ 1 1#1
  let main_v3 : IVec S_ 1 := (fun x v => Host.reduce IntOp.andi x v reducesTo_S8192x1x28x28_S_d0_1_2_3 h_S_) main_v2 main_c
  let main_v4 : FVec F S3x3x1x32 .f32 := Host.absf main_arg1
  let main_cst_0 : FVec F S_ .f32 := constant S_ .f32 0x7F800000#32
  let main_v5 : FVec F S3x3x1x32 .f32 := broadcastInDim S3x3x1x32 ![] bcast_S_S3x3x1x32 main_cst_0
  let main_v6 : IVec S3x3x1x32 1 := cmpf .olt main_v4 main_v5
  let main_c_1 : IVec S_ 1 := constantI S_ 1 1#1
  let main_v7 : IVec S_ 1 := (fun x v => Host.reduce IntOp.andi x v reducesTo_S3x3x1x32_S_d0_1_2_3 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x3x32x64 .f32 := Host.absf main_arg3
  let main_cst_4 : FVec F S_ .f32 := constant S_ .f32 0x7F800000#32
  let main_v15 : FVec F S3x3x32x64 .f32 := broadcastInDim S3x3x32x64 ![] bcast_S_S3x3x32x64 main_cst_4
  let main_v16 : IVec S3x3x32x64 1 := cmpf .olt main_v14 main_v15
  fn_part1 (F := F) main_arg4 main_arg5 main_arg6 main_arg7 main_arg8 main_arg9 main_arg10 main_v13 main_v16
-- ==== Kernel.lean ====
abbrev S8192x1x28x28 : Shape := ⟨4, ![8192, 1, 28, 28]⟩
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S3x3x64x128 : Shape := ⟨4, ![3, 3, 64, 128]⟩
abbrev S128 : Shape := ⟨1, ![128]⟩
abbrev S1152x512 : Shape := ⟨2, ![1152, 512]⟩
abbrev S512 : Shape := ⟨1, ![512]⟩
abbrev S512x10 : Shape := ⟨2, ![512, 10]⟩
abbrev S10 : Shape := ⟨1, ![10]⟩
abbrev S8192x28x28 : Shape := ⟨3, ![8192, 28, 28]⟩
abbrev S3x3x32 : Shape := ⟨3, ![3, 3, 32]⟩
abbrev S28 : Shape := ⟨1, ![28]⟩
abbrev S28x1 : Shape := ⟨2, ![28, 1]⟩
abbrev S26 : Shape := ⟨1, ![26]⟩
abbrev S1x26 : Shape := ⟨2, ![1, 26]⟩
abbrev S28x26 : Shape := ⟨2, ![28, 26]⟩
abbrev S_ : Shape := ⟨0, ![]⟩
abbrev S1x28x26x1 : Shape := ⟨4, ![1, 28, 26, 1]⟩
abbrev S28x26x1 : Shape := ⟨3, ![28, 26, 1]⟩
abbrev S3x28x26x32 : Shape := ⟨4, ![3, 28, 26, 32]⟩
abbrev S84x832 : Shape := ⟨2, ![84, 832]⟩
abbrev S1x32 : Shape := ⟨2, ![1, 32]⟩
abbrev S1x1x1x32 : Shape := ⟨4, ![1, 1, 1, 32]⟩
abbrev S1x1x26x32 : Shape := ⟨4, ![1, 1, 26, 32]⟩
abbrev S1x832 : Shape := ⟨2, ![1, 832]⟩
abbrev S288x64 : Shape := ⟨2, ![288, 64]⟩
abbrev S1x64 : Shape := ⟨2, ![1, 64]⟩
abbrev S576x128 : Shape := ⟨2, ![576, 128]⟩
abbrev S1x128 : Shape := ⟨2, ![1, 128]⟩
abbrev S128x9x512 : Shape := ⟨3, ![128, 9, 512]⟩
abbrev S128x512 : Shape := ⟨2, ![128, 512]⟩
abbrev S1x512 : Shape := ⟨2, ![1, 512]⟩
abbrev S1x10 : Shape := ⟨2, ![1, 10]⟩
abbrev S8192x10 : Shape := ⟨2, ![8192, 10]⟩
abbrev S64x28x28 : Shape := ⟨3, ![64, 28, 28]⟩
abbrev S64x10 : Shape := ⟨2, ![64, 10]⟩
abbrev S64x26x28 : Shape := ⟨3, ![64, 26, 28]⟩
abbrev S64x26x84 : Shape := ⟨3, ![64, 26, 84]⟩
abbrev S1664x84 : Shape := ⟨2, ![1664, 84]⟩
abbrev S1664x832 : Shape := ⟨2, ![1664, 832]⟩
abbrev S64x26x26x32 : Shape := ⟨4, ![64, 26, 26, 32]⟩
abbrev S64x13x2x26x32 : Shape := ⟨5, ![64, 13, 2, 26, 32]⟩
abbrev S64x13x26x32 : Shape := ⟨4, ![64, 13, 26, 32]⟩
abbrev S64x13x13x2x32 : Shape := ⟨5, ![64, 13, 13, 2, 32]⟩
abbrev S64x13x13x32 : Shape := ⟨4, ![64, 13, 13, 32]⟩
abbrev S64x11x11x32 : Shape := ⟨4, ![64, 11, 11, 32]⟩
abbrev S64x11x11x288 : Shape := ⟨4, ![64, 11, 11, 288]⟩
abbrev S7744x288 : Shape := ⟨2, ![7744, 288]⟩
abbrev S7744x64 : Shape := ⟨2, ![7744, 64]⟩
abbrev S64x11x11x64 : Shape := ⟨4, ![64, 11, 11, 64]⟩
abbrev S64x10x10x64 : Shape := ⟨4, ![64, 10, 10, 64]⟩
abbrev S64x5x2x10x64 : Shape := ⟨5, ![64, 5, 2, 10, 64]⟩
abbrev S64x5x10x64 : Shape := ⟨4, ![64, 5, 10, 64]⟩
abbrev S64x5x5x2x64 : Shape := ⟨5, ![64, 5, 5, 2, 64]⟩
abbrev S64x5x5x64 : Shape := ⟨4, ![64, 5, 5, 64]⟩
abbrev S64x3x3x64 : Shape := ⟨4, ![64, 3, 3, 64]⟩
abbrev S64x3x3x576 : Shape := ⟨4, ![64, 3, 3, 576]⟩
abbrev S576x576 : Shape := ⟨2, ![576, 576]⟩
abbrev S64x3x3x128 : Shape := ⟨4, ![64, 3, 3, 128]⟩
abbrev S64x2x2x128 : Shape := ⟨4, ![64, 2, 2, 128]⟩
abbrev S64x4x128 : Shape := ⟨3, ![64, 4, 128]⟩
abbrev S64x128 : Shape := ⟨2, ![64, 128]⟩
abbrev S64x512 : Shape := ⟨2, ![64, 512]⟩
abbrev S64x1 : Shape := ⟨2, ![64, 1]⟩

abbrev nBuf : Space → Nat
  | .hbm => 65
  | .vmem => 14
  | .smem => 0
  | _ => 0

abbrev bufTy : (tb : Table) → Fin (tcTables nBuf tb) → BufTy
  | .hbm, ⟨0, _⟩ => ⟨S8192x1x28x28, .f32⟩
  | .hbm, ⟨1, _⟩ => ⟨S3x3x1x32, .f32⟩
  | .hbm, ⟨2, _⟩ => ⟨S32, .f32⟩
  | .hbm, ⟨3, _⟩ => ⟨S3x3x32x64, .f32⟩
  | .hbm, ⟨4, _⟩ => ⟨S64, .f32⟩
  | .hbm, ⟨5, _⟩ => ⟨S3x3x64x128, .f32⟩
  | .hbm, ⟨6, _⟩ => ⟨S128, .f32⟩
  | .hbm, ⟨7, _⟩ => ⟨S1152x512, .f32⟩
  | .hbm, ⟨8, _⟩ => ⟨S512, .f32⟩
  | .hbm, ⟨9, _⟩ => ⟨S512x10, .f32⟩
  | .hbm, ⟨10, _⟩ => ⟨S10, .f32⟩
  | .hbm, ⟨11, _⟩ => ⟨S8192x28x28, .f32⟩
  | .hbm, ⟨12, _⟩ => ⟨S3x3x32, .f32⟩
  | .hbm, ⟨13, _⟩ => ⟨S28, .i32⟩
  | .hbm, ⟨14, _⟩ => ⟨S28x1, .i32⟩
  | .hbm, ⟨15, _⟩ => ⟨S26, .i32⟩
  | .hbm, ⟨16, _⟩ => ⟨S1x26, .i32⟩
  | .hbm, ⟨17, _⟩ => ⟨S28x26, .i32⟩
  | .hbm, ⟨18, _⟩ => ⟨S28x26, .i32⟩
  | .hbm, ⟨19, _⟩ => ⟨S28x26, .i32⟩
  | .hbm, ⟨20, _⟩ => ⟨S_, .i32⟩
  | .hbm, ⟨21, _⟩ => ⟨S28x26, .i32⟩
  | .hbm, ⟨22, _⟩ => ⟨S28x26, .i1⟩
  | .hbm, ⟨23, _⟩ => ⟨S_, .i32⟩
  | .hbm, ⟨24, _⟩ => ⟨S28x26, .i32⟩
  | .hbm, ⟨25, _⟩ => ⟨S28x26, .i1⟩
  | .hbm, ⟨26, _⟩ => ⟨S28x26, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S28x26, .i32⟩
  | .hbm, ⟨31, _⟩ => ⟨S28x26, .i32⟩
  | .hbm, ⟨32, _⟩ => ⟨S_, .i32⟩
  | .hbm, ⟨33, _⟩ => ⟨S28x26, .i32⟩
  | .hbm, ⟨34, _⟩ => ⟨S28x26, .i32⟩
  | .hbm, ⟨35, _⟩ => ⟨S1x28x26x1, .i1⟩
  | .hbm, ⟨36, _⟩ => ⟨S_, .i32⟩
  | .hbm, ⟨37, _⟩ => ⟨S28x26, .i32⟩
  | .hbm, ⟨38, _⟩ => ⟨S28x26, .i1⟩
  | .hbm, ⟨39, _⟩ => ⟨S_, .i32⟩
  | .hbm, ⟨40, _⟩ => ⟨S28x26, .i32⟩
  | .hbm, ⟨41, _⟩ => ⟨S28x26, .i32⟩
  | .hbm, ⟨42, _⟩ => ⟨S28x26, .i32⟩
  | .hbm, ⟨43, _⟩ => ⟨S28x26x1, .i32⟩
  | .hbm, ⟨44, _⟩ => ⟨S3x28x26x32, .f32⟩
  | .hbm, ⟨45, _⟩ => ⟨S_, .f32⟩
  | .hbm, ⟨46, _⟩ => ⟨S_, .f32⟩
  | .hbm, ⟨47, _⟩ => ⟨S3x28x26x32, .i1⟩
  | .hbm, ⟨48, _⟩ => ⟨S3x28x26x32, .f32⟩
  | .hbm, ⟨49, _⟩ => ⟨S3x28x26x32, .f32⟩
  | .hbm, ⟨50, _⟩ => ⟨S84x832, .f32⟩
  | .hbm, ⟨51, _⟩ => ⟨S1x32, .f32⟩
  | .hbm, ⟨52, _⟩ => ⟨S1x1x1x32, .f32⟩
  | .hbm, ⟨53, _⟩ => ⟨S1x1x26x32, .f32⟩
  | .hbm, ⟨54, _⟩ => ⟨S1x832, .f32⟩
  | .hbm, ⟨55, _⟩ => ⟨S288x64, .f32⟩
  | .hbm, ⟨56, _⟩ => ⟨S1x64, .f32⟩
  | .hbm, ⟨57, _⟩ => ⟨S576x128, .f32⟩
  | .hbm, ⟨58, _⟩ => ⟨S1x128, .f32⟩
  | .hbm, ⟨59, _⟩ => ⟨S128x9x512, .f32⟩
  | .hbm, ⟨60, _⟩ => ⟨S_, .f32⟩
  | .hbm, ⟨61, _⟩ => ⟨S128x512, .f32⟩
  | .hbm, ⟨62, _⟩ => ⟨S1x512, .f32⟩
  | .hbm, ⟨63, _⟩ => ⟨S1x10, .f32⟩
  | .hbm, ⟨64, _⟩ => ⟨S8192x10, .f32⟩
  | .local _ .vmem, ⟨0, _⟩ => ⟨S64x28x28, .f32⟩
  | .local _ .vmem, ⟨1, _⟩ => ⟨S64x28x28, .f32⟩
  | .local _ .vmem, ⟨2, _⟩ => ⟨S84x832, .f32⟩
  | .local _ .vmem, ⟨3, _⟩ => ⟨S1x832, .f32⟩
  | .local _ .vmem, ⟨4, _⟩ => ⟨S288x64, .f32⟩
  | .local _ .vmem, ⟨5, _⟩ => ⟨S1x64, .f32⟩
  | .local _ .vmem, ⟨6, _⟩ => ⟨S576x128, .f32⟩
  | .local _ .vmem, ⟨7, _⟩ => ⟨S1x128, .f32⟩
  | .local _ .vmem, ⟨8, _⟩ => ⟨S128x512, .f32⟩
  | .local _ .vmem, ⟨9, _⟩ => ⟨S1x512, .f32⟩
  | .local _ .vmem, ⟨10, _⟩ => ⟨S512x10, .f32⟩
  | .local _ .vmem, ⟨11, _⟩ => ⟨S1x10, .f32⟩
  | .local _ .vmem, ⟨12, _⟩ => ⟨S64x10, .f32⟩
  | .local _ .vmem, ⟨13, _⟩ => ⟨S64x10, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_c_2 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v14 : Ref sig .tc := ⟨.hbm, 34, rfl⟩
abbrev main_v15 : Ref sig .tc := ⟨.hbm, 35, rfl⟩
abbrev main_c_3 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S84x832 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x832 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x28x28 : S8192x1x28x28.ShapeCasts S8192x28x28
  shapeCasts_S3x3x1x32_S3x3x32 : S3x3x1x32.ShapeCasts S3x3x32
  bcast_S28_S28x1_0 : S28.BroadcastsInDim S28x1 (![0] : Fin 1 → Fin S28x1.rank)
  bcast_S26_S1x26_1 : S26.BroadcastsInDim S1x26 (![1] : Fin 1 → Fin S1x26.rank)
  bcast_S28x1_S28x26_0_1 : S28x1.BroadcastsInDim S28x26 (![0, 1] : Fin 2 → Fin S28x26.rank)
  bcast_S1x26_S28x26_0_1 : S1x26.BroadcastsInDim S28x26 (![0, 1] : Fin 2 → Fin S28x26.rank)
  bcast_S_S28x26 : S_.BroadcastsInDim S28x26 (![] : Fin 0 → Fin S28x26.rank)
  bcast_S28x26_S1x28x26x1_1_2 : S28x26.BroadcastsInDim S1x28x26x1 (![1, 2] : Fin 2 → Fin S1x28x26x1.rank)
  bcast_S28x26_S28x26x1_0_1 : S28x26.BroadcastsInDim S28x26x1 (![0, 1] : Fin 2 → Fin S28x26x1.rank)
  bcast_S1x28x26x1_S3x28x26x32_0_1_2_3 : S1x28x26x1.BroadcastsInDim S3x28x26x32 (![0, 1, 2, 3] : Fin 4 → Fin S3x28x26x32.rank)
  bcast_S_S3x28x26x32 : S_.BroadcastsInDim S3x28x26x32 (![] : Fin 0 → Fin S3x28x26x32.rank)
  shapeCasts_S3x28x26x32_S84x832 : S3x28x26x32.ShapeCasts S84x832
  shapeCasts_S32_S1x32 : S32.ShapeCasts S1x32
  shapeCasts_S1x32_S1x1x1x32 : S1x32.ShapeCasts S1x1x1x32
  bcast_S1x1x1x32_S1x1x26x32_0_1_2_3 : S1x1x1x32.BroadcastsInDim S1x1x26x32 (![0, 1, 2, 3] : Fin 4 → Fin S1x1x26x32.rank)
  shapeCasts_S1x1x26x32_S1x832 : S1x1x26x32.ShapeCasts S1x832
  shapeCasts_S3x3x32x64_S288x64 : S3x3x32x64.ShapeCasts S288x64
  shapeCasts_S64_S1x64 : S64.ShapeCasts S1x64
  shapeCasts_S3x3x64x128_S576x128 : S3x3x64x128.ShapeCasts S576x128
  shapeCasts_S128_S1x128 : S128.ShapeCasts S1x128
  shapeCasts_S1152x512_S128x9x512 : S1152x512.ShapeCasts S128x9x512
  reducesTo_S128x9x512_S128x512_d1 : S128x9x512.ReducesTo [1] S128x512
  h_S_ : 0 < S_.numel
  shapeCasts_S512_S1x512 : S512.ShapeCasts S1x512
  shapeCasts_S10_S1x10 : S10.ShapeCasts S1x10
  inb_S64x28x28_S64x28x28_0_0_0 : ∀ a, (![0, 0, 0] : Fin 3 → Nat) a + S64x28x28.size a ≤ S64x28x28.size a
  h_S64x28x28 : 0 < S64x28x28.numel
  shapeCasts_S64x28x28_S64x28x28 : S64x28x28.ShapeCasts S64x28x28
  slices_S64x28x28_o0_0_0_S64x26x28 : S64x28x28.Slices ![0, 0, 0] S64x26x28
  slices_S64x28x28_o0_1_0_S64x26x28 : S64x28x28.Slices ![0, 1, 0] S64x26x28
  slices_S64x28x28_o0_2_0_S64x26x28 : S64x28x28.Slices ![0, 2, 0] S64x26x28
  concatenates_S64x26x28_S64x26x28_S64x26x28_S64x26x84_d2 : Shape.Concatenates [S64x26x28, S64x26x28, S64x26x28] S64x26x84 2
  shapeCasts_S64x26x84_S1664x84 : S64x26x84.ShapeCasts S1664x84
  inb_S84x832_S84x832_0_0 : ∀ a, (![0, 0] : Fin 2 → Nat) a + S84x832.size a ≤ S84x832.size a
  h_S84x832 : 0 < S84x832.numel
  shapeCasts_S84x832_S84x832 : S84x832.ShapeCasts S84x832
  inb_S1x832_S1x832_0_0 : ∀ a, (![0, 0] : Fin 2 → Nat) a + S1x832.size a ≤ S1x832.size a
  h_S1x832 : 0 < S1x832.numel
  shapeCasts_S1x832_S1x832 : S1x832.ShapeCasts S1x832
  broadcasts_S1x832_S1664x832 : S1x832.Broadcasts S1664x832
  shapeCasts_S1664x832_S64x26x26x32 : S1664x832.ShapeCasts S64x26x26x32
  shapeCasts_S64x26x26x32_S64x13x2x26x32 : S64x26x26x32.ShapeCasts S64x13x2x26x32
  reduces_S64x13x2x26x32_S64x13x26x32 : S64x13x2x26x32.Reduces [2] S64x13x26x32
  shapeCasts_S64x13x26x32_S64x13x13x2x32 : S64x13x26x32.ShapeCasts S64x13x13x2x32
  reduces_S64x13x13x2x32_S64x13x13x32 : S64x13x13x2x32.Reduces [3] S64x13x13x32
  slices_S64x13x13x32_o0_0_0_0_S64x11x11x32 : S64x13x13x32.Slices ![0, 0, 0, 0] S64x11x11x32
  slices_S64x13x13x32_o0_0_1_0_S64x11x11x32 : S64x13x13x32.Slices ![0, 0, 1, 0] S64x11x11x32
  slices_S64x13x13x32_o0_0_2_0_S64x11x11x32 : S64x13x13x32.Slices ![0, 0, 2, 0] S64x11x11x32
  slices_S64x13x13x32_o0_1_0_0_S64x11x11x32 : S64x13x13x32.Slices ![0, 1, 0, 0] S64x11x11x32
  slices_S64x13x13x32_o0_1_1_0_S64x11x11x32 : S64x13x13x32.Slices ![0, 1, 1, 0] S64x11x11x32
  slices_S64x13x13x32_o0_1_2_0_S64x11x11x32 : S64x13x13x32.Slices ![0, 1, 2, 0] S64x11x11x32
  slices_S64x13x13x32_o0_2_0_0_S64x11x11x32 : S64x13x13x32.Slices ![0, 2, 0, 0] S64x11x11x32
  slices_S64x13x13x32_o0_2_1_0_S64x11x11x32 : S64x13x13x32.Slices ![0, 2, 1, 0] S64x11x11x32
  slices_S64x13x13x32_o0_2_2_0_S64x11x11x32 : S64x13x13x32.Slices ![0, 2, 2, 0] S64x11x11x32
  concatenates_S64x11x11x32_S64x11x11x32_S64x11x11x32_S64x11x11x32_S64x11x11x32_S64x11x11x32_S64x11x11x32_S64x11x11x32_S64x11x11x32_S64x11x11x288_d3 : Shape.Concatenates [S64x11x11x32, S64x11x11x32, S64x11x11x32, S64x11x11x32, S64x11x11x32, S64x11x11x32, S64x11x11x32, S64x11x11x32, S64x11x11x32] S64x11x11x288 3
  shapeCasts_S64x11x11x288_S7744x288 : S64x11x11x288.ShapeCasts S7744x288
  inb_S288x64_S288x64_0_0 : ∀ a, (![0, 0] : Fin 2 → Nat) a + S288x64.size a ≤ S288x64.size a
  h_S288x64 : 0 < S288x64.numel
  shapeCasts_S288x64_S288x64 : S288x64.ShapeCasts S288x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S7744x64 : S1x64.Broadcasts S7744x64
  shapeCasts_S7744x64_S64x11x11x64 : S7744x64.ShapeCasts S64x11x11x64
  slices_S64x11x11x64_o0_0_0_0_S64x10x10x64 : S64x11x11x64.Slices ![0, 0, 0, 0] S64x10x10x64
  shapeCasts_S64x10x10x64_S64x5x2x10x64 : S64x10x10x64.ShapeCasts S64x5x2x10x64
  reduces_S64x5x2x10x64_S64x5x10x64 : S64x5x2x10x64.Reduces [2] S64x5x10x64
  shapeCasts_S64x5x10x64_S64x5x5x2x64 : S64x5x10x64.ShapeCasts S64x5x5x2x64
  reduces_S64x5x5x2x64_S64x5x5x64 : S64x5x5x2x64.Reduces [3] S64x5x5x64
  slices_S64x5x5x64_o0_0_0_0_S64x3x3x64 : S64x5x5x64.Slices ![0, 0, 0, 0] S64x3x3x64
  slices_S64x5x5x64_o0_0_1_0_S64x3x3x64 : S64x5x5x64.Slices ![0, 0, 1, 0] S64x3x3x64
  slices_S64x5x5x64_o0_0_2_0_S64x3x3x64 : S64x5x5x64.Slices ![0, 0, 2, 0] S64x3x3x64
  slices_S64x5x5x64_o0_1_0_0_S64x3x3x64 : S64x5x5x64.Slices ![0, 1, 0, 0] S64x3x3x64
  slices_S64x5x5x64_o0_1_1_0_S64x3x3x64 : S64x5x5x64.Slices ![0, 1, 1, 0] S64x3x3x64
  slices_S64x5x5x64_o0_1_2_0_S64x3x3x64 : S64x5x5x64.Slices ![0, 1, 2, 0] S64x3x3x64
  slices_S64x5x5x64_o0_2_0_0_S64x3x3x64 : S64x5x5x64.Slices ![0, 2, 0, 0] S64x3x3x64
  slices_S64x5x5x64_o0_2_1_0_S64x3x3x64 : S64x5x5x64.Slices ![0, 2, 1, 0] S64x3x3x64
  slices_S64x5x5x64_o0_2_2_0_S64x3x3x64 : S64x5x5x64.Slices ![0, 2, 2, 0] S64x3x3x64
  concatenates_S64x3x3x64_S64x3x3x64_S64x3x3x64_S64x3x3x64_S64x3x3x64_S64x3x3x64_S64x3x3x64_S64x3x3x64_S64x3x3x64_S64x3x3x576_d3 : Shape.Concatenates [S64x3x3x64, S64x3x3x64, S64x3x3x64, S64x3x3x64, S64x3x3x64, S64x3x3x64, S64x3x3x64, S64x3x3x64, S64x3x3x64] S64x3x3x576 3
  shapeCasts_S64x3x3x576_S576x576 : S64x3x3x576.ShapeCasts S576x576
  inb_S576x128_S576x128_0_0 : ∀ a, (![0, 0] : Fin 2 → Nat) a + S576x128.size a ≤ S576x128.size a
  h_S576x128 : 0 < S576x128.numel
  shapeCasts_S576x128_S576x128 : S576x128.ShapeCasts S576x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S576x128 : S1x128.Broadcasts S576x128
  shapeCasts_S576x128_S64x3x3x128 : S576x128.ShapeCasts S64x3x3x128
  slices_S64x3x3x128_o0_0_0_0_S64x2x2x128 : S64x3x3x128.Slices ![0, 0, 0, 0] S64x2x2x128
  shapeCasts_S64x2x2x128_S64x4x128 : S64x2x2x128.ShapeCasts S64x4x128
  reduces_S64x4x128_S64x128 : S64x4x128.Reduces [1] S64x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x10_S512x10_0_0 : ∀ a, (![0, 0] : Fin 2 → Nat) a + S512x10.size a ≤ S512x10.size a
  h_S512x10 : 0 < S512x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  gather_S3x3x32_S28x26x1_S3x28x26x32_03_1_n_n_1_2_3132_wf : GatherDims.WF S3x3x32 S28x26x1 S3x28x26x32 [0, 3] [1] [] [1] [] 2 ![3, 1, 32]
  dot_S1664x84_S84x832_S1664x832_1_0_0_1_n_n_wf : DotDims.WF S1664x84 S84x832 S1664x832 [1] [0] [0] [1] [] []
  dot_S7744x288_S288x64_S7744x64_1_0_0_1_n_n_wf : DotDims.WF S7744x288 S288x64 S7744x64 [1] [0] [0] [1] [] []
  dot_S576x576_S576x128_S576x128_1_0_0_1_n_n_wf : DotDims.WF S576x576 S576x128 S576x128 [1] [0] [0] [1] [] []
  dot_S64x128_S128x512_S64x512_1_0_0_1_n_n_wf : DotDims.WF S64x128 S128x512 S64x512 [1] [0] [0] [1] [] []
  dot_S64x512_S512x10_S64x10_1_0_0_1_n_n_wf : DotDims.WF S64x512 S512x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x28x28.size a ≤ S8192x28x28.size a
  hwx0_0 : ∀ i : grid0.Coords, EltTy.bits .f32 = 32 ∨ (Rect.block (s := S8192x28x28) S64x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S84x832.size a ≤ S84x832.size a
  hwx0_1 : ∀ i : grid0.Coords, EltTy.bits .f32 = 32 ∨ (Rect.block (s := S84x832) S84x832.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x832.size a ≤ S1x832.size a
  hwx0_2 : ∀ i : grid0.Coords, EltTy.bits .f32 = 32 ∨ (Rect.block (s := S1x832) S1x832.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x64.size a ≤ S288x64.size a
  hwx0_3 : ∀ i : grid0.Coords, EltTy.bits .f32 = 32 ∨ (Rect.block (s := S288x64) S288x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S576x128.size a ≤ S576x128.size a
  hwx0_5 : ∀ i : grid0.Coords, EltTy.bits .f32 = 32 ∨ (Rect.block (s := S576x128) S576x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x10.size a ≤ S512x10.size a
  hwx0_9 : ∀ i : grid0.Coords, EltTy.bits .f32 = 32 ∨ (Rect.block (s := S512x10) S512x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x10.size a ≤ S8192x10.size a
  hwx0_11 : ∀ i : grid0.Coords, EltTy.bits .f32 = 32 ∨ (Rect.block (s := S8192x10) S64x10.size (cc0_transform_11 i) (hinb0_11 i)).WholeWords (EltTy.packing .f32)

variable [Facts₀]

def gather_S3x3x32_S28x26x1_S3x28x26x32_03_1_n_n_1_2_3132 : GatherDims S3x3x32 S28x26x1 S3x28x26x32 where
  offsetDims := [0, 3]
  collapsedSliceDims := [1]
  operandBatchingDims := []
  startIndicesBatchingDims := []
  startIndexMap := [1]
  indexVectorDim := 2
  sliceSizes := ![3, 1, 32]
  wf := gather_S3x3x32_S28x26x1_S3x28x26x32_03_1_n_n_1_2_3132_wf
def dot_S1664x84_S84x832_S1664x832_1_0_0_1_n_n : DotDims S1664x84 S84x832 S1664x832 where
  lhsContracting := [1]
  rhsContracting := [0]
  lhsNonContracting := [0]
  rhsNonContracting := [1]
  lhsBatch := []
  rhsBatch := []
  wf := dot_S1664x84_S84x832_S1664x832_1_0_0_1_n_n_wf
def dot_S7744x288_S288x64_S7744x64_1_0_0_1_n_n : DotDims S7744x288 S288x64 S7744x64 where
  lhsContracting := [1]
  rhsContracting := [0]
  lhsNonContracting := [0]
  rhsNonContracting := [1]
  lhsBatch := []
  rhsBatch := []
  wf := dot_S7744x288_S288x64_S7744x64_1_0_0_1_n_n_wf
def dot_S576x576_S576x128_S576x128_1_0_0_1_n_n : DotDims S576x576 S576x128 S576x128 where
  lhsContracting := [1]
  rhsContracting := [0]
  lhsNonContracting := [0]
  rhsNonContracting := [1]
  lhsBatch := []
  rhsBatch := []
  wf := dot_S576x576_S576x128_S576x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

abbrev win0_0 : Pipeline.Window sig grid0 :=
  Pipeline.Window.ofSpec (Memref.whole main_v0) S64x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S84x832.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x832.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S288x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S576x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S64x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1x28x28 : Shape := ⟨4, ![8192, 1, 28, 28]⟩
abbrev S3x3x1x32 : Shape := ⟨4, ![3, 3, 1, 32]⟩
abbrev S32 : Shape := ⟨1, ![32]⟩
abbrev S3x3x32x64 : Shape := ⟨4, ![3, 3, 32, 64]⟩
abbrev S64 : Shape := ⟨1, ![64]⟩
abbrev S3x3x64x128 : Shape := ⟨4, ![3, 3, 64, 128]⟩
abbrev S128 : Shape := ⟨1, ![128]⟩
abbrev S1152x512 : Shape := ⟨2, ![1152, 512]⟩
abbrev S512 : Shape := ⟨1, ![512]⟩
abbrev S512x10 : Shape := ⟨2, ![512, 10]⟩
abbrev S10 : Shape := ⟨1, ![10]⟩
abbrev S8192x28x28 : Shape := ⟨3, ![8192, 28, 28]⟩
abbrev S9x32 : Shape := ⟨2, ![9, 32]⟩
abbrev S1x32 : Shape := ⟨2, ![1, 32]⟩
abbrev S288x64 : Shape := ⟨2, ![288, 64]⟩
abbrev S1x64 : Shape := ⟨2, ![1, 64]⟩
abbrev S576x128 : Shape := ⟨2, ![576, 128]⟩
abbrev S1x128 : Shape := ⟨2, ![1, 128]⟩
abbrev S128x9x512 : Shape := ⟨3, ![128, 9, 512]⟩
abbrev S_ : Shape := ⟨0, ![]⟩
abbrev S128x512 : Shape := ⟨2, ![128, 512]⟩
abbrev S1x512 : Shape := ⟨2, ![1, 512]⟩
abbrev S1x10 : Shape := ⟨2, ![1, 10]⟩
abbrev S13 : Shape := ⟨1, ![13]⟩
abbrev S13x1 : Shape := ⟨2, ![13, 1]⟩
abbrev S25 : Shape := ⟨1, ![25]⟩
abbrev S1x25 : Shape := ⟨2, ![1, 25]⟩
abbrev S13x25 : Shape := ⟨2, ![13, 25]⟩
abbrev S5 : Shape := ⟨1, ![5]⟩
abbrev S5x1 : Shape := ⟨2, ![5, 1]⟩
abbrev S5x10 : Shape := ⟨2, ![5, 10]⟩
abbrev S8192x10 : Shape := ⟨2, ![8192, 10]⟩
abbrev S8x28x28 : Shape := ⟨3, ![8, 28, 28]⟩
abbrev S8x10 : Shape := ⟨2, ![8, 10]⟩
abbrev S8x128 : Shape := ⟨2, ![8, 128]⟩
abbrev S1x28x28 : Shape := ⟨3, ![1, 28, 28]⟩
abbrev S28x28 : Shape := ⟨2, ![28, 28]⟩
abbrev S26x1 : Shape := ⟨2, ![26, 1]⟩
abbrev S26x32 : Shape := ⟨2, ![26, 32]⟩
abbrev S25x32 : Shape := ⟨2, ![25, 32]⟩
abbrev S13x32 : Shape := ⟨2, ![13, 32]⟩
abbrev S11x32 : Shape := ⟨2, ![11, 32]⟩
abbrev S11x96 : Shape := ⟨2, ![11, 96]⟩
abbrev S11x288 : Shape := ⟨2, ![11, 288]⟩
abbrev S11x64 : Shape := ⟨2, ![11, 64]⟩
abbrev S10x64 : Shape := ⟨2, ![10, 64]⟩
abbrev S5x64 : Shape := ⟨2, ![5, 64]⟩
abbrev S3x64 : Shape := ⟨2, ![3, 64]⟩
abbrev S3x192 : Shape := ⟨2, ![3, 192]⟩
abbrev S3x576 : Shape := ⟨2, ![3, 576]⟩
abbrev S3x128 : Shape := ⟨2, ![3, 128]⟩
abbrev S8x512 : Shape := ⟨2, ![8, 512]⟩
abbrev S8 : Shape := ⟨1, ![8]⟩
abbrev S8x1 : Shape := ⟨2, ![8, 1]⟩

abbrev nBuf : Space → Nat
  | .hbm => 47
  | .vmem => 16
  | .smem => 0
  | _ => 0

abbrev bufTy : (tb : Table) → Fin (tcTables nBuf tb) → BufTy
  | .hbm, ⟨0, _⟩ => ⟨S8192x1x28x28, .f32⟩
  | .hbm, ⟨1, _⟩ => ⟨S3x3x1x32, .f32⟩
  | .hbm, ⟨2, _⟩ => ⟨S32, .f32⟩
  | .hbm, ⟨3, _⟩ => ⟨S3x3x32x64, .f32⟩
  | .hbm, ⟨4, _⟩ => ⟨S64, .f32⟩
  | .hbm, ⟨5, _⟩ => ⟨S3x3x64x128, .f32⟩
  | .hbm, ⟨6, _⟩ => ⟨S128, .f32⟩
  | .hbm, ⟨7, _⟩ => ⟨S1152x512, .f32⟩
  | .hbm, ⟨8, _⟩ => ⟨S512, .f32⟩
  | .hbm, ⟨9, _⟩ => ⟨S512x10, .f32⟩
  | .hbm, ⟨10, _⟩ => ⟨S10, .f32⟩
  | .hbm, ⟨11, _⟩ => ⟨S8192x28x28, .f32⟩
  | .hbm, ⟨12, _⟩ => ⟨S8192x28x28, .f32⟩
  | .hbm, ⟨13, _⟩ => ⟨S9x32, .f32⟩
  | .hbm, ⟨14, _⟩ => ⟨S1x32, .f32⟩
  | .hbm, ⟨15, _⟩ => ⟨S288x64, .f32⟩
  | .hbm, ⟨16, _⟩ => ⟨S1x64, .f32⟩
  | .hbm, ⟨17, _⟩ => ⟨S576x128, .f32⟩
  | .hbm, ⟨18, _⟩ => ⟨S1x128, .f32⟩
  | .hbm, ⟨19, _⟩ => ⟨S128x9x512, .f32⟩
  | .hbm, ⟨20, _⟩ => ⟨S_, .f32⟩
  | .hbm, ⟨21, _⟩ => ⟨S128x512, .f32⟩
  | .hbm, ⟨22, _⟩ => ⟨S1x512, .f32⟩
  | .hbm, ⟨23, _⟩ => ⟨S1x10, .f32⟩
  | .hbm, ⟨24, _⟩ => ⟨S13, .i32⟩
  | .hbm, ⟨25, _⟩ => ⟨S13x1, .i32⟩
  | .hbm, ⟨26, _⟩ => ⟨S25, .i32⟩
  | .hbm, ⟨27, _⟩ => ⟨S1x25, .i32⟩
  | .hbm, ⟨28, _⟩ => ⟨S_, .i32⟩
  | .hbm, ⟨29, _⟩ => ⟨S13x1, .i32⟩
  | .hbm, ⟨30, _⟩ => ⟨S13x1, .i32⟩
  | .hbm, ⟨31, _⟩ => ⟨S13x25, .i32⟩
  | .hbm, ⟨32, _⟩ => ⟨S13x25, .i32⟩
  | .hbm, ⟨33, _⟩ => ⟨S13x25, .i1⟩
  | .hbm, ⟨34, _⟩ => ⟨S13x25, .f32⟩
  | .hbm, ⟨35, _⟩ => ⟨S5, .i32⟩
  | .hbm, ⟨36, _⟩ => ⟨S5x1, .i32⟩
  | .hbm, ⟨37, _⟩ => ⟨S10, .i32⟩
  | .hbm, ⟨38, _⟩ => ⟨S1x10, .i32⟩
  | .hbm, ⟨39, _⟩ => ⟨S_, .i32⟩
  | .hbm, ⟨40, _⟩ => ⟨S5x1, .i32⟩
  | .hbm, ⟨41, _⟩ => ⟨S5x1, .i32⟩
  | .hbm, ⟨42, _⟩ => ⟨S5x10, .i32⟩
  | .hbm, ⟨43, _⟩ => ⟨S5x10, .i32⟩
  | .hbm, ⟨44, _⟩ => ⟨S5x10, .i1⟩
  | .hbm, ⟨45, _⟩ => ⟨S5x10, .f32⟩
  | .hbm, ⟨46, _⟩ => ⟨S8192x10, .f32⟩
  | .local _ .vmem, ⟨0, _⟩ => ⟨S8x28x28, .f32⟩
  | .local _ .vmem, ⟨1, _⟩ => ⟨S8x28x28, .f32⟩
  | .local _ .vmem, ⟨2, _⟩ => ⟨S9x32, .f32⟩
  | .local _ .vmem, ⟨3, _⟩ => ⟨S1x32, .f32⟩
  | .local _ .vmem, ⟨4, _⟩ => ⟨S288x64, .f32⟩
  | .local _ .vmem, ⟨5, _⟩ => ⟨S1x64, .f32⟩
  | .local _ .vmem, ⟨6, _⟩ => ⟨S576x128, .f32⟩
  | .local _ .vmem, ⟨7, _⟩ => ⟨S1x128, .f32⟩
  | .local _ .vmem, ⟨8, _⟩ => ⟨S128x512, .f32⟩
  | .local _ .vmem, ⟨9, _⟩ => ⟨S1x512, .f32⟩
  | .local _ .vmem, ⟨10, _⟩ => ⟨S512x10, .f32⟩
  | .local _ .vmem, ⟨11, _⟩ => ⟨S1x10, .f32⟩
  | .local _ .vmem, ⟨12, _⟩ => ⟨S13x25, .f32⟩
  | .local _ .vmem, ⟨13, _⟩ => ⟨S5x10, .f32⟩
  | .local _ .vmem, ⟨14, _⟩ => ⟨S8x10, .f32⟩
  | .local _ .vmem, ⟨15, _⟩ => ⟨S8x10, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![1024], ![false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg15 : BitVec 32 := Scf.iv c0_i32 c1_i32 k0_t1
  let v42 : Index := Scalar.indexCast arg15
  let c0_27 : Index := 0#32
  let c0_28 : Index := 0#32
  ![v42.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S576x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S13x25 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x10 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S8192x1x28x28_S8192x28x28 : S8192x1x28x28.ShapeCasts S8192x28x28
  transposes_S8192x28x28_S8192x28x28_0_2_1 : S8192x28x28.Transposes [0, 2, 1] S8192x28x28
  shapeCasts_S3x3x1x32_S9x32 : S3x3x1x32.ShapeCasts S9x32
  shapeCasts_S32_S1x32 : S32.ShapeCasts S1x32
  shapeCasts_S3x3x32x64_S288x64 : S3x3x32x64.ShapeCasts S288x64
  shapeCasts_S64_S1x64 : S64.ShapeCasts S1x64
  shapeCasts_S3x3x64x128_S576x128 : S3x3x64x128.ShapeCasts S576x128
  shapeCasts_S128_S1x128 : S128.ShapeCasts S1x128
  shapeCasts_S1152x512_S128x9x512 : S1152x512.ShapeCasts S128x9x512
  reducesTo_S128x9x512_S128x512_d1 : S128x9x512.ReducesTo [1] S128x512
  h_S_ : 0 < S_.numel
  shapeCasts_S512_S1x512 : S512.ShapeCasts S1x512
  shapeCasts_S10_S1x10 : S10.ShapeCasts S1x10
  bcast_S13_S13x1_0 : S13.BroadcastsInDim S13x1 (![0] : Fin 1 → Fin S13x1.rank)
  bcast_S25_S1x25_1 : S25.BroadcastsInDim S1x25 (![1] : Fin 1 → Fin S1x25.rank)
  bcast_S_S13x1 : S_.BroadcastsInDim S13x1 (![] : Fin 0 → Fin S13x1.rank)
  bcast_S1x25_S13x25_0_1 : S1x25.BroadcastsInDim S13x25 (![0, 1] : Fin 2 → Fin S13x25.rank)
  bcast_S13x1_S13x25_0_1 : S13x1.BroadcastsInDim S13x25 (![0, 1] : Fin 2 → Fin S13x25.rank)
  bcast_S5_S5x1_0 : S5.BroadcastsInDim S5x1 (![0] : Fin 1 → Fin S5x1.rank)
  bcast_S10_S1x10_1 : S10.BroadcastsInDim S1x10 (![1] : Fin 1 → Fin S1x10.rank)
  bcast_S_S5x1 : S_.BroadcastsInDim S5x1 (![] : Fin 0 → Fin S5x1.rank)
  bcast_S1x10_S5x10_0_1 : S1x10.BroadcastsInDim S5x10 (![0, 1] : Fin 2 → Fin S5x10.rank)
  bcast_S5x1_S5x10_0_1 : S5x1.BroadcastsInDim S5x10 (![0, 1] : Fin 2 → Fin S5x10.rank)
  inb_S9x32_S9x32_0_0 : ∀ a, (![0, 0] : Fin 2 → Nat) a + S9x32.size a ≤ S9x32.size a
  h_S9x32 : 0 < S9x32.numel
  shapeCasts_S9x32_S9x32 : S9x32.ShapeCasts S9x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S13x25_S13x25_0_0 : ∀ a, (![0, 0] : Fin 2 → Nat) a + S13x25.size a ≤ S13x25.size a
  h_S13x25 : 0 < S13x25.numel
  shapeCasts_S13x25_S13x25 : S13x25.ShapeCasts S13x25
  inb_S5x10_S5x10_0_0 : ∀ a, (![0, 0] : Fin 2 → Nat) a + S5x10.size a ≤ S5x10.size a
  h_S5x10 : 0 < S5x10.numel
  shapeCasts_S5x10_S5x10 : S5x10.ShapeCasts S5x10
  iota_S8x128_d0_w32 : S8x128.Iotas .tc 32 [0]
  h_S1x28x28 : 0 < S1x28x28.numel
  shapeCasts_S1x28x28_S28x28 : S1x28x28.ShapeCasts S28x28
  slices_S28x28_o0_0_S26x1 : S28x28.Slices ![0, 0] S26x1
  slices_S28x28_o1_0_S26x1 : S28x28.Slices ![1, 0] S26x1
  slices_S28x28_o2_0_S26x1 : S28x28.Slices ![2, 0] S26x1
  slices_S28x28_o0_1_S26x1 : S28x28.Slices ![0, 1] S26x1
  slices_S28x28_o1_1_S26x1 : S28x28.Slices ![1, 1] S26x1
  slices_S28x28_o2_1_S26x1 : S28x28.Slices ![2, 1] S26x1
  slices_S28x28_o0_2_S26x1 : S28x28.Slices ![0, 2] S26x1
  slices_S28x28_o1_2_S26x1 : S28x28.Slices ![1, 2] S26x1
  slices_S28x28_o2_2_S26x1 : S28x28.Slices ![2, 2] S26x1
  slices_S28x28_o0_3_S26x1 : S28x28.Slices ![0, 3] S26x1
  slices_S28x28_o1_3_S26x1 : S28x28.Slices ![1, 3] S26x1
  slices_S28x28_o2_3_S26x1 : S28x28.Slices ![2, 3] S26x1
  slices_S9x32_o0_0_S1x32 : S9x32.Slices ![0, 0] S1x32
  broadcasts_S26x1_S26x32 : S26x1.Broadcasts S26x32
  broadcasts_S1x32_S26x32 : S1x32.Broadcasts S26x32
  slices_S9x32_o1_0_S1x32 : S9x32.Slices ![1, 0] S1x32
  slices_S9x32_o2_0_S1x32 : S9x32.Slices ![2, 0] S1x32
  slices_S9x32_o3_0_S1x32 : S9x32.Slices ![3, 0] S1x32
  slices_S9x32_o4_0_S1x32 : S9x32.Slices ![4, 0] S1x32
  slices_S9x32_o5_0_S1x32 : S9x32.Slices ![5, 0] S1x32
  slices_S9x32_o6_0_S1x32 : S9x32.Slices ![6, 0] S1x32
  slices_S9x32_o7_0_S1x32 : S9x32.Slices ![7, 0] S1x32
  slices_S9x32_o8_0_S1x32 : S9x32.Slices ![8, 0] S1x32
  slices_S26x32_o0_0_S25x32 : S26x32.Slices ![0, 0] S25x32
  slices_S26x32_o1_0_S25x32 : S26x32.Slices ![1, 0] S25x32
  slices_S13x32_o0_0_S11x32 : S13x32.Slices ![0, 0] S11x32
  slices_S13x32_o1_0_S11x32 : S13x32.Slices ![1, 0] S11x32
  slices_S13x32_o2_0_S11x32 : S13x32.Slices ![2, 0] S11x32
  concatenates_S11x32_S11x32_S11x32_S11x96_d1 : Shape.Concatenates [S11x32, S11x32, S11x32] S11x96 1
  slices_S28x28_o0_4_S26x1 : S28x28.Slices ![0, 4] S26x1
  slices_S28x28_o1_4_S26x1 : S28x28.Slices ![1, 4] S26x1
  slices_S28x28_o2_4_S26x1 : S28x28.Slices ![2, 4] S26x1
  slices_S28x28_o0_5_S26x1 : S28x28.Slices ![0, 5] S26x1
  slices_S28x28_o1_5_S26x1 : S28x28.Slices ![1, 5] S26x1
  slices_S28x28_o2_5_S26x1 : S28x28.Slices ![2, 5] S26x1
  slices_S28x28_o0_6_S26x1 : S28x28.Slices ![0, 6] S26x1
  slices_S28x28_o1_6_S26x1 : S28x28.Slices ![1, 6] S26x1
  slices_S28x28_o2_6_S26x1 : S28x28.Slices ![2, 6] S26x1
  slices_S28x28_o0_7_S26x1 : S28x28.Slices ![0, 7] S26x1
  slices_S28x28_o1_7_S26x1 : S28x28.Slices ![1, 7] S26x1
  slices_S28x28_o2_7_S26x1 : S28x28.Slices ![2, 7] S26x1
  slices_S28x28_o0_8_S26x1 : S28x28.Slices ![0, 8] S26x1
  slices_S28x28_o1_8_S26x1 : S28x28.Slices ![1, 8] S26x1
  slices_S28x28_o2_8_S26x1 : S28x28.Slices ![2, 8] S26x1
  slices_S28x28_o0_9_S26x1 : S28x28.Slices ![0, 9] S26x1
  slices_S28x28_o1_9_S26x1 : S28x28.Slices ![1, 9] S26x1
  slices_S28x28_o2_9_S26x1 : S28x28.Slices ![2, 9] S26x1
  slices_S28x28_o0_10_S26x1 : S28x28.Slices ![0, 10] S26x1
  slices_S28x28_o1_10_S26x1 : S28x28.Slices ![1, 10] S26x1
  slices_S28x28_o2_10_S26x1 : S28x28.Slices ![2, 10] S26x1
  slices_S28x28_o0_11_S26x1 : S28x28.Slices ![0, 11] S26x1
  slices_S28x28_o1_11_S26x1 : S28x28.Slices ![1, 11] S26x1
  slices_S28x28_o2_11_S26x1 : S28x28.Slices ![2, 11] S26x1
  slices_S28x28_o0_12_S26x1 : S28x28.Slices ![0, 12] S26x1
  slices_S28x28_o1_12_S26x1 : S28x28.Slices ![1, 12] S26x1
  slices_S28x28_o2_12_S26x1 : S28x28.Slices ![2, 12] S26x1
  slices_S28x28_o0_13_S26x1 : S28x28.Slices ![0, 13] S26x1
  slices_S28x28_o1_13_S26x1 : S28x28.Slices ![1, 13] S26x1
  slices_S28x28_o2_13_S26x1 : S28x28.Slices ![2, 13] S26x1
  slices_S28x28_o0_14_S26x1 : S28x28.Slices ![0, 14] S26x1
  slices_S28x28_o1_14_S26x1 : S28x28.Slices ![1, 14] S26x1
  slices_S28x28_o2_14_S26x1 : S28x28.Slices ![2, 14] S26x1
  slices_S28x28_o0_15_S26x1 : S28x28.Slices ![0, 15] S26x1
  slices_S28x28_o1_15_S26x1 : S28x28.Slices ![1, 15] S26x1
  slices_S28x28_o2_15_S26x1 : S28x28.Slices ![2, 15] S26x1
  slices_S28x28_o0_16_S26x1 : S28x28.Slices ![0, 16] S26x1
  slices_S28x28_o1_16_S26x1 : S28x28.Slices ![1, 16] S26x1
  slices_S28x28_o2_16_S26x1 : S28x28.Slices ![2, 16] S26x1
  slices_S28x28_o0_17_S26x1 : S28x28.Slices ![0, 17] S26x1
  slices_S28x28_o1_17_S26x1 : S28x28.Slices ![1, 17] S26x1
  slices_S28x28_o2_17_S26x1 : S28x28.Slices ![2, 17] S26x1
  slices_S28x28_o0_18_S26x1 : S28x28.Slices ![0, 18] S26x1
  slices_S28x28_o1_18_S26x1 : S28x28.Slices ![1, 18] S26x1
  slices_S28x28_o2_18_S26x1 : S28x28.Slices ![2, 18] S26x1
  slices_S28x28_o0_19_S26x1 : S28x28.Slices ![0, 19] S26x1
  slices_S28x28_o1_19_S26x1 : S28x28.Slices ![1, 19] S26x1
  slices_S28x28_o2_19_S26x1 : S28x28.Slices ![2, 19] S26x1
  slices_S28x28_o0_20_S26x1 : S28x28.Slices ![0, 20] S26x1
  slices_S28x28_o1_20_S26x1 : S28x28.Slices ![1, 20] S26x1
  slices_S28x28_o2_20_S26x1 : S28x28.Slices ![2, 20] S26x1
  slices_S28x28_o0_21_S26x1 : S28x28.Slices ![0, 21] S26x1
  slices_S28x28_o1_21_S26x1 : S28x28.Slices ![1, 21] S26x1
  slices_S28x28_o2_21_S26x1 : S28x28.Slices ![2, 21] S26x1
  concatenates_S11x96_S11x96_S11x96_S11x288_d1 : Shape.Concatenates [S11x96, S11x96, S11x96] S11x288 1
  inb_S288x64_S288x64_0_0 : ∀ a, (![0, 0] : Fin 2 → Nat) a + S288x64.size a ≤ S288x64.size a
  h_S288x64 : 0 < S288x64.numel
  shapeCasts_S288x64_S288x64 : S288x64.ShapeCasts S288x64
  broadcasts_S1x64_S11x64 : S1x64.Broadcasts S11x64
  slices_S11x64_o0_0_S10x64 : S11x64.Slices ![0, 0] S10x64
  slices_S11x64_o1_0_S10x64 : S11x64.Slices ![1, 0] S10x64
  slices_S5x64_o0_0_S3x64 : S5x64.Slices ![0, 0] S3x64
  slices_S5x64_o1_0_S3x64 : S5x64.Slices ![1, 0] S3x64
  slices_S5x64_o2_0_S3x64 : S5x64.Slices ![2, 0] S3x64
  concatenates_S3x64_S3x64_S3x64_S3x192_d1 : Shape.Concatenates [S3x64, S3x64, S3x64] S3x192 1
  concatenates_S3x192_S3x192_S3x192_S3x576_d1 : Shape.Concatenates [S3x192, S3x192, S3x192] S3x576 1
  inb_S576x128_S576x128_0_0 : ∀ a, (![0, 0] : Fin 2 → Nat) a + S576x128.size a ≤ S576x128.size a
  h_S576x128 : 0 < S576x128.numel
  shapeCasts_S576x128_S576x128 : S576x128.ShapeCasts S576x128
  broadcasts_S1x128_S3x128 : S1x128.Broadcasts S3x128
  slices_S3x128_o0_0_S1x128 : S3x128.Slices ![0, 0] S1x128
  slices_S3x128_o1_0_S1x128 : S3x128.Slices ![1, 0] S1x128
  broadcasts_S1x128_S8x128 : S1x128.Broadcasts S8x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  inb_S512x10_S512x10_0_0 : ∀ a, (![0, 0] : Fin 2 → Nat) a + S512x10.size a ≤ S512x10.size a
  h_S512x10 : 0 < S512x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S8x10 : S1x10.Broadcasts S8x10
  reduces_S8x10_S8 : S8x10.Reduces [1] S8
  shapeCasts_S8_S8x1 : S8.ShapeCasts S8x1
  broadcasts_S8x1_S8x10 : S8x1.Broadcasts S8x10
  inb_S8x10_S8x10_0_0 : ∀ a, (![0, 0] : Fin 2 → Nat) a + S8x10.size a ≤ S8x10.size a
  h_S8x10 : 0 < S8x10.numel
  dot_S13x25_S25x32_S13x32_1_0_0_1_n_n_wf : DotDims.WF S13x25 S25x32 S13x32 [1] [0] [0] [1] [] []
  dot_S11x288_S288x64_S11x64_1_0_0_1_n_n_wf : DotDims.WF S11x288 S288x64 S11x64 [1] [0] [0] [1] [] []
  dot_S5x10_S10x64_S5x64_1_0_0_1_n_n_wf : DotDims.WF S5x10 S10x64 S5x64 [1] [0] [0] [1] [] []
  dot_S3x576_S576x128_S3x128_1_0_0_1_n_n_wf : DotDims.WF S3x576 S576x128 S3x128 [1] [0] [0] [1] [] []
  dot_S8x128_S128x512_S8x512_1_0_0_1_n_n_wf : DotDims.WF S8x128 S128x512 S8x512 [1] [0] [0] [1] [] []
  dot_S8x512_S512x10_S8x10_1_0_0_1_n_n_wf : DotDims.WF S8x512 S512x10 S8x10 [1] [0] [0] [1] [] []
  hrank0 : 0 < grid0.rank
  k0_t1_ok : k0_t1_loop.OK
  k0_off1_inb : ∀ k0_t1 : Fin k0_t1_loop.trips, ∀ a, (k0_off1 k0_t1) a + S1x28x28.size a ≤ S8x28x28.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x28x28.size a ≤ S8192x28x28.size a
  hwx0_0 : ∀ i : grid0.Coords, EltTy.bits .f32 = 32 ∨ (Rect.block (s := S8192x28x28) S8x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32.size a ≤ S9x32.size a
  hwx0_1 : ∀ i : grid0.Coords, EltTy.bits .f32 = 32 ∨ (Rect.block (s := S9x32) S9x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x64.size a ≤ S288x64.size a
  hwx0_3 : ∀ i : grid0.Coords, EltTy.bits .f32 = 32 ∨ (Rect.block (s := S288x64) S288x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S576x128.size a ≤ S576x128.size a
  hwx0_5 : ∀ i : grid0.Coords, EltTy.bits .f32 = 32 ∨ (Rect.block (s := S576x128) S576x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x512.size a ≤ S128x512.size a
  hwx0_7 : ∀ i : grid0.Coords, EltTy.bits .f32 = 32 ∨ (Rect.block (s := S128x512) S128x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x10.size a ≤ S512x10.size a
  hwx0_9 : ∀ i : grid0.Coords, EltTy.bits .f32 = 32 ∨ (Rect.block (s := S512x10) S512x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S13x25.size a ≤ S13x25.size a
  hwx0_11 : ∀ i : grid0.Coords, EltTy.bits .f32 = 32 ∨ (Rect.block (s := S13x25) S13x25.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S5x10.size a ≤ S5x10.size a
  hwx0_12 : ∀ i : grid0.Coords, EltTy.bits .f32 = 32 ∨ (Rect.block (s := S5x10) S5x10.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x10.size a ≤ S8192x10.size a
  hwx0_13 : ∀ i : grid0.Coords, EltTy.bits .f32 = 32 ∨ (Rect.block (s := S8192x10) S8x10.size (cc0_transform_13 i) (hinb0_13 i)).WholeWords (EltTy.packing .f32)

variable [Facts₀]

def dot_S13x25_S25x32_S13x32_1_0_0_1_n_n : DotDims S13x25 S25x32 S13x32 where
  lhsContracting := [1]
  rhsContracting := [0]
  lhsNonContracting := [0]
  rhsNonContracting := [1]
  lhsBatch := []
  rhsBatch := []
  wf := dot_S13x25_S25x32_S13x32_1_0_0_1_n_n_wf
def dot_S11x288_S288x64_S11x64_1_0_0_1_n_n : DotDims S11x288 S288x64 S11x64 where
  lhsContracting := [1]
  rhsContracting := [0]
  lhsNonContracting := [0]
  rhsNonContracting := [1]
  lhsBatch := []
  rhsBatch := []
  wf := dot_S11x288_S288x64_S11x64_1_0_0_1_n_n_wf
def dot_S5x10_S10x64_S5x64_1_0_0_1_n_n : DotDims S5x10 S10x64 S5x64 where
  lhsContracting := [1]
  rhsContracting := [0]
  lhsNonContracting := [0]
  rhsNonContracting := [1]
  lhsBatch := []
  rhsBatch := []
  wf := dot_S5x10_S10x64_S5x64_1_0_0_1_n_n_wf
def dot_S3x576_S576x128_S3x128_1_0_0_1_n_n : DotDims S3x576 S576x128 S3x128 where
  lhsContracting := [1]
  rhsContracting := [0]
  lhsNonContracting := [0]
  rhsNonContracting := [1]
  lhsBatch := []
  rhsBatch := []
  wf := dot_S3x576_S576x128_S3x128_1_0_0_1_n_n_wf
def dot_S8x128_S128x512_S8x512_1_0_0_1_n_n : DotDims S8x128 S128x512 S8x512 where
  lhsContracting := [1]
  rhsContracting := [0]
  lhsNonContracting := [0]
  rhsNonContracting := [1]
  lhsBatch := []
  rhsBatch := []
  wf := dot_S8x128_S128x512_S8x512_1_0_0_1_n_n_wf
def dot_S8x512_S512x10_S8x10_1_0_0_1_n_n : DotDims S8x512 S512x10 S8x10 where
  lhsContracting := [1]
  rhsContracting := [0]
  lhsNonContracting := [0]
  rhsNonContracting := [1]
  lhsBatch := []
  rhsBatch := []
  wf := dot_S8x512_S512x10_S8x10_1_0_0_1_n_n_wf

abbrev win0_0 : Pipeline.Window sig grid0 :=
  Pipeline.Window.ofSpec (Memref.whole main_v1) S8x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S288x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S576x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S13x25.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S5x10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S8x10.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«139938_g2000005272685101_pallaspilot1_161_3_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibLogSoftmaxRows.lean ====
/-
  A row-wise log-softmax in the vector unit's spelling, read at an entry, at the exact extended reals.

  For a matrix `Z` of `B` rows and `N` columns the program takes each row's maximum `M r` (a fold of `max` from the
  accumulator's value), subtracts it, exponentiates, sums each row, takes the logarithm and subtracts again. At entry
  `(r, j)` the result is `(Z r j - M r) - log (∑ c, exp (Z r c - M r))`: every quantity is read from row `r` alone.
-/
import proofs.«139938_g2000005272685101_pallaspilot1_161_3_alg».proof.Proof.LibLaneMax
import proofs.«139938_g2000005272685101_pallaspilot1_161_3_alg».proof.Proof.LibColumnCast
import proofs.«139938_g2000005272685101_pallaspilot1_161_3_alg».proof.Proof.LibColumnBroadcast

open scoped BigOperators

namespace Idealize.ShloMosaic.ValueIdx

open Idealize.ShloMosaic

/-- A pointwise exponential read at an index. -/
theorem exp_apply {s : Shape} {φ : FTy} (a : FVec Ideal s φ) (i : s.Idx) : exp a i = Ideal.exp (a i) := rfl

/-- A pointwise logarithm read at an index. -/
theorem log_apply {s : Shape} {φ : FTy} (a : FVec Ideal s φ) (i : s.Idx) : log a i = Ideal.log (a i) := rfl

/-- The maximum of row `r` of `Z`, folded from the accumulator's value. -/
noncomputable def rowMax {B N : ℕ} {φ : FTy} (Z : FVec Ideal ⟨2, ![B, N]⟩ φ) (acc : BitVec φ.bits) (r : Fin B) : EReal :=
  (Finset.univ : Finset (Fin N)).fold max (FloatOps.ofBits (F := Ideal) φ acc) (fun c => Z (ix2 r c))

/-- A row maximum made a column and spread over the row's entries reads the row's maximum at every entry. -/
theorem rowMax_spread_apply {B N : ℕ} {φ : FTy} (Z : FVec Ideal ⟨2, ![B, N]⟩ φ) (acc : BitVec φ.bits)
    (hr : (⟨2, ![B, N]⟩ : Shape).Reduces [1] ⟨1, ![B]⟩) (hφ : FKind.Formats φ) (hacc : acc = FKind.maximumf.neutral φ hφ)
    (hc : (⟨1, ![B]⟩ : Shape).ShapeCasts ⟨2, ![B, 1]⟩) (hb : (⟨2, ![B, 1]⟩ : Shape).Broadcasts ⟨2, ![B, N]⟩)
    (r : Fin B) (j : Fin N) :
    broadcastTo ⟨2, ![B, N]⟩ (shapeCast ⟨2, ![B, 1]⟩ (multiReduction .maximumf [1] ⟨1, ![B]⟩ Z acc hr hφ hacc) hc) hb (ix2 r j)
      = rowMax Z acc r := by
  rw [broadcastTo_a1_ab_apply, shapeCast_a_a1_apply, multiReduction_maximumf_rows_apply]
  rfl

/-- The row-wise log-softmax at entry `(r, j)`: the entry less its row's maximum, less the logarithm of the row's sum of
    exponentials of entries less that maximum. -/
theorem logSoftmax_rows_apply {B N : ℕ} {φ : FTy} (Z : FVec Ideal ⟨2, ![B, N]⟩ φ) (accM accS : BitVec φ.bits)
    (hr : (⟨2, ![B, N]⟩ : Shape).Reduces [1] ⟨1, ![B]⟩) (hφ hφ' : FKind.Formats φ)
    (haccM : accM = FKind.maximumf.neutral φ hφ) (haccS : accS = FKind.add.neutral φ hφ')
    (hc : (⟨1, ![B]⟩ : Shape).ShapeCasts ⟨2, ![B, 1]⟩) (hb : (⟨2, ![B, 1]⟩ : Shape).Broadcasts ⟨2, ![B, N]⟩)
    (r : Fin B) (j : Fin N) :
    subf
      (subf Z (broadcastTo ⟨2, ![B, N]⟩ (shapeCast ⟨2, ![B, 1]⟩ (multiReduction .maximumf [1] ⟨1, ![B]⟩ Z accM hr hφ haccM) hc) hb))
      (broadcastTo ⟨2, ![B, N]⟩
        (log (shapeCast ⟨2, ![B, 1]⟩
          (multiReduction .add [1] ⟨1, ![B]⟩
            (exp (subf Z (broadcastTo ⟨2, ![B, N]⟩ (shapeCast ⟨2, ![B, 1]⟩ (multiReduction .maximumf [1] ⟨1, ![B]⟩ Z accM hr hφ haccM) hc) hb)))
            accS hr hφ' haccS) hc)) hb)
      (ix2 r j)
      = (Z (ix2 r j) - rowMax Z accM r) - Ideal.log (∑ c : Fin N, Ideal.exp (Z (ix2 r c) - rowMax Z accM r)) := by
  rw [subf_apply, subf_apply, rowMax_spread_apply, broadcastTo_a1_ab_apply, log_apply, shapeCast_a_a1_apply,
    multiReduction_add_rows_apply]
  refine congrArg (fun t => (Z (ix2 r j) - rowMax Z accM r) - Ideal.log t) (Finset.sum_congr rfl fun c _ => ?_)
  rw [exp_apply, subf_apply, rowMax_spread_apply]

end Idealize.ShloMosaic.ValueIdx
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibDenseRows.lean ====
/-
  A dense layer in the matrix unit's spelling, read at an entry, at the exact extended reals: the product of an
  `[m, k]` by a `[k, n]` matrix accumulated from zero, plus a `[1, n]` bias row spread over the rows, is at `(a, b)`
  the sum over `c` of `A a c * W c b` plus the bias at `b`; with a positive part taken against a constant, the maximum
  of that and the constant.
-/
import proofs.«139938_g2000005272685101_pallaspilot1_161_3_alg».proof.Proof.LibPlainMatmul
import Idealize.ShloMosaic.Lib.ValueLayout

open scoped BigOperators

namespace Idealize.ShloMosaic.ValueIdx

open Idealize.ShloMosaic

/-- A matrix product from the zero accumulator, under any name for its dimension record. -/
theorem matmul_named_zero_apply {m k n : ℕ} {φ₁ φ₂ : FTy}
    (w : DotDims.WF ⟨2, ![m, k]⟩ ⟨2, ![k, n]⟩ ⟨2, ![m, n]⟩ [1] [0] [0] [1] [] [])
    (D : DotDims ⟨2, ![m, k]⟩ ⟨2, ![k, n]⟩ ⟨2, ![m, n]⟩) (hD : D = ⟨[1], [0], [0], [1], [], [], w⟩)
    (prec : Option ContractPrecision) (A : FVec Ideal ⟨2, ![m, k]⟩ φ₁) (W : FVec Ideal ⟨2, ![k, n]⟩ φ₂) (a : Fin m) (b : Fin n) :
    matmul D prec A W (constant (F := Ideal) ⟨2, ![m, n]⟩ .f32 0x00000000#32) (ix2 a b)
      = ∑ c : Fin k, A (ix2 a c) * W (ix2 c b) := by
  subst hD
  exact matmul_plain_zero_apply w prec A W a b

/-- A product plus a bias row, at an entry. -/
theorem biased_matmul_apply {m k n : ℕ} {φ₁ φ₂ : FTy}
    (w : DotDims.WF ⟨2, ![m, k]⟩ ⟨2, ![k, n]⟩ ⟨2, ![m, n]⟩ [1] [0] [0] [1] [] [])
    (D : DotDims ⟨2, ![m, k]⟩ ⟨2, ![k, n]⟩ ⟨2, ![m, n]⟩) (hD : D = ⟨[1], [0], [0], [1], [], [], w⟩)
    (prec : Option ContractPrecision) (A : FVec Ideal ⟨2, ![m, k]⟩ φ₁) (W : FVec Ideal ⟨2, ![k, n]⟩ φ₂)
    (bias : FVec Ideal ⟨2, ![1, n]⟩ .f32) (hb : (⟨2, ![1, n]⟩ : Shape).Broadcasts ⟨2, ![m, n]⟩) (a : Fin m) (b : Fin n) :
    addf (matmul D prec A W (constant (F := Ideal) ⟨2, ![m, n]⟩ .f32 0x00000000#32)) (broadcastTo ⟨2, ![m, n]⟩ bias hb) (ix2 a b)
      = (∑ c : Fin k, A (ix2 a c) * W (ix2 c b)) + bias (ix2 (0 : Fin 1) b) := by
  rw [addf_apply, matmul_named_zero_apply w D hD, broadcastTo_1b_ab_apply]

/-- A product plus a bias row, then the maximum with a constant, at an entry. -/
theorem biased_matmul_max_apply {m k n : ℕ} {φ₁ φ₂ : FTy}
    (w : DotDims.WF ⟨2, ![m, k]⟩ ⟨2, ![k, n]⟩ ⟨2, ![m, n]⟩ [1] [0] [0] [1] [] [])
    (D : DotDims ⟨2, ![m, k]⟩ ⟨2, ![k, n]⟩ ⟨2, ![m, n]⟩) (hD : D = ⟨[1], [0], [0], [1], [], [], w⟩)
    (prec : Option ContractPrecision) (A : FVec Ideal ⟨2, ![m, k]⟩ φ₁) (W : FVec Ideal ⟨2, ![k, n]⟩ φ₂)
    (bias : FVec Ideal ⟨2, ![1, n]⟩ .f32) (hb : (⟨2, ![1, n]⟩ : Shape).Broadcasts ⟨2, ![m, n]⟩) (z : Ideal .f32)
    (a : Fin m) (b : Fin n) :
    maximumf (addf (matmul D prec A W (constant (F := Ideal) ⟨2, ![m, n]⟩ .f32 0x00000000#32)) (broadcastTo ⟨2, ![m, n]⟩ bias hb))
        (broadcast ⟨2, ![m, n]⟩ z) (ix2 a b)
      = max ((∑ c : Fin k, A (ix2 a c) * W (ix2 c b)) + bias (ix2 (0 : Fin 1) b)) z := by
  rw [maximumf_apply, biased_matmul_apply w D hD, broadcast_apply]

end Idealize.ShloMosaic.ValueIdx
-- ==== Proof.Spec.lean ====
/-
  The network's tail as ONE function of a feature row, over the extended reals: a dense layer with a positive part, a
  second dense layer, and the log-softmax of the ten logits. Both programs end with this tail, row by row, one over
  blocks of 64 rows and one over blocks of 8.
-/
import proofs.«139938_g2000005272685101_pallaspilot1_161_3_alg».proof.Proof.LibLogSoftmaxRows
import proofs.«139938_g2000005272685101_pallaspilot1_161_3_alg».proof.Proof.LibDenseRows

open scoped BigOperators

noncomputable section

namespace Cert.Net

open Idealize.ShloMosaic Idealize.ShloMosaic.ValueIdx

/-- The word of `0.0` and the word of `-inf`, kept as patterns: both programs use the same two words. -/
abbrev zeroW : Ideal .f32 := FloatOps.ofBits (F := Ideal) .f32 0x00000000#32
abbrev botW : Ideal .f32 := FloatOps.ofBits (F := Ideal) .f32 0xFF800000#32

/-- The hidden layer of a feature row: `max (f · W1 + b1) 0`, entry `k`. -/
def hiddenRow (f : Fin 128 → EReal) (W1 : FVec Ideal ⟨2, ![128, 512]⟩ .f32) (b1 : FVec Ideal ⟨2, ![1, 512]⟩ .f32)
    (k : Fin 512) : EReal :=
  max ((∑ c : Fin 128, f c * W1 (ix2 c k)) + b1 (ix2 (0 : Fin 1) k)) zeroW

/-- The ten logits of a feature row. -/
def logitRow (f : Fin 128 → EReal) (W1 : FVec Ideal ⟨2, ![128, 512]⟩ .f32) (b1 : FVec Ideal ⟨2, ![1, 512]⟩ .f32)
    (W2 : FVec Ideal ⟨2, ![512, 10]⟩ .f32) (b2 : FVec Ideal ⟨2, ![1, 10]⟩ .f32) (j : Fin 10) : EReal :=
  (∑ k : Fin 512, hiddenRow f W1 b1 k * W2 (ix2 k j)) + b2 (ix2 (0 : Fin 1) j)

/-- The log-softmax of ten numbers: each less their maximum, less the logarithm of the sum of the exponentials of those
    differences. -/
def logSoftmax10 (z : Fin 10 → EReal) (j : Fin 10) : EReal :=
  (z j - (Finset.univ : Finset (Fin 10)).fold max botW z)
    - Ideal.log (∑ c : Fin 10, Ideal.exp (z c - (Finset.univ : Finset (Fin 10)).fold max botW z))

/-- The tail of a feature row: the log-softmax of its logits. -/
def tailRow (f : Fin 128 → EReal) (W1 : FVec Ideal ⟨2, ![128, 512]⟩ .f32) (b1 : FVec Ideal ⟨2, ![1, 512]⟩ .f32)
    (W2 : FVec Ideal ⟨2, ![512, 10]⟩ .f32) (b2 : FVec Ideal ⟨2, ![1, 10]⟩ .f32) (j : Fin 10) : EReal :=
  logSoftmax10 (logitRow f W1 b1 W2 b2) j

end Cert.Net

end
-- ==== Proof.RefGroup.lean ====
/-
  One image's first layer in the block-of-8 program, one pair of rows at a time. A row of the first convolution is the
  bias plus nine products of a column of the (transposed) image with a row of the 9 x 32 weight matrix, added one
  after another; the program computes eight of the nine terms of the pair's first row in one step (`rowA`), and in the
  next the ninth term, the positive part, the whole second row with its positive part, the maximum of the two rows and
  the maximum of neighbouring positions. Read here at an entry, over columns given as variables.
-/
import proofs.«139938_g2000005272685101_pallaspilot1_161_3_alg».proof.Proof.Gen.ReferenceIdeal.Skeleton
import proofs.«139938_g2000005272685101_pallaspilot1_161_3_alg».proof.Proof.Spec
import proofs.«139938_g2000005272685101_pallaspilot1_161_3_alg».proof.Proof.LibColumnBroadcast

set_option maxRecDepth 65536

open scoped BigOperators

noncomputable section

namespace Cert.ReferenceIdeal.Hand

open Cert.ReferenceIdeal Cert.ReferenceIdeal.Gen Idealize.ShloMosaic Idealize.ShloMosaic.ValueIdx Idealize.SL.Sem

variable {F : FTy → Type} [FloatOps F]

/-- Eight of the nine terms of a convolution row, over the eight columns they read. -/
def rowA (c0 c1 c2 c3 c4 c5 c6 c7 : FVec F S26x1 .f32) (v1 : FVec F S9x32 .f32) (v3 : FVec F S1x32 .f32) : FVec F S26x32 .f32 :=
  have v57 : FVec F S1x32 .f32 := extractStridedSlice S1x32 ![0, 0] v1 slices_S9x32_o0_0_S1x32
  have v58 : FVec F S26x32 .f32 := broadcastTo S26x32 c0 broadcasts_S26x1_S26x32
  have v59 : FVec F S26x32 .f32 := broadcastTo S26x32 v57 broadcasts_S1x32_S26x32
  have v60 : FVec F S26x32 .f32 := mulf v58 v59
  have v61 : FVec F S26x32 .f32 := broadcastTo S26x32 v3 broadcasts_S1x32_S26x32
  have v62 : FVec F S26x32 .f32 := addf v61 v60
  have v63 : FVec F S1x32 .f32 := extractStridedSlice S1x32 ![1, 0] v1 slices_S9x32_o1_0_S1x32
  have v64 : FVec F S26x32 .f32 := broadcastTo S26x32 c1 broadcasts_S26x1_S26x32
  have v65 : FVec F S26x32 .f32 := broadcastTo S26x32 v63 broadcasts_S1x32_S26x32
  have v66 : FVec F S26x32 .f32 := mulf v64 v65
  have v67 : FVec F S26x32 .f32 := addf v62 v66
  have v68 : FVec F S1x32 .f32 := extractStridedSlice S1x32 ![2, 0] v1 slices_S9x32_o2_0_S1x32
  have v69 : FVec F S26x32 .f32 := broadcastTo S26x32 c2 broadcasts_S26x1_S26x32
  have v70 : FVec F S26x32 .f32 := broadcastTo S26x32 v68 broadcasts_S1x32_S26x32
  have v71 : FVec F S26x32 .f32 := mulf v69 v70
  have v72 : FVec F S26x32 .f32 := addf v67 v71
  have v73 : FVec F S1x32 .f32 := extractStridedSlice S1x32 ![3, 0] v1 slices_S9x32_o3_0_S1x32
  have v74 : FVec F S26x32 .f32 := broadcastTo S26x32 c3 broadcasts_S26x1_S26x32
  have v75 : FVec F S26x32 .f32 := broadcastTo S26x32 v73 broadcasts_S1x32_S26x32
  have v76 : FVec F S26x32 .f32 := mulf v74 v75
  have v77 : FVec F S26x32 .f32 := addf v72 v76
  have v78 : FVec F S1x32 .f32 := extractStridedSlice S1x32 ![4, 0] v1 slices_S9x32_o4_0_S1x32
  have v79 : FVec F S26x32 .f32 := broadcastTo S26x32 c4 broadcasts_S26x1_S26x32
  have v80 : FVec F S26x32 .f32 := broadcastTo S26x32 v78 broadcasts_S1x32_S26x32
  have v81 : FVec F S26x32 .f32 := mulf v79 v80
  have v82 : FVec F S26x32 .f32 := addf v77 v81
  have v83 : FVec F S1x32 .f32 := extractStridedSlice S1x32 ![5, 0] v1 slices_S9x32_o5_0_S1x32
  have v84 : FVec F S26x32 .f32 := broadcastTo S26x32 c5 broadcasts_S26x1_S26x32
  have v85 : FVec F S26x32 .f32 := broadcastTo S26x32 v83 broadcasts_S1x32_S26x32
  have v86 : FVec F S26x32 .f32 := mulf v84 v85
  have v87 : FVec F S26x32 .f32 := addf v82 v86
  have v88 : FVec F S1x32 .f32 := extractStridedSlice S1x32 ![6, 0] v1 slices_S9x32_o6_0_S1x32
  have v89 : FVec F S26x32 .f32 := broadcastTo S26x32 c6 broadcasts_S26x1_S26x32
  have v90 : FVec F S26x32 .f32 := broadcastTo S26x32 v88 broadcasts_S1x32_S26x32
  have v91 : FVec F S26x32 .f32 := mulf v89 v90
  have v92 : FVec F S26x32 .f32 := addf v87 v91
  have v93 : FVec F S1x32 .f32 := extractStridedSlice S1x32 ![7, 0] v1 slices_S9x32_o7_0_S1x32
  have v94 : FVec F S26x32 .f32 := broadcastTo S26x32 c7 broadcasts_S26x1_S26x32
  have v95 : FVec F S26x32 .f32 := broadcastTo S26x32 v93 broadcasts_S1x32_S26x32
  have v96 : FVec F S26x32 .f32 := mulf v94 v95
  have v97 : FVec F S26x32 .f32 := addf v92 v96
  v97

/-- One term: a column entry times a weight-row entry. -/
abbrev term (c : FVec Ideal S26x1 .f32) (v1 : FVec Ideal S9x32 .f32) (k : Fin 9) (m : Fin 26) (ch : Fin 32) : EReal :=
  c (ix2 m (0 : Fin 1)) * v1 (ix2 k ch)

/-- `rowA` at `(m, ch)`: the bias and the first eight terms, added left to right. -/
theorem rowA_apply (c0 c1 c2 c3 c4 c5 c6 c7 : FVec Ideal S26x1 .f32) (v1 : FVec Ideal S9x32 .f32) (v3 : FVec Ideal S1x32 .f32)
    (m : Fin 26) (ch : Fin 32) :
    rowA (F := Ideal) c0 c1 c2 c3 c4 c5 c6 c7 v1 v3 (ix2 m ch)
      = v3 (ix2 (0 : Fin 1) ch) + term c0 v1 0 m ch + term c1 v1 1 m ch + term c2 v1 2 m ch + term c3 v1 3 m ch
          + term c4 v1 4 m ch + term c5 v1 5 m ch + term c6 v1 6 m ch + term c7 v1 7 m ch := by
  unfold rowA
  simp only [addf_apply, mulf_apply, broadcastTo_a1_ab_apply, broadcastTo_1b_ab_apply, slice2_axis0_eq]
  rfl

/-- The pair's pooled rows before the column pool: with `A` the eight-term partial first row and `w8` the ninth weight row,
    the maximum over two neighbouring positions of the maximum of the two rows' positive parts. -/
def pairMax (A : FVec Ideal S26x32 .f32) (w8 : FVec Ideal S1x32 .f32) (d0 d1 d2 d3 d4 d5 d6 d7 d8 : FVec Ideal S26x1 .f32)
    (v1 : FVec Ideal S9x32 .f32) (v3 : FVec Ideal S1x32 .f32) (m : Fin 26) (ch : Fin 32) : EReal :=
  max (max (A (ix2 m ch) + d5 (ix2 m (0 : Fin 1)) * w8 (ix2 (0 : Fin 1) ch)) Cert.Net.zeroW)
    (max (v3 (ix2 (0 : Fin 1) ch) + term d0 v1 0 m ch + term d1 v1 1 m ch + term d2 v1 2 m ch + term d3 v1 3 m ch
          + term d4 v1 4 m ch + term d5 v1 5 m ch + term d6 v1 6 m ch + term d7 v1 7 m ch + term d8 v1 8 m ch) Cert.Net.zeroW)

/-- The rest-of-pair payload at `(m, ch)`, `m < 25`: the maximum of `pairMax` at positions `m` and `m + 1`. -/
theorem pay14_apply (v1 : FVec Ideal S9x32 .f32) (v3 : FVec Ideal S1x32 .f32) (d0 d1 d2 d3 d4 d5 d6 d7 d8 : FVec Ideal S26x1 .f32)
    (A : FVec Ideal S26x32 .f32) (w8 : FVec Ideal S1x32 .f32) (m : Fin 25) (ch : Fin 32) :
    k0_pay14 (F := Ideal) v1 v3 d0 d1 d2 d3 d4 d5 d6 d7 d8 A w8 (ix2 m ch)
      = max (pairMax A w8 d0 d1 d2 d3 d4 d5 d6 d7 d8 v1 v3 ⟨m.val, by have := m.isLt; omega⟩ ch)
          (pairMax A w8 d0 d1 d2 d3 d4 d5 d6 d7 d8 v1 v3 ⟨m.val + 1, by have := m.isLt; omega⟩ ch) := by
  unfold k0_pay14 pairMax
  simp only [maximumf_apply, addf_apply, mulf_apply, broadcast_apply, broadcastTo_a1_ab_apply, broadcastTo_1b_ab_apply,
    slice2_axis0_eq]
  simp only [Nat.zero_add, Nat.add_comm 1 m.val]
  rfl

end Cert.ReferenceIdeal.Hand

end
-- ==== Proof.LibIm2col.lean ====
/-
  The patches of a 3x3 convolution laid side by side, read at an index.

  Nine windows of an `[a, H, W, C]` array (a batch of images, channels last), window `n` shifted down by `n / 3` rows and
  right by `n % 3` columns, are joined along the channel axis into `[a, h, w, 9 * C]`. At `(i, y, x, q)` the result is
  the array at row `y + q / C / 3`, column `x + q / C % 3`, channel `q % C`: column `q` of the patch matrix names
  the tap `q / C` and the channel `q % C`. Likewise three windows of an `[a, H, W]` array, window `n` shifted down by
  `n` rows, joined along the last axis into `[a, h, 3 * W]`: at `(i, y, k)` it is the array at row `y + k / W`, column
  `k % W`.
-/
import Idealize.ShloMosaic.Lib.ValueIdx
import Idealize.ShloMosaic.Lib.Pipeline.Value

namespace Idealize.ShloMosaic.ValueIdx

open Idealize.ShloMosaic

variable {α : Type}

/-- Nine shifted windows joined along the channels, at `(i, y, x, q)`. -/
theorem patches3x3_apply {a H W C h w : ℕ} (src : (⟨4, ![a, H, W, C]⟩ : Shape).Idx → α)
    (hs : ∀ n : Fin 9, (⟨4, ![a, H, W, C]⟩ : Shape).Slices ![0, n.val / 3, n.val % 3, 0] ⟨4, ![a, h, w, C]⟩)
    (hcat : Shape.Concatenates ((List.ofFn fun n : Fin 9 =>
        (⟨⟨4, ![a, h, w, C]⟩, extractStridedSlice ⟨4, ![a, h, w, C]⟩ ![0, n.val / 3, n.val % 3, 0] src (hs n)⟩ :
          (s : Shape) × (s.Idx → α))).map (·.1)) ⟨4, ![a, h, w, 9 * C]⟩ 3)
    (i : Fin a) (y : Fin h) (x : Fin w) (q : Fin (9 * C)) (Y : Fin H) (X : Fin W) (ch : Fin C)
    (hY : Y.val = y.val + q.val / C / 3) (hX : X.val = x.val + q.val / C % 3) (hch : ch.val = q.val % C) :
    concatenate ⟨4, ![a, h, w, 9 * C]⟩ 3 (List.ofFn fun n : Fin 9 =>
        (⟨⟨4, ![a, h, w, C]⟩, extractStridedSlice ⟨4, ![a, h, w, C]⟩ ![0, n.val / 3, n.val % 3, 0] src (hs n)⟩ :
          (s : Shape) × (s.Idx → α))) hcat (ix4 i y x q)
      = src (ix4 i Y X ch) := by
  have hC : 0 < C := Nat.pos_of_ne_zero fun h0 => by have := ch.isLt; omega
  have hn : q.val / C < 9 := Nat.div_lt_of_lt_mul (by have := q.isLt; omega)
  refine (concatenate_ofFn_apply (t := ⟨4, ![a, h, w, 9 * C]⟩) (s₁ := ⟨4, ![a, h, w, C]⟩) (3 : Fin 4)
    (fun n : Fin 9 => extractStridedSlice ⟨4, ![a, h, w, C]⟩ ![0, n.val / 3, n.val % 3, 0] src (hs n))
    hcat rfl C rfl (ix4 i y x q) ⟨q.val / C, hn⟩ rfl (ix4 i y x ch) hch ?_).trans ?_
  · intro b hb
    match b with
    | ⟨0, _⟩ => rfl
    | ⟨1, _⟩ => rfl
    | ⟨2, _⟩ => rfl
    | ⟨3, _⟩ => exact absurd rfl hb
  · refine extractStridedSlice_apply _ src _ (ix4 i y x ch) (ix4 i Y X ch) fun ax => ?_
    match ax with
    | ⟨0, _⟩ => show i.val = 0 + i.val; omega
    | ⟨1, _⟩ => show Y.val = q.val / C / 3 + y.val; omega
    | ⟨2, _⟩ => show X.val = q.val / C % 3 + x.val; omega
    | ⟨3, _⟩ => show ch.val = 0 + ch.val; omega

/-- Three windows shifted down by 0, 1, 2 rows joined along the last axis, at `(i, y, k)`. -/
theorem rowTaps3_apply {a H W h : ℕ} (src : (⟨3, ![a, H, W]⟩ : Shape).Idx → α)
    (hs : ∀ n : Fin 3, (⟨3, ![a, H, W]⟩ : Shape).Slices ![0, n.val, 0] ⟨3, ![a, h, W]⟩)
    (hcat : Shape.Concatenates ((List.ofFn fun n : Fin 3 =>
        (⟨⟨3, ![a, h, W]⟩, extractStridedSlice ⟨3, ![a, h, W]⟩ ![0, n.val, 0] src (hs n)⟩ :
          (s : Shape) × (s.Idx → α))).map (·.1)) ⟨3, ![a, h, 3 * W]⟩ 2)
    (i : Fin a) (y : Fin h) (k : Fin (3 * W)) (Y : Fin H) (X : Fin W)
    (hY : Y.val = y.val + k.val / W) (hX : X.val = k.val % W) :
    concatenate ⟨3, ![a, h, 3 * W]⟩ 2 (List.ofFn fun n : Fin 3 =>
        (⟨⟨3, ![a, h, W]⟩, extractStridedSlice ⟨3, ![a, h, W]⟩ ![0, n.val, 0] src (hs n)⟩ :
          (s : Shape) × (s.Idx → α))) hcat (ix3 i y k)
      = src (ix3 i Y X) := by
  have hW : 0 < W := Nat.pos_of_ne_zero fun h0 => by have := X.isLt; omega
  have hn : k.val / W < 3 := Nat.div_lt_of_lt_mul (by have := k.isLt; omega)
  refine (concatenate_ofFn_apply (t := ⟨3, ![a, h, 3 * W]⟩) (s₁ := ⟨3, ![a, h, W]⟩) (2 : Fin 3)
    (fun n : Fin 3 => extractStridedSlice ⟨3, ![a, h, W]⟩ ![0, n.val, 0] src (hs n))
    hcat rfl W rfl (ix3 i y k) ⟨k.val / W, hn⟩ rfl (ix3 i y X) hX ?_).trans ?_
  · intro b hb
    match b with
    | ⟨0, _⟩ => rfl
    | ⟨1, _⟩ => rfl
    | ⟨2, _⟩ => exact absurd rfl hb
  · refine extractStridedSlice_apply _ src _ (ix3 i y X) (ix3 i Y X) fun ax => ?_
    match ax with
    | ⟨0, _⟩ => show i.val = 0 + i.val; omega
    | ⟨1, _⟩ => show Y.val = k.val / W + y.val; omega
    | ⟨2, _⟩ => show X.val = 0 + X.val; omega

/-- Three windows of an `[N, C]` matrix shifted down by 0, 1, 2 rows, joined along the columns into `[n, 3 * C]`: at `(j, q)`
    the matrix at row `j + q / C`, column `q % C`. -/
theorem rowShifts3_apply {N C n : ℕ} (src : (⟨2, ![N, C]⟩ : Shape).Idx → α)
    (hs : ∀ k : Fin 3, (⟨2, ![N, C]⟩ : Shape).Slices ![k.val, 0] ⟨2, ![n, C]⟩)
    (hcat : Shape.Concatenates ((List.ofFn fun k : Fin 3 =>
        (⟨⟨2, ![n, C]⟩, extractStridedSlice ⟨2, ![n, C]⟩ ![k.val, 0] src (hs k)⟩ : (s : Shape) × (s.Idx → α))).map (·.1))
        ⟨2, ![n, 3 * C]⟩ 1)
    (j : Fin n) (q : Fin (3 * C)) (J : Fin N) (ch : Fin C) (hJ : J.val = j.val + q.val / C) (hch : ch.val = q.val % C) :
    concatenate ⟨2, ![n, 3 * C]⟩ 1 (List.ofFn fun k : Fin 3 =>
        (⟨⟨2, ![n, C]⟩, extractStridedSlice ⟨2, ![n, C]⟩ ![k.val, 0] src (hs k)⟩ : (s : Shape) × (s.Idx → α))) hcat (ix2 j q)
      = src (ix2 J ch) := by
  have hC : 0 < C := Nat.pos_of_ne_zero fun h0 => by have := ch.isLt; omega
  have hn : q.val / C < 3 := Nat.div_lt_of_lt_mul (by have := q.isLt; omega)
  refine (concatenate_ofFn_apply (t := ⟨2, ![n, 3 * C]⟩) (s₁ := ⟨2, ![n, C]⟩) (1 : Fin 2)
    (fun k : Fin 3 => extractStridedSlice ⟨2, ![n, C]⟩ ![k.val, 0] src (hs k))
    hcat rfl C rfl (ix2 j q) ⟨q.val / C, hn⟩ rfl (ix2 j ch) hch ?_).trans ?_
  · intro b hb
    match b with
    | ⟨0, _⟩ => rfl
    | ⟨1, _⟩ => exact absurd rfl hb
  · refine extractStridedSlice_apply _ src _ (ix2 j ch) (ix2 J ch) fun ax => ?_
    match ax with
    | ⟨0, _⟩ => show J.val = q.val / C + j.val; omega
    | ⟨1, _⟩ => show ch.val = 0 + ch.val; omega

/-- Three `[n, K]` matrices side by side, `[n, 3 * K]`: at `(j, q)` matrix number `q / K` at `(j, q % K)`. -/
theorem concat3_cols_apply {n K : ℕ} (f : Fin 3 → ((⟨2, ![n, K]⟩ : Shape).Idx → α))
    (hcat : Shape.Concatenates ((List.ofFn fun k : Fin 3 => (⟨⟨2, ![n, K]⟩, f k⟩ : (s : Shape) × (s.Idx → α))).map (·.1))
        ⟨2, ![n, 3 * K]⟩ 1)
    (j : Fin n) (q : Fin (3 * K)) (k : Fin 3) (ch : Fin K) (hk : q.val / K = k.val) (hch : ch.val = q.val % K) :
    concatenate ⟨2, ![n, 3 * K]⟩ 1 (List.ofFn fun k : Fin 3 => (⟨⟨2, ![n, K]⟩, f k⟩ : (s : Shape) × (s.Idx → α))) hcat (ix2 j q)
      = f k (ix2 j ch) := by
  refine concatenate_ofFn_apply (t := ⟨2, ![n, 3 * K]⟩) (s₁ := ⟨2, ![n, K]⟩) (1 : Fin 2) f hcat rfl K rfl (ix2 j q) k hk
    (ix2 j ch) hch ?_
  intro b hb
  match b with
  | ⟨0, _⟩ => rfl
  | ⟨1, _⟩ => exact absurd rfl hb

end Idealize.ShloMosaic.ValueIdx
-- ==== Proof.RefPool.lean ====
/-
  The column pool of the block-of-8 program: a 13 x 25 selection matrix times the 25 x 32 neighbour maxima gives the 13
  pooled positions; three windows of 11 positions shifted by 0, 1, 2 are laid side by side (96 columns). At `(j, q)`
  the result is the pooled row at position `j + q / 32`, channel `q % 32`: the selection matrix's row against the column.
-/
import proofs.«139938_g2000005272685101_pallaspilot1_161_3_alg».proof.Proof.RefGroup
import proofs.«139938_g2000005272685101_pallaspilot1_161_3_alg».proof.Proof.LibIm2col
import proofs.«139938_g2000005272685101_pallaspilot1_161_3_alg».proof.Proof.LibDenseRows

set_option maxRecDepth 65536

open scoped BigOperators

noncomputable section

namespace Cert.ReferenceIdeal.Hand

open Cert.ReferenceIdeal Cert.ReferenceIdeal.Gen Idealize.ShloMosaic Idealize.ShloMosaic.ValueIdx Idealize.SL.Sem

/-- The selection product at `(w, c)`. -/
def selRow (sel : FVec Ideal S13x25 .f32) (y : FVec Ideal S25x32 .f32) (w : Fin 13) (c : Fin 32) : EReal :=
  ∑ t : Fin 25, sel (ix2 w t) * y (ix2 t c)

theorem pay15_apply (v9 : FVec Ideal S13x25 .f32) (v156 : FVec Ideal S25x32 .f32) (j : Fin 11) (q : Fin 96) :
    k0_pay15 (F := Ideal) v9 v156 (ix2 j q)
      = selRow v9 v156 ⟨j.val + q.val / 32, by have := j.isLt; have := q.isLt; omega⟩ ⟨q.val % 32, by omega⟩ := by
  have h := rowShifts3_apply (N := 13) (C := 32) (n := 11)
    (matmul dot_S13x25_S25x32_S13x32_1_0_0_1_n_n none v9 v156 (constant (F := Ideal) S13x32 .f32 0x00000000#32))
    (by decide : ∀ k : Fin 3, (⟨2, ![13, 32]⟩ : Shape).Slices ![k.val, 0] ⟨2, ![11, 32]⟩)
    concatenates_S11x32_S11x32_S11x32_S11x96_d1 j q
    ⟨j.val + q.val / 32, by have := j.isLt; have := q.isLt; omega⟩ ⟨q.val % 32, by omega⟩ rfl rfl
  refine h.trans ?_
  exact matmul_named_zero_apply (m := 13) (k := 25) (n := 32) (φ₁ := .f32) (φ₂ := .f32)
    dot_S13x25_S25x32_S13x32_1_0_0_1_n_n_wf dot_S13x25_S25x32_S13x32_1_0_0_1_n_n rfl none v9 v156 _ _

end Cert.ReferenceIdeal.Hand

end
-- ==== Proof.RefLayer2.lean ====
/-
  The block-of-8 program's second and third layers on one image, in their building blocks, each read at an entry:
  a patch row (three 11 x 96 pooled rows side by side) times the 288 x 64 weights; the same with bias and positive part;
  the pool of a pair of rows (neighbour maxima, the 5 x 10 selection product, three shifted windows side by side); and
  the third layer's row (three 3 x 192 pooled rows side by side times the 576 x 128 weights, bias, positive part).
-/
import proofs.«139938_g2000005272685101_pallaspilot1_161_3_alg».proof.Proof.RefPool

set_option maxRecDepth 65536

open scoped BigOperators

noncomputable section

namespace Cert.ReferenceIdeal.Hand

open Cert.ReferenceIdeal Cert.ReferenceIdeal.Gen Idealize.ShloMosaic Idealize.ShloMosaic.ValueIdx Idealize.SL.Sem

variable {F : FTy → Type} [FloatOps F]

/-- The pool of a row pair's maximum `ym`: neighbour maxima, selection product, three shifted windows side by side. -/
def pool2of (v11 : FVec F S5x10 .f32) (ym : FVec F S11x64 .f32) : FVec F S3x192 .f32 :=
  have v1232 : FVec F S10x64 .f32 := extractStridedSlice S10x64 ![0, 0] ym slices_S11x64_o0_0_S10x64
  have v1233 : FVec F S10x64 .f32 := extractStridedSlice S10x64 ![1, 0] ym slices_S11x64_o1_0_S10x64
  have v1234 : FVec F S10x64 .f32 := maximumf v1232 v1233
  have cst_67 : FVec F S5x64 .f32 := constant S5x64 .f32 0x00000000#32
  have v1235 : FVec F S5x64 .f32 := matmul dot_S5x10_S10x64_S5x64_1_0_0_1_n_n none v11 v1234 cst_67
  have v1236 : FVec F S3x64 .f32 := extractStridedSlice S3x64 ![0, 0] v1235 slices_S5x64_o0_0_S3x64
  have v1237 : FVec F S3x64 .f32 := extractStridedSlice S3x64 ![1, 0] v1235 slices_S5x64_o1_0_S3x64
  have v1238 : FVec F S3x64 .f32 := extractStridedSlice S3x64 ![2, 0] v1235 slices_S5x64_o2_0_S3x64
  have v1239 : FVec F S3x192 .f32 := concatenate S3x192 1 [⟨S3x64, v1236⟩, ⟨S3x64, v1237⟩, ⟨S3x64, v1238⟩] concatenates_S3x64_S3x64_S3x64_S3x192_d1
  v1239

theorem pay133_eq (v5 : FVec F S1x64 .f32) (v11 : FVec F S5x10 .f32) (e0 e1 e2 e3 : FVec F S11x96 .f32) (W W' : Vec F S288x64 .f32) :
    k0_pay133 v5 v11 e0 e1 e2 e3 W W' = pool2of v11 (maximumf (k0_pay134 v5 e0 e1 e2 W) (k0_pay134 v5 e1 e2 e3 W')) := rfl

theorem pay138_eq (v5 : FVec F S1x64 .f32) (v11 : FVec F S5x10 .f32) (e0 e1 e2 e3 : FVec F S11x96 .f32) (W W' : Vec F S288x64 .f32) :
    k0_pay138 v5 v11 e0 e1 e2 e3 W W' = pool2of v11 (maximumf (k0_pay134 v5 e0 e1 e2 W) (k0_pay134 v5 e1 e2 e3 W')) := rfl

theorem pay139_eq (v5 : FVec F S1x64 .f32) (e0 e1 e2 : FVec F S11x96 .f32) (W : Vec F S288x64 .f32) :
    k0_pay139 v5 e0 e1 e2 W = k0_pay134 v5 e0 e1 e2 W := rfl

theorem pay137_eq (v11 : FVec F S5x10 .f32) (R0 pre bb : FVec F S11x64 .f32) :
    k0_pay137 v11 R0 pre bb
      = pool2of v11 (maximumf R0 (maximumf (addf pre bb) (broadcast S11x64 (Scalar.ofBits .f32 0x00000000#32)))) := rfl

/-- Three 11 x 96 rows side by side, column `q`: row number `q / 96` at column `q % 96`. -/
def patch2 (A B C : FVec Ideal S11x96 .f32) (j : Fin 11) (q : Fin 288) : EReal :=
  (![A, B, C] ⟨q.val / 96, by have := q.isLt; omega⟩) (ix2 j ⟨q.val % 96, by omega⟩)

/-- The patch row's product at `(j, o)`. -/
theorem pay135_apply (A B C : FVec Ideal S11x96 .f32) (W : Vec Ideal S288x64 .f32) (j : Fin 11) (o : Fin 64) :
    k0_pay135 (F := Ideal) A B C W (ix2 j o) = ∑ q : Fin 288, patch2 A B C j q * W (ix2 q o) := by
  refine (matmul_named_zero_apply (m := 11) (k := 288) (n := 64) (φ₁ := .f32) (φ₂ := .f32)
    dot_S11x288_S288x64_S11x64_1_0_0_1_n_n_wf dot_S11x288_S288x64_S11x64_1_0_0_1_n_n rfl none
    (concatenate S11x288 1 [⟨S11x96, A⟩, ⟨S11x96, B⟩, ⟨S11x96, C⟩] concatenates_S11x96_S11x96_S11x96_S11x288_d1)
    (shapeCast S288x64 W shapeCasts_S288x64_S288x64) j o).trans ?_
  rw [shapeCast_self]
  refine Finset.sum_congr rfl fun q _ => congrArg (· * W (ix2 q o)) ?_
  exact concat3_cols_apply (n := 11) (K := 96) ![A, B, C] concatenates_S11x96_S11x96_S11x96_S11x288_d1 j q
    ⟨q.val / 96, by have := q.isLt; omega⟩ ⟨q.val % 96, by omega⟩ rfl rfl

/-- … with bias and positive part. -/
theorem pay134_apply (v5 : FVec Ideal S1x64 .f32) (A B C : FVec Ideal S11x96 .f32) (W : Vec Ideal S288x64 .f32) (j : Fin 11) (o : Fin 64) :
    k0_pay134 (F := Ideal) v5 A B C W (ix2 j o)
      = max ((∑ q : Fin 288, patch2 A B C j q * W (ix2 q o)) + v5 (ix2 (0 : Fin 1) o)) Cert.Net.zeroW := by
  refine (biased_matmul_max_apply (m := 11) (k := 288) (n := 64) (φ₁ := .f32) (φ₂ := .f32)
    dot_S11x288_S288x64_S11x64_1_0_0_1_n_n_wf dot_S11x288_S288x64_S11x64_1_0_0_1_n_n rfl none
    (concatenate S11x288 1 [⟨S11x96, A⟩, ⟨S11x96, B⟩, ⟨S11x96, C⟩] concatenates_S11x96_S11x96_S11x96_S11x288_d1)
    (shapeCast S288x64 W shapeCasts_S288x64_S288x64) v5 broadcasts_S1x64_S11x64 (Scalar.ofBits .f32 0x00000000#32) j o).trans ?_
  rw [shapeCast_self]
  refine congrArg (fun t => max (t + v5 (ix2 (0 : Fin 1) o)) Cert.Net.zeroW) (Finset.sum_congr rfl fun q _ => congrArg (· * W (ix2 q o)) ?_)
  exact concat3_cols_apply (n := 11) (K := 96) ![A, B, C] concatenates_S11x96_S11x96_S11x96_S11x288_d1 j q
    ⟨q.val / 96, by have := q.isLt; omega⟩ ⟨q.val % 96, by omega⟩ rfl rfl

/-- The pool of a row pair at `(j, q)`: the selection row `j + q / 64` against the neighbour maxima of channel `q % 64`. -/
theorem pool2of_apply (v11 : FVec Ideal S5x10 .f32) (ym : FVec Ideal S11x64 .f32) (j : Fin 3) (q : Fin 192) :
    pool2of (F := Ideal) v11 ym (ix2 j q)
      = ∑ t : Fin 10, v11 (ix2 ⟨j.val + q.val / 64, by have := j.isLt; have := q.isLt; omega⟩ t)
          * max (ym (ix2 ⟨t.val, by have := t.isLt; omega⟩ ⟨q.val % 64, by omega⟩))
              (ym (ix2 ⟨t.val + 1, by have := t.isLt; omega⟩ ⟨q.val % 64, by omega⟩)) := by
  have h := rowShifts3_apply (N := 5) (C := 64) (n := 3)
    (matmul dot_S5x10_S10x64_S5x64_1_0_0_1_n_n none v11
      (maximumf (extractStridedSlice S10x64 ![0, 0] ym slices_S11x64_o0_0_S10x64)
        (extractStridedSlice S10x64 ![1, 0] ym slices_S11x64_o1_0_S10x64))
      (constant (F := Ideal) S5x64 .f32 0x00000000#32))
    (by decide : ∀ k : Fin 3, (⟨2, ![5, 64]⟩ : Shape).Slices ![k.val, 0] ⟨2, ![3, 64]⟩)
    concatenates_S3x64_S3x64_S3x64_S3x192_d1 j q
    ⟨j.val + q.val / 64, by have := j.isLt; have := q.isLt; omega⟩ ⟨q.val % 64, by omega⟩ rfl rfl
  refine h.trans ?_
  refine (matmul_named_zero_apply (m := 5) (k := 10) (n := 64) (φ₁ := .f32) (φ₂ := .f32)
    dot_S5x10_S10x64_S5x64_1_0_0_1_n_n_wf dot_S5x10_S10x64_S5x64_1_0_0_1_n_n rfl none v11 _ _ _).trans ?_
  refine Finset.sum_congr rfl fun t _ => congrArg (v11 _ * ·) ?_
  simp only [maximumf_apply, slice2_axis0_eq, Nat.zero_add, Nat.add_comm 1 t.val]

/-- Three 3 x 192 pooled rows side by side, column `q`. -/
def patch3 (X Y Z : FVec Ideal S3x192 .f32) (j : Fin 3) (q : Fin 576) : EReal :=
  (![X, Y, Z] ⟨q.val / 192, by have := q.isLt; omega⟩) (ix2 j ⟨q.val % 192, by omega⟩)

/-- The third layer's row at `(j, o)`. -/
theorem pay140_apply (v7 : FVec Ideal S1x128 .f32) (X Y Z : FVec Ideal S3x192 .f32) (W : Vec Ideal S576x128 .f32) (j : Fin 3) (o : Fin 128) :
    k0_pay140 (F := Ideal) v7 X Y Z W (ix2 j o)
      = max ((∑ q : Fin 576, patch3 X Y Z j q * W (ix2 q o)) + v7 (ix2 (0 : Fin 1) o)) Cert.Net.zeroW := by
  refine (biased_matmul_max_apply (m := 3) (k := 576) (n := 128) (φ₁ := .f32) (φ₂ := .f32)
    dot_S3x576_S576x128_S3x128_1_0_0_1_n_n_wf dot_S3x576_S576x128_S3x128_1_0_0_1_n_n rfl none
    (concatenate S3x576 1 [⟨S3x192, X⟩, ⟨S3x192, Y⟩, ⟨S3x192, Z⟩] concatenates_S3x192_S3x192_S3x192_S3x576_d1)
    (shapeCast S576x128 W shapeCasts_S576x128_S576x128) v7 broadcasts_S1x128_S3x128 (Scalar.ofBits .f32 0x00000000#32) j o).trans ?_
  rw [shapeCast_self]
  refine congrArg (fun t => max (t + v7 (ix2 (0 : Fin 1) o)) Cert.Net.zeroW) (Finset.sum_congr rfl fun q _ => congrArg (· * W (ix2 q o)) ?_)
  exact concat3_cols_apply (n := 3) (K := 192) ![X, Y, Z] concatenates_S3x192_S3x192_S3x192_S3x576_d1 j q
    ⟨q.val / 192, by have := q.isLt; omega⟩ ⟨q.val % 192, by omega⟩ rfl rfl

end Cert.ReferenceIdeal.Hand

end
-- ==== Proof.RefTrip.lean ====
/-
  The end of one trip of the block-of-8 program's loop: the third layer's second row from its patch row, the maximum
  with the first row, the maximum of positions 0 and 1 (the image's 128 features), and that feature row put at row `k`
  of the carried 8 x 128 array, every other row kept.
-/
import proofs.«139938_g2000005272685101_pallaspilot1_161_3_alg».proof.Proof.RefLayer2

set_option maxRecDepth 65536

open scoped BigOperators

noncomputable section

namespace Cert.ReferenceIdeal.Hand

open Cert.ReferenceIdeal Cert.ReferenceIdeal.Gen Idealize.ShloMosaic Idealize.ShloMosaic.ValueIdx Idealize.SL.Sem

variable {F : FTy → Type} [FloatOps F]

/-- The third layer's row from an already laid-out patch row. -/
def c3row (v6 : Vec F S1x128 .f32) (v1323 : FVec F S3x576 .f32) (v1324 : Vec F S576x128 .f32) : FVec F S3x128 .f32 :=
  have v1325 : FVec F S576x128 .f32 := shapeCast S576x128 v1324 shapeCasts_S576x128_S576x128
  have cst_101 : FVec F S3x128 .f32 := constant S3x128 .f32 0x00000000#32
  have v1326 : FVec F S3x128 .f32 := matmul dot_S3x576_S576x128_S3x128_1_0_0_1_n_n none v1323 v1325 cst_101
  have v1327 : FVec F S3x128 .f32 := broadcastTo S3x128 (k0_pay145 v6) broadcasts_S1x128_S3x128
  have v1328 : FVec F S3x128 .f32 := addf v1326 v1327
  have cst_102 : F .f32 := Scalar.ofBits .f32 0x00000000#32
  have v1329 : FVec F S3x128 .f32 := broadcast S3x128 cst_102
  have v1330 : FVec F S3x128 .f32 := maximumf v1328 v1329
  v1330

/-- The image's feature row: from the third layer's first row `v1322` and the second row's patches `v1323`. -/
def lastRow (v6 : Vec F S1x128 .f32) (v1322 : FVec F S3x128 .f32) (v1323 : FVec F S3x576 .f32) (v1324 : Vec F S576x128 .f32) :
    FVec F S1x128 .f32 :=
  have v1330 : FVec F S3x128 .f32 := c3row v6 v1323 v1324
  have v1331 : FVec F S3x128 .f32 := maximumf v1322 v1330
  have v1332 : FVec F S1x128 .f32 := extractStridedSlice S1x128 ![0, 0] v1331 slices_S3x128_o0_0_S1x128
  have v1333 : FVec F S1x128 .f32 := extractStridedSlice S1x128 ![1, 0] v1331 slices_S3x128_o1_0_S1x128
  have v1334 : FVec F S1x128 .f32 := maximumf v1332 v1333
  v1334

/-- A row put at position `arg15` of the carried array. -/
def rowSel (acc : FVec F S8x128 .f32) (arg15 : BitVec 32) (row : FVec F S1x128 .f32) : FVec F S8x128 .f32 :=
  have v12 : IVec S8x128 32 := iota .tc S8x128 32 [0] iota_S8x128_d0_w32
  have v1335 : IVec S8x128 32 := broadcast S8x128 arg15
  have v1336 : IVec S8x128 1 := cmpi .eq v12 v1335
  have v1337 : FVec F S1x128 .f32 := shapeCast S1x128 row shapeCasts_S1x128_S1x128
  have v1338 : FVec F S8x128 .f32 := broadcastTo S8x128 v1337 broadcasts_S1x128_S8x128
  have v1339 : FVec F S8x128 .f32 := select v1336 v1338 acc
  v1339

theorem pay149_eq (v6 : Vec F S1x128 .f32) (acc : FVec F S8x128 .f32) (arg15 : BitVec 32) (v1322 : FVec F S3x128 .f32)
    (v1323 : FVec F S3x576 .f32) (v1324 : Vec F S576x128 .f32) :
    k0_pay149 v6 acc arg15 v1322 v1323 v1324 = rowSel acc arg15 (lastRow v6 v1322 v1323 v1324) := rfl

theorem pay141_eq (v5 : FVec F S1x64 .f32) (v11 : FVec F S5x10 .f32) (e7 e8 e9 : FVec F S11x96 .f32) (Q1 Q2 : FVec F S3x192 .f32)
    (R6 : FVec F S11x64 .f32) (W : Vec F S288x64 .f32) :
    k0_pay141 v5 v11 e7 e8 e9 Q1 Q2 R6 W
      = concatenate S3x576 1 [⟨S3x192, Q1⟩, ⟨S3x192, Q2⟩, ⟨S3x192, pool2of v11 (maximumf R6 (k0_pay134 v5 e7 e8 e9 W))⟩]
          concatenates_S3x192_S3x192_S3x192_S3x576_d1 := rfl

/-- The loop's index word at trip `k` is `k`. -/
theorem iv_eq (k : ℕ) : Scf.iv 0#32 1#32 k = BitVec.ofNat 32 k := by simp [Scf.iv]

/-- Row `r` of the carried array after the trip: the new row at `r = k`, the old row otherwise. -/
theorem rowSel_apply (acc : FVec Ideal S8x128 .f32) (k : Fin 8) (row : FVec Ideal S1x128 .f32) (r : Fin 8) (c : Fin 128) :
    rowSel (F := Ideal) acc (Scf.iv 0#32 1#32 k.val) row (ix2 r c)
      = if r = k then row (ix2 (0 : Fin 1) c) else acc (ix2 r c) := by
  unfold rowSel
  rw [select_apply, shapeCast_self, broadcastTo_1b_ab_apply]
  show Scalar.select (IntOp.cmpi .eq (iota .tc S8x128 32 [0] iota_S8x128_d0_w32 (ix2 r c)) (Scf.iv 0#32 1#32 k.val)) _ _ = _
  rw [iota_single_apply, iv_eq]
  show Scalar.select (IntOp.cmpi .eq (BitVec.ofNat 32 r.val) (BitVec.ofNat 32 k.val)) _ _ = _
  by_cases h : r = k
  · subst h
    rw [if_pos rfl, (IntOp.cmpi_eq).mpr rfl, select_one]
  · have hne : BitVec.ofNat 32 r.val ≠ BitVec.ofNat 32 k.val := by
      intro he
      apply h
      have := congrArg BitVec.toNat he
      simp only [BitVec.toNat_ofNat] at this
      have hr := r.isLt; have hk := k.isLt
      exact Fin.ext (by omega)
    rw [if_neg h, eq_zero_of_ne_one (fun h1 => hne ((IntOp.cmpi_eq).mp h1)), select_zero]

/-- The third layer's row from an already laid-out patch row, at `(j, o)`. -/
theorem c3row_apply (v6 : Vec Ideal S1x128 .f32) (Pm : FVec Ideal S3x576 .f32) (W : Vec Ideal S576x128 .f32) (j : Fin 3) (o : Fin 128) :
    c3row (F := Ideal) v6 Pm W (ix2 j o)
      = max ((∑ q : Fin 576, Pm (ix2 j q) * W (ix2 q o)) + v6 (ix2 (0 : Fin 1) o)) Cert.Net.zeroW := by
  refine (biased_matmul_max_apply (m := 3) (k := 576) (n := 128) (φ₁ := .f32) (φ₂ := .f32)
    dot_S3x576_S576x128_S3x128_1_0_0_1_n_n_wf dot_S3x576_S576x128_S3x128_1_0_0_1_n_n rfl none Pm
    (shapeCast S576x128 W shapeCasts_S576x128_S576x128) (k0_pay145 v6) broadcasts_S1x128_S3x128
    (Scalar.ofBits .f32 0x00000000#32) j o).trans ?_
  unfold k0_pay145
  rw [shapeCast_self, shapeCast_self]

/-- The image's feature row at channel `c`: over positions 0 and 1, the maximum of the third layer's two rows. -/
theorem lastRow_apply (v6 : Vec Ideal S1x128 .f32) (C0 : FVec Ideal S3x128 .f32) (Pm : FVec Ideal S3x576 .f32)
    (W : Vec Ideal S576x128 .f32) (c : Fin 128) :
    lastRow (F := Ideal) v6 C0 Pm W (ix2 (0 : Fin 1) c)
      = max (max (C0 (ix2 (0 : Fin 3) c)) (c3row (F := Ideal) v6 Pm W (ix2 (0 : Fin 3) c)))
          (max (C0 (ix2 (1 : Fin 3) c)) (c3row (F := Ideal) v6 Pm W (ix2 (1 : Fin 3) c))) := by
  unfold lastRow
  simp only [maximumf_apply, slice2_axis0_eq]
  rfl

end Cert.ReferenceIdeal.Hand

end
-- ==== Proof.RefImage.lean ====
/-
  One image through the block-of-8 program, as one structured term: the ten pooled rows of the first layer (each from
  twelve columns of the transposed image), the eight rows of the second layer in four pooled pairs, the two rows of the
  third layer, and the feature row. One trip of the loop puts this feature row of image `k` at row `k` of the carried array.
-/
import proofs.«139938_g2000005272685101_pallaspilot1_161_3_alg».proof.Proof.RefTrip
import proofs.«139938_g2000005272685101_pallaspilot1_161_3_alg».proof.Proof.Gen.ReferenceIdeal.Loops

set_option maxRecDepth 65536
set_option maxHeartbeats 4000000

open scoped BigOperators

noncomputable section

namespace Cert.ReferenceIdeal.Hand

open Cert.ReferenceIdeal Cert.ReferenceIdeal.Gen Idealize.ShloMosaic Idealize.ShloMosaic.ValueIdx Idealize.ShloMosaic.TcCoe Idealize.SL.Sem

variable {F : FTy → Type} [FloatOps F]

/-- Every 26 x 1 column window of the 28 x 28 image fits. -/
theorem colFact : ∀ (o : Fin 28) (dj : Fin 3), S28x28.Slices ![dj.val, o.val] S26x1 := by decide

/-- Column `o` of the transposed image, positions `dj … dj + 25`. -/
def col (xt : FVec F S28x28 .f32) (o : Fin 28) (dj : Fin 3) : FVec F S26x1 .f32 :=
  extractStridedSlice S26x1 ![dj.val, o.val] xt (colFact o dj)

/-- The image column that row pair `p`'s input row `h` (of four) is. -/
def off (p : Fin 10) (h : Fin 4) : Fin 28 := ⟨2 * p.val + h.val, by have := p.isLt; have := h.isLt; omega⟩

/-- Pooled row `p` of the first layer, three shifted windows side by side. -/
def groupE (p : Fin 10) (xt : FVec F S28x28 .f32) (w1 : FVec F S9x32 .f32) (b1 : FVec F S1x32 .f32) (sel1 : FVec F S13x25 .f32) :
    FVec F S11x96 .f32 :=
  k0_pay15 sel1 (k0_pay14 w1 b1
    (col xt (off p 1) 0) (col xt (off p 1) 1) (col xt (off p 1) 2)
    (col xt (off p 2) 0) (col xt (off p 2) 1) (col xt (off p 2) 2)
    (col xt (off p 3) 0) (col xt (off p 3) 1) (col xt (off p 3) 2)
    (rowA (col xt (off p 0) 0) (col xt (off p 0) 1) (col xt (off p 0) 2) (col xt (off p 1) 0) (col xt (off p 1) 1)
      (col xt (off p 1) 2) (col xt (off p 2) 0) (col xt (off p 2) 1) w1 b1)
    (k0_pay13 w1))

/-- Row `i` of the second layer. -/
def row2 (i : Fin 8) (xt : FVec F S28x28 .f32) (w1 : FVec F S9x32 .f32) (b1 : FVec F S1x32 .f32) (sel1 : FVec F S13x25 .f32)
    (b2 : FVec F S1x64 .f32) (W2 : Vec F S288x64 .f32) : FVec F S11x64 .f32 :=
  k0_pay134 b2 (groupE ⟨i.val, by have := i.isLt; omega⟩ xt w1 b1 sel1) (groupE ⟨i.val + 1, by have := i.isLt; omega⟩ xt w1 b1 sel1)
    (groupE ⟨i.val + 2, by have := i.isLt; omega⟩ xt w1 b1 sel1) W2

/-- Pooled row `q` of the second layer, three shifted windows side by side. -/
def pooled2 (q : Fin 4) (xt : FVec F S28x28 .f32) (w1 : FVec F S9x32 .f32) (b1 : FVec F S1x32 .f32) (sel1 : FVec F S13x25 .f32)
    (b2 : FVec F S1x64 .f32) (sel2 : FVec F S5x10 .f32) (W2 : Vec F S288x64 .f32) : FVec F S3x192 .f32 :=
  pool2of sel2 (maximumf (row2 ⟨2 * q.val, by have := q.isLt; omega⟩ xt w1 b1 sel1 b2 W2)
    (row2 ⟨2 * q.val + 1, by have := q.isLt; omega⟩ xt w1 b1 sel1 b2 W2))

/-- The 128 features of one image. -/
def imgFeat (w1 : FVec F S9x32 .f32) (b1 : FVec F S1x32 .f32) (b2 : FVec F S1x64 .f32) (b3 : Vec F S1x128 .f32)
    (sel1 : FVec F S13x25 .f32) (sel2 : FVec F S5x10 .f32) (xt : FVec F S28x28 .f32) (W2 : Vec F S288x64 .f32)
    (W3 : Vec F S576x128 .f32) : FVec F S1x128 .f32 :=
  lastRow b3
    (k0_pay140 (k0_pay145 b3) (pooled2 0 xt w1 b1 sel1 b2 sel2 W2) (pooled2 1 xt w1 b1 sel1 b2 sel2 W2)
      (pooled2 2 xt w1 b1 sel1 b2 sel2 W2) W3)
    (concatenate S3x576 1 [⟨S3x192, pooled2 1 xt w1 b1 sel1 b2 sel2 W2⟩, ⟨S3x192, pooled2 2 xt w1 b1 sel1 b2 sel2 W2⟩,
      ⟨S3x192, pooled2 3 xt w1 b1 sel1 b2 sel2 W2⟩] concatenates_S3x192_S3x192_S3x192_S3x576_d1)
    W3

/-- One trip: the features of image `k` put at row `k`. -/
theorem tripR_eq (𝒱 : Variants) (c : Dev nD) (bd : Option 𝒱.V) (i : grid0.Coords) (arg1 : Memref sig .tc .vmem S8x28x28 .f32) (harg1 : arg1.IsWhole) (arg2 : Memref sig .tc .vmem S9x32 .f32) (harg2 : arg2.IsWhole) (arg3 : Memref sig .tc .vmem S1x32 .f32) (harg3 : arg3.IsWhole) (arg4 : Memref sig .tc .vmem S288x64 .f32) (harg4 : arg4.IsWhole) (arg5 : Memref sig .tc .vmem S1x64 .f32) (harg5 : arg5.IsWhole) (arg6 : Memref sig .tc .vmem S576x128 .f32) (harg6 : arg6.IsWhole) (arg7 : Memref sig .tc .vmem S1x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S13x25 .f32) (harg12 : arg12.IsWhole) (arg13 : Memref sig .tc .vmem S5x10 .f32) (harg13 : arg13.IsWhole) (arg14 : Memref sig .tc .vmem S8x10 .f32) (harg14 : arg14.IsWhole) (v0 : Vec F S9x32 .f32) (v2 : Vec F S1x32 .f32) (v4 : Vec F S1x64 .f32) (v6 : Vec F S1x128 .f32) (v8 : Vec F S13x25 .f32) (v10 : Vec F S5x10 .f32) (X_arg1 : BufTy.Contents (Elt F) arg1.view.ty) (X_arg4 : BufTy.Contents (Elt F) arg4.view.ty) (X_arg6 : BufTy.Contents (Elt F) arg6.view.ty) (k : Fin k0_t1_loop.trips) (acc : FVec F S8x128 .f32) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 v10 X_arg1 X_arg4 X_arg6 k acc
      = rowSel acc (Scf.iv 0#32 1#32 k.val)
          (imgFeat (k0_pay142 v0) (k0_pay143 v2) (k0_pay144 v4) v6 (k0_pay146 v8) (k0_pay147 v10)
            (trip_k0_t1.sl.r arg1 X_arg1 k) (View.readAt (Elt F) arg4.view (Rect.unit ![0, 0] S288x64.size inb_S288x64_S288x64_0_0).toLoadRect X_arg4) (View.readAt (Elt F) arg6.view (Rect.unit ![0, 0] S576x128.size inb_S576x128_S576x128_0_0).toLoadRect X_arg6)) := by
  unfold tripR_k0_t1 trip_k0_t1
  rfl

end Cert.ReferenceIdeal.Hand

end
-- ==== Proof.RefLoop.lean ====
/-
  The loop of the block-of-8 program: trip `k` puts image `k`'s feature row at row `k` of the carried 8 x 128 array and
  keeps the other rows, so after the eight trips row `r` holds image `r`'s features, whatever the array started as.
-/
import proofs.«139938_g2000005272685101_pallaspilot1_161_3_alg».proof.Proof.RefImage

set_option maxRecDepth 65536
set_option maxHeartbeats 4000000

open scoped BigOperators

noncomputable section

namespace Cert.ReferenceIdeal.Hand

open Cert.ReferenceIdeal Cert.ReferenceIdeal.Gen Idealize.ShloMosaic Idealize.ShloMosaic.ValueIdx Idealize.ShloMosaic.TcCoe Idealize.SL.Sem

theorem trips_eq : k0_t1_loop.trips = 8 := by decide

/-- After `n` trips, every row below `n` holds its image's features. -/
theorem st_rows (𝒱 : Variants) (c : Dev nD) (bd : Option 𝒱.V) (i : grid0.Coords) (arg1 : Memref sig .tc .vmem S8x28x28 .f32) (harg1 : arg1.IsWhole) (arg2 : Memref sig .tc .vmem S9x32 .f32) (harg2 : arg2.IsWhole) (arg3 : Memref sig .tc .vmem S1x32 .f32) (harg3 : arg3.IsWhole) (arg4 : Memref sig .tc .vmem S288x64 .f32) (harg4 : arg4.IsWhole) (arg5 : Memref sig .tc .vmem S1x64 .f32) (harg5 : arg5.IsWhole) (arg6 : Memref sig .tc .vmem S576x128 .f32) (harg6 : arg6.IsWhole) (arg7 : Memref sig .tc .vmem S1x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S13x25 .f32) (harg12 : arg12.IsWhole) (arg13 : Memref sig .tc .vmem S5x10 .f32) (harg13 : arg13.IsWhole) (arg14 : Memref sig .tc .vmem S8x10 .f32) (harg14 : arg14.IsWhole) (v0 : Vec Ideal S9x32 .f32) (v2 : Vec Ideal S1x32 .f32) (v4 : Vec Ideal S1x64 .f32) (v6 : Vec Ideal S1x128 .f32) (v8 : Vec Ideal S13x25 .f32) (v10 : Vec Ideal S5x10 .f32) (X_arg1 : BufTy.Contents (Elt Ideal) arg1.view.ty) (X_arg4 : BufTy.Contents (Elt Ideal) arg4.view.ty) (X_arg6 : BufTy.Contents (Elt Ideal) arg6.view.ty) (init : FVec Ideal S8x128 .f32) (n : ℕ) (hn : n ≤ 8) (r : Fin 8) (hr : r.val < n) (ch : Fin 128) :
    st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 v10 X_arg1 X_arg4 X_arg6 init n (ix2 r ch)
      = imgFeat (F := Ideal) (k0_pay142 v0) (k0_pay143 v2) (k0_pay144 v4) v6 (k0_pay146 v8) (k0_pay147 v10)
          (trip_k0_t1.sl.r arg1 X_arg1 ⟨r.val, by rw [trips_eq]; exact r.isLt⟩) (View.readAt (Elt Ideal) arg4.view (Rect.unit ![0, 0] S288x64.size inb_S288x64_S288x64_0_0).toLoadRect X_arg4) (View.readAt (Elt Ideal) arg6.view (Rect.unit ![0, 0] S576x128.size inb_S576x128_S576x128_0_0).toLoadRect X_arg6) (ix2 (0 : Fin 1) ch) := by
  induction n with
  | zero => exact absurd hr (Nat.not_lt_zero _)
  | succ n ih =>
    have hn8 : n < 8 := hn
    have hs := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 v10 X_arg1 X_arg4 X_arg6 init ⟨n, by rw [trips_eq]; exact hn8⟩
    rw [hs, tripR_eq]
    have hsel := rowSel_apply
      (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v0 v2 v4 v6 v8 v10 X_arg1 X_arg4 X_arg6 init n) ⟨n, hn8⟩
      (imgFeat (F := Ideal) (k0_pay142 v0) (k0_pay143 v2) (k0_pay144 v4) v6 (k0_pay146 v8) (k0_pay147 v10)
          (trip_k0_t1.sl.r arg1 X_arg1 ⟨n, by rw [trips_eq]; exact hn8⟩) (View.readAt (Elt Ideal) arg4.view (Rect.unit ![0, 0] S288x64.size inb_S288x64_S288x64_0_0).toLoadRect X_arg4) (View.readAt (Elt Ideal) arg6.view (Rect.unit ![0, 0] S576x128.size inb_S576x128_S576x128_0_0).toLoadRect X_arg6)) r ch
    refine hsel.trans ?_
    by_cases h : r = ⟨n, hn8⟩
    · rw [if_pos h]
      subst h
      rfl
    · rw [if_neg h]
      have hlt : r.val < n := by
        have : r.val ≠ n := fun he => h (Fin.ext he)
        omega
      exact ih (Nat.le_of_lt hn8) hlt

end Cert.ReferenceIdeal.Hand

end
-- ==== Proof.RefValue.lean ====
/-
  The block-of-8 program's first layer on one image, read at an entry. A convolution row at position `m`, channel `ch`
  is the bias plus nine terms — image column `o0`, `o1`, `o2` at positions `m, m + 1, m + 2` against weight rows 0 … 8 — added
  left to right, then the maximum with zero (`convR`). Pooled row `p` at `(j, q)` is the selection matrix's row
  `j + q / 32` against, position by position, the maximum over two neighbouring positions of the maximum of rows `2 p` and
  `2 p + 1`, at channel `q % 32`.
-/
import proofs.«139938_g2000005272685101_pallaspilot1_161_3_alg».proof.Proof.RefLoop

set_option maxRecDepth 65536

open scoped BigOperators

noncomputable section

namespace Cert.ReferenceIdeal.Hand

open Cert.ReferenceIdeal Cert.ReferenceIdeal.Gen Idealize.ShloMosaic Idealize.ShloMosaic.ValueIdx Idealize.SL.Sem

/-- A column window at position `m`: the image at row `dj + m` of the transposed image, column `o`. -/
theorem col_apply (xt : FVec Ideal S28x28 .f32) (o : Fin 28) (dj : Fin 3) (m : Fin 26) :
    col (F := Ideal) xt o dj (ix2 m (0 : Fin 1)) = xt (ix2 ⟨dj.val + m.val, by have := dj.isLt; have := m.isLt; omega⟩ o) := by
  refine extractStridedSlice_apply _ xt _ _ _ fun ax => ?_
  match ax with
  | ⟨0, _⟩ => rfl
  | ⟨1, _⟩ => show o.val = o.val + 0; omega

/-- A convolution row of the first layer at `(m, ch)`, from image columns `o0, o1, o2`. -/
def convR (xt : FVec Ideal S28x28 .f32) (w1 : FVec Ideal S9x32 .f32) (b1 : FVec Ideal S1x32 .f32) (o0 o1 o2 : Fin 28)
    (m : Fin 26) (ch : Fin 32) : EReal :=
  max (b1 (ix2 (0 : Fin 1) ch)
      + xt (ix2 ⟨0 + m.val, by have := m.isLt; omega⟩ o0) * w1 (ix2 0 ch)
      + xt (ix2 ⟨1 + m.val, by have := m.isLt; omega⟩ o0) * w1 (ix2 1 ch)
      + xt (ix2 ⟨2 + m.val, by have := m.isLt; omega⟩ o0) * w1 (ix2 2 ch)
      + xt (ix2 ⟨0 + m.val, by have := m.isLt; omega⟩ o1) * w1 (ix2 3 ch)
      + xt (ix2 ⟨1 + m.val, by have := m.isLt; omega⟩ o1) * w1 (ix2 4 ch)
      + xt (ix2 ⟨2 + m.val, by have := m.isLt; omega⟩ o1) * w1 (ix2 5 ch)
      + xt (ix2 ⟨0 + m.val, by have := m.isLt; omega⟩ o2) * w1 (ix2 6 ch)
      + xt (ix2 ⟨1 + m.val, by have := m.isLt; omega⟩ o2) * w1 (ix2 7 ch)
      + xt (ix2 ⟨2 + m.val, by have := m.isLt; omega⟩ o2) * w1 (ix2 8 ch)) Cert.Net.zeroW

/-- The maximum of row pair `p`'s two rows at position `m`. -/
def pairR (xt : FVec Ideal S28x28 .f32) (w1 : FVec Ideal S9x32 .f32) (b1 : FVec Ideal S1x32 .f32) (p : Fin 10)
    (m : Fin 26) (ch : Fin 32) : EReal :=
  max (convR xt w1 b1 (off p 0) (off p 1) (off p 2) m ch) (convR xt w1 b1 (off p 1) (off p 2) (off p 3) m ch)

/-- Pooled row `p` at `(j, q)`. -/
theorem groupE_apply (p : Fin 10) (xt : FVec Ideal S28x28 .f32) (w1 : FVec Ideal S9x32 .f32) (b1 : FVec Ideal S1x32 .f32)
    (sel1 : FVec Ideal S13x25 .f32) (j : Fin 11) (q : Fin 96) :
    groupE (F := Ideal) p xt w1 b1 sel1 (ix2 j q)
      = ∑ t : Fin 25, sel1 (ix2 ⟨j.val + q.val / 32, by have := j.isLt; have := q.isLt; omega⟩ t)
          * max (pairR xt w1 b1 p ⟨t.val, by have := t.isLt; omega⟩ ⟨q.val % 32, by omega⟩)
              (pairR xt w1 b1 p ⟨t.val + 1, by have := t.isLt; omega⟩ ⟨q.val % 32, by omega⟩) := by
  unfold groupE
  rw [pay15_apply]
  unfold selRow
  refine Finset.sum_congr rfl fun t _ => congrArg (sel1 _ * ·) ?_
  rw [pay14_apply]
  unfold pairMax pairR convR term
  simp only [rowA_apply, term, col_apply]
  unfold k0_pay13
  simp only [slice2_axis0_eq]
  rfl

end Cert.ReferenceIdeal.Hand

end
-- ==== Proof.ReferenceTail.lean ====
/-
  The block-of-8 program's tail: from the 8 feature rows the loop leaves, the two dense layers and the log-softmax.
  At row `r` it reads the feature row `r` and nothing else, and is the tail function of the specification.
-/
import proofs.«139938_g2000005272685101_pallaspilot1_161_3_alg».proof.Proof.Gen.ReferenceIdeal.Skeleton
import proofs.«139938_g2000005272685101_pallaspilot1_161_3_alg».proof.Proof.Spec

set_option maxRecDepth 65536

open scoped BigOperators

noncomputable section

namespace Cert.ReferenceIdeal.Hand

open Cert.ReferenceIdeal Cert.ReferenceIdeal.Gen Idealize.ShloMosaic Idealize.ShloMosaic.ValueIdx Idealize.SL.Sem

variable {F : FTy → Type} [FloatOps F]

/-- The first dense layer with its positive part, over the 8 feature rows. -/
def hidden (v15 : FVec F S8x128 .f32) (v16 : Vec F S128x512 .f32) (v19 : Vec F S1x512 .f32) : FVec F S8x512 .f32 :=
  have v17 : FVec F S128x512 .f32 := shapeCast S128x512 v16 shapeCasts_S128x512_S128x512
  have cst_14 : FVec F S8x512 .f32 := constant S8x512 .f32 0x00000000#32
  have v18 : FVec F S8x512 .f32 := matmul dot_S8x128_S128x512_S8x512_1_0_0_1_n_n none v15 v17 cst_14
  have v20 : FVec F S1x512 .f32 := shapeCast S1x512 v19 shapeCasts_S1x512_S1x512
  have v21 : FVec F S8x512 .f32 := broadcastTo S8x512 v20 broadcasts_S1x512_S8x512
  have v22 : FVec F S8x512 .f32 := addf v18 v21
  have cst_17 : F .f32 := Scalar.ofBits .f32 0x00000000#32
  have v23 : FVec F S8x512 .f32 := broadcast S8x512 cst_17
  have v24 : FVec F S8x512 .f32 := maximumf v22 v23
  v24

/-- The hidden layer at `(r, k)` is the specification's hidden row of feature row `r`. -/
theorem hidden_apply (v15 : FVec Ideal S8x128 .f32) (v16 : Vec Ideal S128x512 .f32) (v19 : Vec Ideal S1x512 .f32)
    (r : Fin 8) (k : Fin 512) :
    hidden (F := Ideal) v15 v16 v19 (ix2 r k) = Cert.Net.hiddenRow (fun c => v15 (ix2 r c)) v16 v19 k := by
  refine (biased_matmul_max_apply (m := 8) (k := 128) (n := 512) (φ₁ := .f32) (φ₂ := .f32)
    dot_S8x128_S128x512_S8x512_1_0_0_1_n_n_wf dot_S8x128_S128x512_S8x512_1_0_0_1_n_n rfl none v15
    (shapeCast S128x512 v16 shapeCasts_S128x512_S128x512) (shapeCast S1x512 v19 shapeCasts_S1x512_S1x512)
    broadcasts_S1x512_S8x512 (Scalar.ofBits .f32 0x00000000#32) r k).trans ?_
  rw [shapeCast_self, shapeCast_self]
  rfl

/-- The logits at `(r, j)` are the specification's logits of feature row `r`. -/
theorem pay150_apply (v15 : FVec Ideal S8x128 .f32) (v16 : Vec Ideal S128x512 .f32) (v19 : Vec Ideal S1x512 .f32)
    (v25 : Vec Ideal S512x10 .f32) (v27 : Vec Ideal S1x10 .f32) (r : Fin 8) (j : Fin 10) :
    k0_pay150 (F := Ideal) v15 v16 v19 v25 v27 (ix2 r j)
      = Cert.Net.logitRow (fun c => v15 (ix2 r c)) v16 v19 v25 v27 j := by
  refine (biased_matmul_apply (m := 8) (k := 512) (n := 10) (φ₁ := .f32) (φ₂ := .f32)
    dot_S8x512_S512x10_S8x10_1_0_0_1_n_n_wf dot_S8x512_S512x10_S8x10_1_0_0_1_n_n rfl none
    (hidden (F := Ideal) v15 v16 v19) v25 (shapeCast S1x10 v27 shapeCasts_S1x10_S1x10) broadcasts_S1x10_S8x10 r j).trans ?_
  rw [shapeCast_self]
  unfold Cert.Net.logitRow
  exact congrArg (· + v27 (ix2 (0 : Fin 1) j))
    (Finset.sum_congr rfl fun k _ => congrArg (· * v25 (ix2 k j)) (hidden_apply v15 v16 v19 r k))

/-- The stored block at `(r, j)`: the tail of feature row `r`. -/
theorem pay1_pay150_apply (v15 : FVec Ideal S8x128 .f32) (v16 : Vec Ideal S128x512 .f32) (v19 : Vec Ideal S1x512 .f32)
    (v25 : Vec Ideal S512x10 .f32) (v27 : Vec Ideal S1x10 .f32) (r : Fin 8) (j : Fin 10) :
    k0_pay1 (F := Ideal) (k0_pay150 v15 v16 v19 v25 v27) (ix2 r j)
      = Cert.Net.tailRow (fun c => v15 (ix2 r c)) v16 v19 v25 v27 j := by
  refine (logSoftmax_rows_apply (B := 8) (N := 10) (φ := .f32) (k0_pay150 (F := Ideal) v15 v16 v19 v25 v27)
    0xFF800000#32 0x00000000#32 reduces_S8x10_S8 (.inl rfl) (.inl rfl) rfl rfl shapeCasts_S8_S8x1
    broadcasts_S8x1_S8x10 r j).trans ?_
  unfold Cert.Net.tailRow Cert.Net.logSoftmax10 rowMax
  simp only [pay150_apply]

end Cert.ReferenceIdeal.Hand

end
-- ==== Proof.RefBlock.lean ====
/-
  The block-of-8 program's stored block, entry by entry: row `r` is the tail of the features of image `r` of the block,
  and image `r` is the `r`-th 28 x 28 slab of the block's image window.
-/
import proofs.«139938_g2000005272685101_pallaspilot1_161_3_alg».proof.Proof.RefValue
import proofs.«139938_g2000005272685101_pallaspilot1_161_3_alg».proof.Proof.ReferenceTail
import proofs.«139938_g2000005272685101_pallaspilot1_161_3_alg».proof.Proof.Gen.ReferenceIdeal.Frame

set_option maxRecDepth 65536
set_option maxHeartbeats 4000000

open scoped BigOperators

noncomputable section

namespace Cert.ReferenceIdeal.Hand

open Cert.ReferenceIdeal Cert.ReferenceIdeal.Gen Idealize.ShloMosaic Idealize.ShloMosaic.ValueIdx Idealize.ShloMosaic.TcCoe Idealize.SL.Sem

theorem hz2 : (![0, 0] : Fin 2 → Nat) = fun _ => 0 := funext fun a => by fin_cases a <;> rfl

/-- Image `r` of a block of eight (transposed) images. -/
def imageT (x0 : Vec Ideal S8x28x28 .f32) (r : Fin 8) : FVec Ideal S28x28 .f32 := fun idx => x0 (ix3 r (idx 0) (idx 1))

/-- The load offsets of trip `r`: slab `r`. -/
theorem off1_eq (r : Fin 8) (h : r.val < k0_t1_loop.trips) :
    k0_off1 ⟨r.val, h⟩ = ![r.val, 0, 0] := by
  fin_cases r <;> (funext a; fin_cases a <;> rfl)

/-- The trip's image is slab `r` of the block. -/
theorem tripImage_eq (arg1 : Memref sig .tc .vmem S8x28x28 .f32) (harg1 : arg1.IsWhole) (x0 : Vec Ideal S8x28x28 .f32) (r : Fin 8)
    (h : r.val < k0_t1_loop.trips) :
    trip_k0_t1.sl.r (F := Ideal) arg1 (harg1.unread x0) ⟨r.val, h⟩ = imageT x0 r := by
  funext idx
  obtain ⟨w, hh, rfl⟩ : ∃ (w hh : Fin 28), idx = ix2 w hh := ⟨idx 0, idx 1, eq_ix2 idx⟩
  unfold trip_k0_t1.sl.r k0_pay2
  rw [shapeCast_1ab_ab_apply, View.readAt_eq_ld, Memref.IsWhole.read_unread]
  show x0 _ = x0 _
  refine congrArg x0 (funext fun a => Fin.ext ?_)
  have e := off1_eq r h
  match a with
  | ⟨0, _⟩ => show k0_off1 ⟨r.val, h⟩ 0 + 0 = r.val; rw [e]; rfl
  | ⟨1, _⟩ => show k0_off1 ⟨r.val, h⟩ 1 + 1 * w.val = w.val; rw [e]; show 0 + 1 * w.val = w.val; omega
  | ⟨2, _⟩ => show k0_off1 ⟨r.val, h⟩ 2 + 1 * hh.val = hh.val; rw [e]; show 0 + 1 * hh.val = hh.val; omega

/-- What the body leaves in the output block is the tail of the loop's carried array. -/
theorem out13_eq (c : Dev nD) (i : grid0.Coords) (arg1 : Memref sig .tc .vmem S8x28x28 .f32) (harg1 : arg1.IsWhole) (arg2 : Memref sig .tc .vmem S9x32 .f32) (harg2 : arg2.IsWhole) (arg3 : Memref sig .tc .vmem S1x32 .f32) (harg3 : arg3.IsWhole) (arg4 : Memref sig .tc .vmem S288x64 .f32) (harg4 : arg4.IsWhole) (arg5 : Memref sig .tc .vmem S1x64 .f32) (harg5 : arg5.IsWhole) (arg6 : Memref sig .tc .vmem S576x128 .f32) (harg6 : arg6.IsWhole) (arg7 : Memref sig .tc .vmem S1x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S13x25 .f32) (harg12 : arg12.IsWhole) (arg13 : Memref sig .tc .vmem S5x10 .f32) (harg13 : arg13.IsWhole) (arg14 : Memref sig .tc .vmem S8x10 .f32) (harg14 : arg14.IsWhole)
    (x0 : Vec Ideal S8x28x28 .f32) (x1 : Vec Ideal S9x32 .f32) (x2 : Vec Ideal S1x32 .f32) (x3 : Vec Ideal S288x64 .f32) (x4 : Vec Ideal S1x64 .f32) (x5 : Vec Ideal S576x128 .f32) (x6 : Vec Ideal S1x128 .f32) (x7 : Vec Ideal S128x512 .f32) (x8 : Vec Ideal S1x512 .f32) (x9 : Vec Ideal S512x10 .f32) (x10 : Vec Ideal S1x10 .f32) (x11 : Vec Ideal S13x25 .f32) (x12 : Vec Ideal S5x10 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = k0_pay1 (k0_pay150 (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 x1 x2 x4 x6 x11 x12 (harg1.unread x0) (harg4.unread x3) (harg6.unread x5) k0_pay148 8) x7 x8 x9 x10) := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  rw [View.canon_unit_zero hz2]
  unfold kernelRun0_A.sl.r
  simp only [View.readAt_eq_ld, Memref.IsWhole.read_unread, View.ld_unit_zero (S := S9x32) hz2, View.ld_unit_zero (S := S1x32) hz2,
    View.ld_unit_zero (S := S1x64) hz2, View.ld_unit_zero (S := S1x128) hz2, View.ld_unit_zero (S := S13x25) hz2,
    View.ld_unit_zero (S := S5x10) hz2, View.ld_unit_zero (S := S128x512) hz2, View.ld_unit_zero (S := S1x512) hz2,
    View.ld_unit_zero (S := S512x10) hz2, View.ld_unit_zero (S := S1x10) hz2]
  rfl

/-- The stored block at `(r, j)`. -/
theorem block13_entry (c : Dev nD) (i : grid0.Coords) (arg1 : Memref sig .tc .vmem S8x28x28 .f32) (harg1 : arg1.IsWhole) (arg2 : Memref sig .tc .vmem S9x32 .f32) (harg2 : arg2.IsWhole) (arg3 : Memref sig .tc .vmem S1x32 .f32) (harg3 : arg3.IsWhole) (arg4 : Memref sig .tc .vmem S288x64 .f32) (harg4 : arg4.IsWhole) (arg5 : Memref sig .tc .vmem S1x64 .f32) (harg5 : arg5.IsWhole) (arg6 : Memref sig .tc .vmem S576x128 .f32) (harg6 : arg6.IsWhole) (arg7 : Memref sig .tc .vmem S1x128 .f32) (harg7 : arg7.IsWhole) (arg8 : Memref sig .tc .vmem S128x512 .f32) (harg8 : arg8.IsWhole) (arg9 : Memref sig .tc .vmem S1x512 .f32) (harg9 : arg9.IsWhole) (arg10 : Memref sig .tc .vmem S512x10 .f32) (harg10 : arg10.IsWhole) (arg11 : Memref sig .tc .vmem S1x10 .f32) (harg11 : arg11.IsWhole) (arg12 : Memref sig .tc .vmem S13x25 .f32) (harg12 : arg12.IsWhole) (arg13 : Memref sig .tc .vmem S5x10 .f32) (harg13 : arg13.IsWhole) (arg14 : Memref sig .tc .vmem S8x10 .f32) (harg14 : arg14.IsWhole)
    (x0 : Vec Ideal S8x28x28 .f32) (x1 : Vec Ideal S9x32 .f32) (x2 : Vec Ideal S1x32 .f32) (x3 : Vec Ideal S288x64 .f32) (x4 : Vec Ideal S1x64 .f32) (x5 : Vec Ideal S576x128 .f32) (x6 : Vec Ideal S1x128 .f32) (x7 : Vec Ideal S128x512 .f32) (x8 : Vec Ideal S1x512 .f32) (x9 : Vec Ideal S512x10 .f32) (x10 : Vec Ideal S1x10 .f32) (x11 : Vec Ideal S13x25 .f32) (x12 : Vec Ideal S5x10 .f32) (r : Fin 8) (j : Fin 10) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 (ix2 r j)
      = Cert.Net.tailRow (fun ch => imgFeat (F := Ideal) x1 x2 x4 x6 x11 x12 (imageT x0 r) x3 x5 (ix2 (0 : Fin 1) ch)) x7 x8 x9 x10 j := by
  rw [out13_eq, pay1_pay150_apply]
  refine congrArg (fun f => Cert.Net.tailRow f x7 x8 x9 x10 j) (funext fun ch => ?_)
  rw [st_rows Variants.none c none i arg1 harg1 arg2 harg2 arg3 harg3 arg4 harg4 arg5 harg5 arg6 harg6 arg7 harg7 arg8 harg8 arg9 harg9 arg10 harg10 arg11 harg11 arg12 harg12 arg13 harg13 arg14 harg14 x1 x2 x4 x6 x11 x12 (harg1.unread x0) (harg4.unread x3) (harg6.unread x5) k0_pay148 8 (Nat.le_refl 8) r r.isLt ch, tripImage_eq]
  unfold k0_pay142 k0_pay143 k0_pay144 k0_pay146 k0_pay147
  simp only [shapeCast_self, View.readAt_eq_ld, Memref.IsWhole.read_unread, View.ld_unit_zero (S := S288x64) hz2,
    View.ld_unit_zero (S := S576x128) hz2]

end Cert.ReferenceIdeal.Hand

end
-- ==== Proof.RefArray.lean ====
/-
  From blocks to the array, for the block-of-8 program: grid point `t` writes back rows `8 t … 8 t + 7` of the result,
  each the tail of the features of the image of that row; the 1024 points cover all 8192 rows.
-/
import proofs.«139938_g2000005272685101_pallaspilot1_161_3_alg».proof.Proof.RefBlock
import proofs.«139938_g2000005272685101_pallaspilot1_161_3_alg».proof.Proof.Gen.ReferenceIdeal.Value

set_option maxRecDepth 65536
set_option maxHeartbeats 4000000

open scoped BigOperators

noncomputable section

namespace Cert.ReferenceIdeal.Hand

open Cert.ReferenceIdeal Cert.ReferenceIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Image `n` of the (transposed) image array. -/
def imageOf (X : S8192x28x28.Idx → EReal) (n : Fin 8192) : FVec Ideal S28x28 .f32 := fun idx => X (ix3 n (idx 0) (idx 1))

/-- The result array as the region's arrays determine it: row `n` is the tail of image `n`'s features. -/
def resultOf (c : Dev nD) : S8192x10.Idx → EReal := fun i =>
  Cert.Net.tailRow (fun ch => imgFeat (F := Ideal) (V m c main_v2) (V m c main_v3) (V m c main_v5) (V m c main_v7) (V m c main_v21)
      (V m c main_v31) (imageOf (V m c main_v1) (i 0)) (V m c main_v4) (V m c main_v6) (ix2 (0 : Fin 1) ch))
    (V m c main_v9) (V m c main_v10) (V m c main_arg9) (V m c main_v11) (i 1)

/-- The printed index maps, decided over the 1024 grid points. -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = t.val
    ∧ win0_13.index t (1 : Fin 2) = 0 :=
  (by decide +kernel : ∀ t : Fin grid0.N, _)

/-- The row of the arrays that grid point `t`'s block row `r` is. -/
def rowOf (t : Fin cfg0.N) (r : Fin 8) : Fin 8192 := ⟨8 * t.val + r.val, by have : t.val < 1024 := t.isLt; have := r.isLt; show _ < 8192; omega⟩

/-- Window 1's block is its whole array at every point. -/
theorem iblk1_eq (c : Dev nD) (t : Fin cfg0.N) : (iblk m c 1 t : S9x32.Idx → EReal) = V m c main_v2 := by
  funext y
  show V m c main_v2 (((cfg0.win 1).blk t).view.emb y) = V m c main_v2 y
  refine congrArg (V m c main_v2) (funext fun a => Fin.ext ?_)
  have e0 : win0_1.index t (0 : Fin 2) = 0 := (idx_facts t).2.2.2.1
  have e1 : win0_1.index t (1 : Fin 2) = 0 := (idx_facts t).2.2.2.2.1
  match a with
  | ⟨0, _⟩ => show win0_1.index t (0 : Fin 2) * 9 + 1 * (y 0).val = (y 0).val; omega
  | ⟨1, _⟩ => show win0_1.index t (1 : Fin 2) * 32 + 1 * (y 1).val = (y 1).val; omega

/-- Window 2's block is its whole array at every point. -/
theorem iblk2_eq (c : Dev nD) (t : Fin cfg0.N) : (iblk m c 2 t : S1x32.Idx → EReal) = V m c main_v3 := by
  funext y
  show V m c main_v3 (((cfg0.win 2).blk t).view.emb y) = V m c main_v3 y
  refine congrArg (V m c main_v3) (funext fun a => Fin.ext ?_)
  have e0 : win0_2.index t (0 : Fin 2) = 0 := (idx_facts t).2.2.2.2.2.1
  have e1 : win0_2.index t (1 : Fin 2) = 0 := (idx_facts t).2.2.2.2.2.2.1
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- Window 3's block is its whole array at every point. -/
theorem iblk3_eq (c : Dev nD) (t : Fin cfg0.N) : (iblk m c 3 t : S288x64.Idx → EReal) = V m c main_v4 := by
  funext y
  show V m c main_v4 (((cfg0.win 3).blk t).view.emb y) = V m c main_v4 y
  refine congrArg (V m c main_v4) (funext fun a => Fin.ext ?_)
  have e0 : win0_3.index t (0 : Fin 2) = 0 := (idx_facts t).2.2.2.2.2.2.2.1
  have e1 : win0_3.index t (1 : Fin 2) = 0 := (idx_facts t).2.2.2.2.2.2.2.2.1
  match a with
  | ⟨0, _⟩ => show win0_3.index t (0 : Fin 2) * 288 + 1 * (y 0).val = (y 0).val; omega
  | ⟨1, _⟩ => show win0_3.index t (1 : Fin 2) * 64 + 1 * (y 1).val = (y 1).val; omega

/-- Window 4's block is its whole array at every point. -/
theorem iblk4_eq (c : Dev nD) (t : Fin cfg0.N) : (iblk m c 4 t : S1x64.Idx → EReal) = V m c main_v5 := by
  funext y
  show V m c main_v5 (((cfg0.win 4).blk t).view.emb y) = V m c main_v5 y
  refine congrArg (V m c main_v5) (funext fun a => Fin.ext ?_)
  have e0 : win0_4.index t (0 : Fin 2) = 0 := (idx_facts t).2.2.2.2.2.2.2.2.2.1
  have e1 : win0_4.index t (1 : Fin 2) = 0 := (idx_facts t).2.2.2.2.2.2.2.2.2.2.1
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block is its whole array at every point. -/
theorem iblk5_eq (c : Dev nD) (t : Fin cfg0.N) : (iblk m c 5 t : S576x128.Idx → EReal) = V m c main_v6 := by
  funext y
  show V m c main_v6 (((cfg0.win 5).blk t).view.emb y) = V m c main_v6 y
  refine congrArg (V m c main_v6) (funext fun a => Fin.ext ?_)
  have e0 : win0_5.index t (0 : Fin 2) = 0 := (idx_facts t).2.2.2.2.2.2.2.2.2.2.2.1
  have e1 : win0_5.index t (1 : Fin 2) = 0 := (idx_facts t).2.2.2.2.2.2.2.2.2.2.2.2.1
  match a with
  | ⟨0, _⟩ => show win0_5.index t (0 : Fin 2) * 576 + 1 * (y 0).val = (y 0).val; omega
  | ⟨1, _⟩ => show win0_5.index t (1 : Fin 2) * 128 + 1 * (y 1).val = (y 1).val; omega

/-- Window 6's block is its whole array at every point. -/
theorem iblk6_eq (c : Dev nD) (t : Fin cfg0.N) : (iblk m c 6 t : S1x128.Idx → EReal) = V m c main_v7 := by
  funext y
  show V m c main_v7 (((cfg0.win 6).blk t).view.emb y) = V m c main_v7 y
  refine congrArg (V m c main_v7) (funext fun a => Fin.ext ?_)
  have e0 : win0_6.index t (0 : Fin 2) = 0 := (idx_facts t).2.2.2.2.2.2.2.2.2.2.2.2.2.1
  have e1 : win0_6.index t (1 : Fin 2) = 0 := (idx_facts t).2.2.2.2.2.2.2.2.2.2.2.2.2.2.1
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem iblk7_eq (c : Dev nD) (t : Fin cfg0.N) : (iblk m c 7 t : S128x512.Idx → EReal) = V m c main_v9 := by
  funext y
  show V m c main_v9 (((cfg0.win 7).blk t).view.emb y) = V m c main_v9 y
  refine congrArg (V m c main_v9) (funext fun a => Fin.ext ?_)
  have e0 : win0_7.index t (0 : Fin 2) = 0 := (idx_facts t).2.2.2.2.2.2.2.2.2.2.2.2.2.2.2.1
  have e1 : win0_7.index t (1 : Fin 2) = 0 := (idx_facts t).2.2.2.2.2.2.2.2.2.2.2.2.2.2.2.2.1
  match a with
  | ⟨0, _⟩ => show win0_7.index t (0 : Fin 2) * 128 + 1 * (y 0).val = (y 0).val; omega
  | ⟨1, _⟩ => show win0_7.index t (1 : Fin 2) * 512 + 1 * (y 1).val = (y 1).val; omega

/-- Window 8's block is its whole array at every point. -/
theorem iblk8_eq (c : Dev nD) (t : Fin cfg0.N) : (iblk m c 8 t : S1x512.Idx → EReal) = V m c main_v10 := by
  funext y
  show V m c main_v10 (((cfg0.win 8).blk t).view.emb y) = V m c main_v10 y
  refine congrArg (V m c main_v10) (funext fun a => Fin.ext ?_)
  have e0 : win0_8.index t (0 : Fin 2) = 0 := (idx_facts t).2.2.2.2.2.2.2.2.2.2.2.2.2.2.2.2.2.1
  have e1 : win0_8.index t (1 : Fin 2) = 0 := (idx_facts t).2.2.2.2.2.2.2.2.2.2.2.2.2.2.2.2.2.2.1
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- Window 9's block is its whole array at every point. -/
theorem iblk9_eq (c : Dev nD) (t : Fin cfg0.N) : (iblk m c 9 t : S512x10.Idx → EReal) = V m c main_arg9 := by
  funext y
  show V m c main_arg9 (((cfg0.win 9).blk t).view.emb y) = V m c main_arg9 y
  refine congrArg (V m c main_arg9) (funext fun a => Fin.ext ?_)
  have e0 : win0_9.index t (0 : Fin 2) = 0 := (idx_facts t).2.2.2.2.2.2.2.2.2.2.2.2.2.2.2.2.2.2.2.1
  have e1 : win0_9.index t (1 : Fin 2) = 0 := (idx_facts t).2.2.2.2.2.2.2.2.2.2.2.2.2.2.2.2.2.2.2.2.1
  match a with
  | ⟨0, _⟩ => show win0_9.index t (0 : Fin 2) * 512 + 1 * (y 0).val = (y 0).val; omega
  | ⟨1, _⟩ => show win0_9.index t (1 : Fin 2) * 10 + 1 * (y 1).val = (y 1).val; omega

/-- Window 10's block is its whole array at every point. -/
theorem iblk10_eq (c : Dev nD) (t : Fin cfg0.N) : (iblk m c 10 t : S1x10.Idx → EReal) = V m c main_v11 := by
  funext y
  show V m c main_v11 (((cfg0.win 10).blk t).view.emb y) = V m c main_v11 y
  refine congrArg (V m c main_v11) (funext fun a => Fin.ext ?_)
  have e0 : win0_10.index t (0 : Fin 2) = 0 := (idx_facts t).2.2.2.2.2.2.2.2.2.2.2.2.2.2.2.2.2.2.2.2.2.1
  have e1 : win0_10.index t (1 : Fin 2) = 0 := (idx_facts t).2.2.2.2.2.2.2.2.2.2.2.2.2.2.2.2.2.2.2.2.2.2.1
  match a with
  | ⟨0, _⟩ => show win0_10.index t (0 : Fin 2) * 1 + 1 * (y 0).val = (y 0).val; omega
  | ⟨1, _⟩ => show win0_10.index t (1 : Fin 2) * 10 + 1 * (y 1).val = (y 1).val; omega

/-- Window 11's block is its whole array at every point. -/
theorem iblk11_eq (c : Dev nD) (t : Fin cfg0.N) : (iblk m c 11 t : S13x25.Idx → EReal) = V m c main_v21 := by
  funext y
  show V m c main_v21 (((cfg0.win 11).blk t).view.emb y) = V m c main_v21 y
  refine congrArg (V m c main_v21) (funext fun a => Fin.ext ?_)
  have e0 : win0_11.index t (0 : Fin 2) = 0 := (idx_facts t).2.2.2.2.2.2.2.2.2.2.2.2.2.2.2.2.2.2.2.2.2.2.2.1
  have e1 : win0_11.index t (1 : Fin 2) = 0 := (idx_facts t).2.2.2.2.2.2.2.2.2.2.2.2.2.2.2.2.2.2.2.2.2.2.2.2.1
  match a with
  | ⟨0, _⟩ => show win0_11.index t (0 : Fin 2) * 13 + 1 * (y 0).val = (y 0).val; omega
  | ⟨1, _⟩ => show win0_11.index t (1 : Fin 2) * 25 + 1 * (y 1).val = (y 1).val; omega

/-- Window 12's block is its whole array at every point. -/
theorem iblk12_eq (c : Dev nD) (t : Fin cfg0.N) : (iblk m c 12 t : S5x10.Idx → EReal) = V m c main_v31 := by
  funext y
  show V m c main_v31 (((cfg0.win 12).blk t).view.emb y) = V m c main_v31 y
  refine congrArg (V m c main_v31) (funext fun a => Fin.ext ?_)
  have e0 : win0_12.index t (0 : Fin 2) = 0 := (idx_facts t).2.2.2.2.2.2.2.2.2.2.2.2.2.2.2.2.2.2.2.2.2.2.2.2.2.1
  have e1 : win0_12.index t (1 : Fin 2) = 0 := (idx_facts t).2.2.2.2.2.2.2.2.2.2.2.2.2.2.2.2.2.2.2.2.2.2.2.2.2.2.1
  match a with
  | ⟨0, _⟩ => show win0_12.index t (0 : Fin 2) * 5 + 1 * (y 0).val = (y 0).val; omega
  | ⟨1, _⟩ => show win0_12.index t (1 : Fin 2) * 10 + 1 * (y 1).val = (y 1).val; omega

/-- The image window's block at point `t` holds images `8 t … 8 t + 7`. -/
theorem image0_eq (c : Dev nD) (t : Fin cfg0.N) (r : Fin 8) :
    imageT (iblk m c 0 t) r = imageOf (V m c main_v1) (rowOf t r) := by
  funext idx
  show V m c main_v1 (((cfg0.win 0).blk t).view.emb (ix3 r (idx 0) (idx 1))) = V m c main_v1 (ix3 (rowOf t r) (idx 0) (idx 1))
  refine congrArg (V m c main_v1) (funext fun a => Fin.ext ?_)
  obtain ⟨e0, e1, e2, -⟩ := idx_facts t
  match a with
  | ⟨0, _⟩ => show win0_0.index t (0 : Fin 3) * 8 + 1 * r.val = 8 * t.val + r.val; omega
  | ⟨1, _⟩ => show win0_0.index t (1 : Fin 3) * 28 + 1 * (idx 0).val = (idx 0).val; omega
  | ⟨2, _⟩ => show win0_0.index t (2 : Fin 3) * 28 + 1 * (idx 1).val = (idx 1).val; omega

theorem flushed_eq (c : Dev nD) (t : Fin cfg0.N) :
    (dats m 0 c).flushed 13 t = ((cfg0.win 13).blk t).view.read (Elt Ideal) (resultOf m c) := by
  rw [Cert.ReferenceIdeal.Value.flushed13_A]
  funext y
  have ey : (y : S8x10.Idx) = ix2 (y 0) (y 1) := eq_ix2 (show S8x10.Idx from y)
  refine (congrArg (out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) ey).trans ?_
  refine (block13_entry c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1)).trans ?_
  rw [iblk1_eq m c t, iblk2_eq m c t, iblk3_eq m c t, iblk4_eq m c t, iblk5_eq m c t, iblk6_eq m c t, iblk7_eq m c t,
    iblk8_eq m c t, iblk9_eq m c t, iblk10_eq m c t, iblk11_eq m c t, iblk12_eq m c t, image0_eq m c t (y 0)]
  show resultOf m c (ix2 (rowOf t (y 0)) (y 1)) = resultOf m c (((cfg0.win 13).blk t).view.emb y)
  refine congrArg (resultOf m c) (funext fun a => Fin.ext ?_)
  have e0 : win0_13.index t (0 : Fin 2) = t.val := (idx_facts t).2.2.2.2.2.2.2.2.2.2.2.2.2.2.2.2.2.2.2.2.2.2.2.2.2.2.2.1
  have e1 : win0_13.index t (1 : Fin 2) = 0 := (idx_facts t).2.2.2.2.2.2.2.2.2.2.2.2.2.2.2.2.2.2.2.2.2.2.2.2.2.2.2.2
  match a with
  | ⟨0, _⟩ => show 8 * t.val + (y 0).val = win0_13.index t (0 : Fin 2) * 8 + 1 * (y 0).val; omega
  | ⟨1, _⟩ => show (y 1).val = win0_13.index t (1 : Fin 2) * 10 + 1 * (y 1).val; omega

theorem mem_blk (t : Fin cfg0.N) (i : S8192x10.Idx) :
    i ∈ ((cfg0.win 13).blk t).view.set ↔ ∀ a : Fin 2, win0_13.index t a * S8x10.size a ≤ (i a).val
      ∧ (i a).val < win0_13.index t a * S8x10.size a + S8x10.size a := by
  show i ∈ ((View.whole main_v32).slice (win0_13.rect t)).set ↔ _
  rw [View.set_slice_whole, Rect.mem_set_unit]
  exact Iff.rfl

theorem cover (i : S8192x10.Idx) :
    ∃ t : Fin cfg0.N, (cfg0.win 13).flush t = true ∧ i ∈ ((cfg0.win 13).blk t).view.set := by
  have hi0 : (i 0).val < 8192 := (i 0).isLt
  have hi1 : (i 1).val < 10 := (i 1).isLt
  refine ⟨⟨(i 0).val / 8, by show _ < 1024; omega⟩, flush0_13 _, ?_⟩
  rw [mem_blk]
  intro a
  have e0 : win0_13.index ⟨(i 0).val / 8, by show _ < 1024; omega⟩ (0 : Fin 2) = (i 0).val / 8 :=
    (idx_facts _).2.2.2.2.2.2.2.2.2.2.2.2.2.2.2.2.2.2.2.2.2.2.2.2.2.2.2.1
  have e1 : win0_13.index ⟨(i 0).val / 8, by show _ < 1024; omega⟩ (1 : Fin 2) = 0 :=
    (idx_facts _).2.2.2.2.2.2.2.2.2.2.2.2.2.2.2.2.2.2.2.2.2.2.2.2.2.2.2.2
  match a with
  | ⟨0, _⟩ =>
    show win0_13.index _ (0 : Fin 2) * 8 ≤ (i 0).val ∧ (i 0).val < win0_13.index _ (0 : Fin 2) * 8 + 8
    rw [e0]; omega
  | ⟨1, _⟩ =>
    show win0_13.index _ (1 : Fin 2) * 10 ≤ (i 1).val ∧ (i 1).val < win0_13.index _ (1 : Fin 2) * 10 + 10
    rw [e1]; omega

/-- The result array after the run. -/
theorem final (c : Dev nD) : (dats m 0 c).arrAt 13 cfg0.N = resultOf m c :=
  (dats m 0 c).arrAt_eq_of_cover 13 (resultOf m c) (fun t _ => flushed_eq m c t) cover

end Cert.ReferenceIdeal.Hand

end
-- ==== Proof.LibEvenSelector.lean ====
/-
  The even-position selector the host builds from two iotas: entry `(w, t)` is one when `t = 2 w` and zero otherwise.
  The column number `t` and twice the row number `w` are compared as 32-bit words, which for sizes below 2^30 compare
  exactly as the numbers do, and the comparison bit is converted to a float: one is `1`, zero is `0`.
-/
import Idealize.ShloMosaic.PureOps.Ideal
import Idealize.ShloMosaic.Lib.ValueIdx
import Idealize.ShloMosaic.Lib.Pipeline.Value
import Idealize.ShloMosaic.Lib.IdealHost
import Idealize.ShloMosaic.Lib.Affine

namespace Idealize.ShloMosaic.ValueIdx

open Idealize.ShloMosaic

/-- Twice a small number, as 32-bit words, equals another small number exactly when it does as numbers. -/
theorem ofNat_eq_two_mul_iff {t w : ℕ} (ht : t < 2 ^ 30) (hw : w < 2 ^ 30) :
    BitVec.ofNat 32 t = IntOp.muli (2#32) (BitVec.ofNat 32 w) ↔ t = 2 * w := by
  constructor
  · intro h
    have := congrArg BitVec.toNat h
    simp only [IntOp.muli, BitVec.toNat_mul, BitVec.toNat_ofNat] at this
    have h2 : (2 : ℕ) % 2 ^ 32 = 2 := by norm_num
    omega
  · rintro rfl
    apply BitVec.eq_of_toNat_eq
    simp only [IntOp.muli, BitVec.toNat_mul, BitVec.toNat_ofNat]
    omega

/-- The comparison bit converted to a float. -/
theorem uitofp_bit_one : FloatOps.uitofp (F := Ideal) .f32 (1#1) = (1 : EReal) := by
  show ((((1#1 : BitVec 1).toNat : ℝ)) : EReal) = 1
  norm_num
theorem uitofp_bit_zero : FloatOps.uitofp (F := Ideal) .f32 (0#1) = (0 : EReal) := by
  show ((((0#1 : BitVec 1).toNat : ℝ)) : EReal) = 0
  norm_num

/-- The selector at `(w, t)`. -/
theorem evenSelector_apply {R C : ℕ} (hR : R < 2 ^ 29) (hC : C < 2 ^ 30)
    (b1 : (⟨1, ![C]⟩ : Shape).BroadcastsInDim ⟨2, ![1, C]⟩ ![1])
    (b2 : (⟨2, ![1, C]⟩ : Shape).BroadcastsInDim ⟨2, ![R, C]⟩ ![0, 1])
    (b3 : (⟨0, ![]⟩ : Shape).BroadcastsInDim ⟨2, ![R, 1]⟩ ![])
    (b4 : (⟨1, ![R]⟩ : Shape).BroadcastsInDim ⟨2, ![R, 1]⟩ ![0])
    (b5 : (⟨2, ![R, 1]⟩ : Shape).BroadcastsInDim ⟨2, ![R, C]⟩ ![0, 1]) (w : Fin R) (t : Fin C) :
    (uitofp (F := Ideal) .f32 (cmpi .eq
        (broadcastInDim ⟨2, ![R, C]⟩ ![0, 1] b2 (broadcastInDim ⟨2, ![1, C]⟩ ![1] b1 (iotaInDim ⟨1, ![C]⟩ 32 0)))
        (broadcastInDim ⟨2, ![R, C]⟩ ![0, 1] b5
          (muli (broadcastInDim ⟨2, ![R, 1]⟩ ![] b3 (constantI ⟨0, ![]⟩ 32 2#32))
            (broadcastInDim ⟨2, ![R, 1]⟩ ![0] b4 (iotaInDim ⟨1, ![R]⟩ 32 0)))))) (ix2 w t)
      = if t.val = 2 * w.val then 1 else 0 := by
  have hA : broadcastInDim ⟨2, ![R, C]⟩ ![0, 1] b2 (broadcastInDim ⟨2, ![1, C]⟩ ![1] b1 (iotaInDim ⟨1, ![C]⟩ 32 0)) (ix2 w t)
      = BitVec.ofNat 32 t.val := by
    refine (broadcastInDim_apply _ b2 _ (ix2 w t) (ix2 (0 : Fin 1) t) fun a => ?_).trans ?_
    · match a with
      | ⟨0, _⟩ => rfl
      | ⟨1, _⟩ =>
        show t.val = if C = 1 then 0 else t.val
        split
        · have := t.isLt; omega
        · rfl
    refine (broadcastInDim_apply _ b1 _ (ix2 (0 : Fin 1) t) (ix1 t) fun a => ?_).trans ?_
    · match a with
      | ⟨0, _⟩ =>
        show t.val = if C = 1 then 0 else t.val
        split
        · have := t.isLt; omega
        · rfl
    rfl
  have hB : broadcastInDim ⟨2, ![R, C]⟩ ![0, 1] b5
        (muli (broadcastInDim ⟨2, ![R, 1]⟩ ![] b3 (constantI ⟨0, ![]⟩ 32 2#32))
          (broadcastInDim ⟨2, ![R, 1]⟩ ![0] b4 (iotaInDim ⟨1, ![R]⟩ 32 0))) (ix2 w t)
      = IntOp.muli (2#32) (BitVec.ofNat 32 w.val) := by
    refine (broadcastInDim_apply _ b5 _ (ix2 w t) (ix2 w (0 : Fin 1)) fun a => ?_).trans ?_
    · match a with
      | ⟨0, _⟩ =>
        show w.val = if R = 1 then 0 else w.val
        split
        · have := w.isLt; omega
        · rfl
      | ⟨1, _⟩ => rfl
    show IntOp.muli (broadcastInDim ⟨2, ![R, 1]⟩ ![] b3 (constantI ⟨0, ![]⟩ 32 2#32) (ix2 w (0 : Fin 1)))
      (broadcastInDim ⟨2, ![R, 1]⟩ ![0] b4 (iotaInDim ⟨1, ![R]⟩ 32 0) (ix2 w (0 : Fin 1))) = _
    rw [broadcastInDim_scalar_apply]
    refine congrArg (IntOp.muli (2#32)) ?_
    refine (broadcastInDim_apply _ b4 _ (ix2 w (0 : Fin 1)) (ix1 w) fun a => ?_).trans rfl
    match a with
    | ⟨0, _⟩ =>
      show w.val = if R = 1 then 0 else w.val
      split
      · have := w.isLt; omega
      · rfl
  show FloatOps.uitofp (F := Ideal) .f32 (IntOp.cmpi .eq _ _) = _
  rw [hA, hB]
  have ht := t.isLt; have hw := w.isLt
  by_cases h : t.val = 2 * w.val
  · rw [if_pos h, (IntOp.cmpi_eq).mpr ((ofNat_eq_two_mul_iff (by omega) (by omega)).mpr h), uitofp_bit_one]
  · rw [if_neg h, eq_zero_of_ne_one (fun h1 => h ((ofNat_eq_two_mul_iff (by omega) (by omega)).mp ((IntOp.cmpi_eq).mp h1))),
      uitofp_bit_zero]

end Idealize.ShloMosaic.ValueIdx
-- ==== Proof.RefHost.lean ====
/-
  The arrays the block-of-8 program's region is given, as functions of the arguments: plain reshapes, the second dense
  layer's matrix summed over its nine copies, the image array transposed within each image, the 3 x 3 x 1 x 32 weights
  as a 9 x 32 matrix, and the two even-position selectors.
-/
import proofs.«139938_g2000005272685101_pallaspilot1_161_3_alg».proof.Proof.RefArray
import proofs.«139938_g2000005272685101_pallaspilot1_161_3_alg».proof.Proof.LibEvenSelector
import Idealize.ShloMosaic.Lib.StableHlo.Run

set_option maxRecDepth 65536
set_option maxHeartbeats 2000000

open scoped BigOperators

noncomputable section

namespace Cert.ReferenceIdeal.Hand

open Cert.ReferenceIdeal Cert.ReferenceIdeal.Gen Idealize.ShloMosaic Idealize.ShloMosaic.ValueIdx Idealize.ShloMosaic.TcCoe Idealize.SL.Sem

variable (m : (ℓ : Loc nD τ sig) → Buf (Elt Ideal) ℓ)

/-- Unfold the host operations before the region down to the arguments. -/
macro "ref_host_read" : tactic => `(tactic| (dsimp only [V, hostOps0]; after_results))

theorem V_v4 (c : Dev nD) : (V m c main_v4 : S288x64.Idx → EReal)
    = shapeCast S288x64 (m ((c : Thread nD τ).loc main_arg3)) shapeCasts_S3x3x32x64_S288x64 := by ref_host_read; rfl
theorem V_v5 (c : Dev nD) : (V m c main_v5 : S1x64.Idx → EReal)
    = shapeCast S1x64 (m ((c : Thread nD τ).loc main_arg4)) shapeCasts_S64_S1x64 := by ref_host_read; rfl
theorem V_v6 (c : Dev nD) : (V m c main_v6 : S576x128.Idx → EReal)
    = shapeCast S576x128 (m ((c : Thread nD τ).loc main_arg5)) shapeCasts_S3x3x64x128_S576x128 := by ref_host_read; rfl
theorem V_v7 (c : Dev nD) : (V m c main_v7 : S1x128.Idx → EReal)
    = shapeCast S1x128 (m ((c : Thread nD τ).loc main_arg6)) shapeCasts_S128_S1x128 := by ref_host_read; rfl
theorem V_v9 (c : Dev nD) : (V m c main_v9 : S128x512.Idx → EReal)
    = Host.reduceAdd (F := Ideal) (shapeCast S128x9x512 (m ((c : Thread nD τ).loc main_arg7)) shapeCasts_S1152x512_S128x9x512)
        (constant (F := Ideal) S_ .f32 0x00000000#32) reducesTo_S128x9x512_S128x512_d1 h_S_ := by ref_host_read; rfl
theorem V_v10 (c : Dev nD) : (V m c main_v10 : S1x512.Idx → EReal)
    = shapeCast S1x512 (m ((c : Thread nD τ).loc main_arg8)) shapeCasts_S512_S1x512 := by ref_host_read; rfl
theorem V_v11 (c : Dev nD) : (V m c main_v11 : S1x10.Idx → EReal)
    = shapeCast S1x10 (m ((c : Thread nD τ).loc main_arg10)) shapeCasts_S10_S1x10 := by ref_host_read; rfl

/-- The image array, transposed within each image. -/
theorem V_v1_apply (c : Dev nD) (n : Fin 8192) (w h : Fin 28) :
    (V m c main_v1 : S8192x28x28.Idx → EReal) (ix3 n w h) = m ((c : Thread nD τ).loc main_arg0) (ix4 n (0 : Fin 1) h w) := by
  have e : (V m c main_v1 : S8192x28x28.Idx → EReal)
      = transpose S8192x28x28 [0, 2, 1]
          (shapeCast S8192x28x28 (m ((c : Thread nD τ).loc main_arg0)) shapeCasts_S8192x1x28x28_S8192x28x28)
          transposes_S8192x28x28_S8192x28x28_0_2_1 := by ref_host_read; rfl
  rw [e, transpose_ix3_021_apply]
  refine shapeCast_apply _ _ _ _ ?_
  show (S8192x1x28x28.rowMajor (ix4 n (0 : Fin 1) h w)).val = (S8192x28x28.rowMajor (ix3 n h w)).val
  rw [Shape.rowMajor_val_four, Shape.rowMajor_val_three]
  show ((n.val * 1 + 0) * 28 + h.val) * 28 + w.val = (n.val * 28 + h.val) * 28 + w.val
  omega

/-- The first layer's weights as a 9 x 32 matrix: row `3 di + dj` is tap `(di, dj)`. -/
theorem V_v2_apply (c : Dev nD) (di dj : Fin 3) (ch : Fin 32) :
    (V m c main_v2 : S9x32.Idx → EReal) (ix2 ⟨3 * di.val + dj.val, by have := di.isLt; have := dj.isLt; omega⟩ ch)
      = m ((c : Thread nD τ).loc main_arg1) (ix4 di dj (0 : Fin 1) ch) := by
  have e : (V m c main_v2 : S9x32.Idx → EReal)
      = shapeCast S9x32 (m ((c : Thread nD τ).loc main_arg1)) shapeCasts_S3x3x1x32_S9x32 := by ref_host_read; rfl
  rw [e]
  refine shapeCast_apply _ _ _ _ ?_
  show (S3x3x1x32.rowMajor (ix4 di dj (0 : Fin 1) ch)).val
    = (S9x32.rowMajor (ix2 ⟨3 * di.val + dj.val, by have := di.isLt; have := dj.isLt; omega⟩ ch)).val
  rw [Shape.rowMajor_val_four, Shape.rowMajor_val_two]
  show ((di.val * 3 + dj.val) * 1 + 0) * 32 + ch.val = (3 * di.val + dj.val) * 32 + ch.val
  omega

/-- The first layer's bias as a row. -/
theorem V_v3_apply (c : Dev nD) (ch : Fin 32) :
    (V m c main_v3 : S1x32.Idx → EReal) (ix2 (0 : Fin 1) ch) = m ((c : Thread nD τ).loc main_arg2) (ix1 ch) := by
  have e : (V m c main_v3 : S1x32.Idx → EReal)
      = shapeCast S1x32 (m ((c : Thread nD τ).loc main_arg2)) shapeCasts_S32_S1x32 := by ref_host_read; rfl
  rw [e]
  refine shapeCast_apply _ _ _ _ ?_
  show (S32.rowMajor (ix1 ch)).val = (S1x32.rowMajor (ix2 (0 : Fin 1) ch)).val
  rw [Shape.rowMajor_val_one, Shape.rowMajor_val_two]
  show ch.val = 0 * 32 + ch.val
  omega

/-- The 13 x 25 selector. -/
theorem V_v21_apply (c : Dev nD) (w : Fin 13) (t : Fin 25) :
    ((V m c main_v21 : S13x25.Idx → EReal) (ix2 w t) : EReal) = if t.val = 2 * w.val then (1 : EReal) else 0 := by
  have e : (V m c main_v21 : S13x25.Idx → EReal)
      = uitofp (F := Ideal) .f32 (cmpi .eq
          (broadcastInDim S13x25 ![0, 1] bcast_S1x25_S13x25_0_1 (broadcastInDim S1x25 ![1] bcast_S25_S1x25_1 (iotaInDim S25 32 0)))
          (broadcastInDim S13x25 ![0, 1] bcast_S13x1_S13x25_0_1
            (muli (broadcastInDim S13x1 ![] bcast_S_S13x1 (constantI S_ 32 2#32))
              (broadcastInDim S13x1 ![0] bcast_S13_S13x1_0 (iotaInDim S13 32 0))))) := by ref_host_read
  rw [e]
  exact evenSelector_apply (R := 13) (C := 25) (by norm_num) (by norm_num) bcast_S25_S1x25_1 bcast_S1x25_S13x25_0_1 bcast_S_S13x1
    bcast_S13_S13x1_0 bcast_S13x1_S13x25_0_1 w t

/-- The 5 x 10 selector. -/
theorem V_v31_apply (c : Dev nD) (w : Fin 5) (t : Fin 10) :
    ((V m c main_v31 : S5x10.Idx → EReal) (ix2 w t) : EReal) = if t.val = 2 * w.val then (1 : EReal) else 0 := by
  have e : (V m c main_v31 : S5x10.Idx → EReal)
      = uitofp (F := Ideal) .f32 (cmpi .eq
          (broadcastInDim S5x10 ![0, 1] bcast_S1x10_S5x10_0_1 (broadcastInDim S1x10 ![1] bcast_S10_S1x10_1 (iotaInDim S10 32 0)))
          (broadcastInDim S5x10 ![0, 1] bcast_S5x1_S5x10_0_1
            (muli (broadcastInDim S5x1 ![] bcast_S_S5x1 (constantI S_ 32 2#32))
              (broadcastInDim S5x1 ![0] bcast_S5_S5x1_0 (iotaInDim S5 32 0))))) := by ref_host_read
  rw [e]
  exact evenSelector_apply (R := 5) (C := 10) (by norm_num) (by norm_num) bcast_S10_S1x10_1 bcast_S1x10_S5x10_0_1 bcast_S_S5x1
    bcast_S5_S5x1_0 bcast_S5x1_S5x10_0_1 w t

end Cert.ReferenceIdeal.Hand

end
-- ==== Proof.KernelTail.lean ====
/-
  The block-of-64 program's body, split where the convolutions end: the 128 features of each of the 64 images
  (`features`), and from them the two dense layers and the log-softmax. At row `r` the tail reads the feature row `r`
  and nothing else, and is the tail function of the specification.
-/
import proofs.«139938_g2000005272685101_pallaspilot1_161_3_alg».proof.Proof.Gen.KernelIdeal.Skeleton
import proofs.«139938_g2000005272685101_pallaspilot1_161_3_alg».proof.Proof.Spec

set_option maxRecDepth 65536

open scoped BigOperators

noncomputable section

namespace Cert.KernelIdeal.Hand

open Cert.KernelIdeal Cert.KernelIdeal.Gen Idealize.ShloMosaic Idealize.ShloMosaic.ValueIdx Idealize.SL.Sem

variable {F : FTy → Type} [FloatOps F]

/-- The 128 features of each of the 64 images: the body from the second convolution's output to the last pool. -/
def features (v41 : FVec F S64x11x11x64 .f32) (v58 : Vec F S576x128 .f32) (v61 : Vec F S1x128 .f32) :
    FVec F S64x128 .f32 :=
  have v42 : FVec F S64x10x10x64 .f32 := extractStridedSlice S64x10x10x64 ![0, 0, 0, 0] v41 slices_S64x11x11x64_o0_0_0_0_S64x10x10x64
  have v43 : FVec F S64x5x2x10x64 .f32 := shapeCast S64x5x2x10x64 v42 shapeCasts_S64x10x10x64_S64x5x2x10x64
  have v44 : FVec F S64x5x10x64 .f32 := multiReduction .maximumf [2] S64x5x10x64 v43 0xFF800000#32 reduces_S64x5x2x10x64_S64x5x10x64 (.inl rfl) rfl
  have v45 : FVec F S64x5x5x2x64 .f32 := shapeCast S64x5x5x2x64 v44 shapeCasts_S64x5x10x64_S64x5x5x2x64
  have v46 : FVec F S64x5x5x64 .f32 := multiReduction .maximumf [3] S64x5x5x64 v45 0xFF800000#32 reduces_S64x5x5x2x64_S64x5x5x64 (.inl rfl) rfl
  have v47 : FVec F S64x3x3x64 .f32 := extractStridedSlice S64x3x3x64 ![0, 0, 0, 0] v46 slices_S64x5x5x64_o0_0_0_0_S64x3x3x64
  have v48 : FVec F S64x3x3x64 .f32 := extractStridedSlice S64x3x3x64 ![0, 0, 1, 0] v46 slices_S64x5x5x64_o0_0_1_0_S64x3x3x64
  have v49 : FVec F S64x3x3x64 .f32 := extractStridedSlice S64x3x3x64 ![0, 0, 2, 0] v46 slices_S64x5x5x64_o0_0_2_0_S64x3x3x64
  have v50 : FVec F S64x3x3x64 .f32 := extractStridedSlice S64x3x3x64 ![0, 1, 0, 0] v46 slices_S64x5x5x64_o0_1_0_0_S64x3x3x64
  have v51 : FVec F S64x3x3x64 .f32 := extractStridedSlice S64x3x3x64 ![0, 1, 1, 0] v46 slices_S64x5x5x64_o0_1_1_0_S64x3x3x64
  have v52 : FVec F S64x3x3x64 .f32 := extractStridedSlice S64x3x3x64 ![0, 1, 2, 0] v46 slices_S64x5x5x64_o0_1_2_0_S64x3x3x64
  have v53 : FVec F S64x3x3x64 .f32 := extractStridedSlice S64x3x3x64 ![0, 2, 0, 0] v46 slices_S64x5x5x64_o0_2_0_0_S64x3x3x64
  have v54 : FVec F S64x3x3x64 .f32 := extractStridedSlice S64x3x3x64 ![0, 2, 1, 0] v46 slices_S64x5x5x64_o0_2_1_0_S64x3x3x64
  have v55 : FVec F S64x3x3x64 .f32 := extractStridedSlice S64x3x3x64 ![0, 2, 2, 0] v46 slices_S64x5x5x64_o0_2_2_0_S64x3x3x64
  have v56 : FVec F S64x3x3x576 .f32 := concatenate S64x3x3x576 3 [⟨S64x3x3x64, v47⟩, ⟨S64x3x3x64, v48⟩, ⟨S64x3x3x64, v49⟩, ⟨S64x3x3x64, v50⟩, ⟨S64x3x3x64, v51⟩, ⟨S64x3x3x64, v52⟩, ⟨S64x3x3x64, v53⟩, ⟨S64x3x3x64, v54⟩, ⟨S64x3x3x64, v55⟩] concatenates_S64x3x3x64_S64x3x3x64_S64x3x3x64_S64x3x3x64_S64x3x3x64_S64x3x3x64_S64x3x3x64_S64x3x3x64_S64x3x3x64_S64x3x3x576_d3
  have v57 : FVec F S576x576 .f32 := shapeCast S576x576 v56 shapeCasts_S64x3x3x576_S576x576
  have v59 : FVec F S576x128 .f32 := shapeCast S576x128 v58 shapeCasts_S576x128_S576x128
  have cst_19 : FVec F S576x128 .f32 := constant S576x128 .f32 0x00000000#32
  have v60 : FVec F S576x128 .f32 := matmul dot_S576x576_S576x128_S576x128_1_0_0_1_n_n none v57 v59 cst_19
  have v62 : FVec F S1x128 .f32 := shapeCast S1x128 v61 shapeCasts_S1x128_S1x128
  have v63 : FVec F S576x128 .f32 := broadcastTo S576x128 v62 broadcasts_S1x128_S576x128
  have v64 : FVec F S576x128 .f32 := addf v60 v63
  have cst_22 : F .f32 := Scalar.ofBits .f32 0x00000000#32
  have v65 : FVec F S576x128 .f32 := broadcast S576x128 cst_22
  have v66 : FVec F S576x128 .f32 := maximumf v64 v65
  have v67 : FVec F S64x3x3x128 .f32 := shapeCast S64x3x3x128 v66 shapeCasts_S576x128_S64x3x3x128
  have v68 : FVec F S64x2x2x128 .f32 := extractStridedSlice S64x2x2x128 ![0, 0, 0, 0] v67 slices_S64x3x3x128_o0_0_0_0_S64x2x2x128
  have v69 : FVec F S64x4x128 .f32 := shapeCast S64x4x128 v68 shapeCasts_S64x2x2x128_S64x4x128
  have v70 : FVec F S64x128 .f32 := multiReduction .maximumf [1] S64x128 v69 0xFF800000#32 reduces_S64x4x128_S64x128 (.inl rfl) rfl
  v70

/-- The first dense layer with its positive part, over the 64 feature rows. -/
def hidden (v70 : FVec F S64x128 .f32) (v71 : Vec F S128x512 .f32) (v74 : Vec F S1x512 .f32) : FVec F S64x512 .f32 :=
  have v72 : FVec F S128x512 .f32 := shapeCast S128x512 v71 shapeCasts_S128x512_S128x512
  have cst_26 : FVec F S64x512 .f32 := constant S64x512 .f32 0x00000000#32
  have v73 : FVec F S64x512 .f32 := matmul dot_S64x128_S128x512_S64x512_1_0_0_1_n_n none v70 v72 cst_26
  have v75 : FVec F S1x512 .f32 := shapeCast S1x512 v74 shapeCasts_S1x512_S1x512
  have v76 : FVec F S64x512 .f32 := broadcastTo S64x512 v75 broadcasts_S1x512_S64x512
  have v77 : FVec F S64x512 .f32 := addf v73 v76
  have cst_29 : F .f32 := Scalar.ofBits .f32 0x00000000#32
  have v78 : FVec F S64x512 .f32 := broadcast S64x512 cst_29
  have v79 : FVec F S64x512 .f32 := maximumf v77 v78
  v79

/-- The second dense layer's product over the 64 hidden rows. -/
def dense (v70 : FVec F S64x128 .f32) (v71 : Vec F S128x512 .f32) (v74 : Vec F S1x512 .f32) (v80 : Vec F S512x10 .f32) :
    FVec F S64x10 .f32 :=
  have v79 : FVec F S64x512 .f32 := hidden v70 v71 v74
  have cst_32 : FVec F S64x10 .f32 := constant S64x10 .f32 0x00000000#32
  have v81 : FVec F S64x10 .f32 := matmul dot_S64x512_S512x10_S64x10_1_0_0_1_n_n none v79 v80 cst_32
  v81

/-- The printed payload is the dense layers of the features. -/
theorem pay3_eq (v41 : FVec F S64x11x11x64 .f32) (v58 : Vec F S576x128 .f32) (v61 : Vec F S1x128 .f32)
    (v71 : Vec F S128x512 .f32) (v74 : Vec F S1x512 .f32) (v80 : Vec F S512x10 .f32) :
    k0_pay3 v41 v58 v61 v71 v74 v80 = dense (features v41 v58 v61) v71 v74 v80 := rfl

/-- The hidden layer at `(r, k)` is the specification's hidden row of feature row `r`. -/
theorem hidden_apply (v70 : FVec Ideal S64x128 .f32) (v71 : Vec Ideal S128x512 .f32) (v74 : Vec Ideal S1x512 .f32)
    (r : Fin 64) (k : Fin 512) :
    hidden (F := Ideal) v70 v71 v74 (ix2 r k) = Cert.Net.hiddenRow (fun c => v70 (ix2 r c)) v71 v74 k := by
  refine (biased_matmul_max_apply (m := 64) (k := 128) (n := 512) (φ₁ := .f32) (φ₂ := .f32)
    dot_S64x128_S128x512_S64x512_1_0_0_1_n_n_wf dot_S64x128_S128x512_S64x512_1_0_0_1_n_n rfl none v70
    (shapeCast S128x512 v71 shapeCasts_S128x512_S128x512) (shapeCast S1x512 v74 shapeCasts_S1x512_S1x512)
    broadcasts_S1x512_S64x512 (Scalar.ofBits .f32 0x00000000#32) r k).trans ?_
  rw [shapeCast_self, shapeCast_self]
  rfl

/-- The second dense layer's product at `(r, j)`: the hidden row of feature row `r` against column `j`. -/
theorem dense_apply (v70 : FVec Ideal S64x128 .f32) (v71 : Vec Ideal S128x512 .f32) (v74 : Vec Ideal S1x512 .f32)
    (v80 : Vec Ideal S512x10 .f32) (r : Fin 64) (j : Fin 10) :
    dense (F := Ideal) v70 v71 v74 v80 (ix2 r j)
      = ∑ k : Fin 512, Cert.Net.hiddenRow (fun c => v70 (ix2 r c)) v71 v74 k * v80 (ix2 k j) := by
  refine (matmul_named_zero_apply (m := 64) (k := 512) (n := 10) (φ₁ := .f32) (φ₂ := .f32)
    dot_S64x512_S512x10_S64x10_1_0_0_1_n_n_wf dot_S64x512_S512x10_S64x10_1_0_0_1_n_n rfl none
    (hidden (F := Ideal) v70 v71 v74) v80 r j).trans ?_
  exact Finset.sum_congr rfl fun k _ => congrArg (· * v80 (ix2 k j)) (hidden_apply v70 v71 v74 r k)

/-- The stored block at `(r, j)`: the tail of feature row `r`. -/
theorem pay1_dense_apply (v70 : FVec Ideal S64x128 .f32) (v71 : Vec Ideal S128x512 .f32) (v74 : Vec Ideal S1x512 .f32)
    (v80 : Vec Ideal S512x10 .f32) (v82 : Vec Ideal S1x10 .f32) (r : Fin 64) (j : Fin 10) :
    k0_pay1 (F := Ideal) (dense v70 v71 v74 v80) v82 (ix2 r j)
      = Cert.Net.tailRow (fun c => v70 (ix2 r c)) v71 v74 v80 v82 j := by
  have hz : ∀ c : Fin 10,
      addf (dense (F := Ideal) v70 v71 v74 v80)
          (broadcastTo S64x10 (shapeCast S1x10 v82 shapeCasts_S1x10_S1x10) broadcasts_S1x10_S64x10) (ix2 r c)
        = Cert.Net.logitRow (fun c => v70 (ix2 r c)) v71 v74 v80 v82 c := by
    intro c
    rw [addf_apply, dense_apply, shapeCast_self]
    exact congrArg (_ + ·) (broadcastTo_1b_ab_apply (a := 64) (b := 10) v82 broadcasts_S1x10_S64x10 r c)
  refine (logSoftmax_rows_apply (B := 64) (N := 10) (φ := .f32)
    (addf (dense (F := Ideal) v70 v71 v74 v80)
      (broadcastTo S64x10 (shapeCast S1x10 v82 shapeCasts_S1x10_S1x10) broadcasts_S1x10_S64x10))
    0xFF800000#32 0x00000000#32 reduces_S64x10_S64 (.inl rfl) (.inl rfl) rfl rfl shapeCasts_S64_S64x1
    broadcasts_S64x1_S64x10 r j).trans ?_
  unfold Cert.Net.tailRow Cert.Net.logSoftmax10 rowMax
  simp only [hz]

end Cert.KernelIdeal.Hand

end
-- ==== Proof.LibPoolPairs.lean ====
/-
  Pooling along one axis by a shape cast and a maximum, at the exact extended reals.

  An axis of extent `b * p` of a rank-4 array is split into `b` groups of `p` consecutive positions by a shape cast
  to rank 5 (row-major order keeps position `j * p + r` of the long axis at group `j`, place `r`), and a maximum
  over the place axis leaves, at group `j`, the fold of `max` over the group's `p` entries. Stated for the second and
  for the third axis of an `[a, ·, ·, d]` array (rows and columns of a batch of images with channels last), and for a
  rank-3 array reduced over its middle axis.
-/
import Idealize.ShloMosaic.PureOps.Ideal.Laws
import Idealize.ShloMosaic.Lib.ValueIdx
import Idealize.ShloMosaic.Lib.Pipeline.Value

open scoped BigOperators

namespace Idealize.ShloMosaic.ValueIdx

open Idealize.ShloMosaic

variable {α : Type}

/-- Position `j * p + r` of an axis of extent `b * p`: place `r` of group `j`. -/
def groupPos {b p : ℕ} (j : Fin b) (r : Fin p) : Fin (b * p) :=
  ⟨j.val * p + r.val, Nat.lt_of_lt_of_le (Nat.add_lt_add_left r.isLt _)
    (by rw [← Nat.succ_mul]; exact Nat.mul_le_mul_right _ j.isLt)⟩

@[simp] theorem groupPos_val {b p : ℕ} (j : Fin b) (r : Fin p) : (groupPos j r).val = j.val * p + r.val := rfl

/-- The second axis split into groups: entry `(i, j, r, k, l)` of the cast is entry `(i, j * p + r, k, l)`. -/
theorem shapeCast_group1_apply {a b p c d : ℕ} (x : (⟨4, ![a, b * p, c, d]⟩ : Shape).Idx → α)
    (h : (⟨4, ![a, b * p, c, d]⟩ : Shape).ShapeCasts ⟨5, ![a, b, p, c, d]⟩)
    (i : Fin a) (j : Fin b) (r : Fin p) (k : Fin c) (l : Fin d) :
    shapeCast ⟨5, ![a, b, p, c, d]⟩ x h (ix5 i j r k l) = x (ix4 i (groupPos j r) k l) :=
  shapeCast_apply x h _ _ (by
    rw [Shape.rowMajor_val_four, Shape.rowMajor_val_five]
    show ((i.val * (b * p) + (j.val * p + r.val)) * c + k.val) * d + l.val
      = (((i.val * b + j.val) * p + r.val) * c + k.val) * d + l.val
    ring)

/-- The third axis split into groups: entry `(i, j, k, s, l)` of the cast is entry `(i, j, k * p + s, l)`. -/
theorem shapeCast_group2_apply {a b c p d : ℕ} (x : (⟨4, ![a, b, c * p, d]⟩ : Shape).Idx → α)
    (h : (⟨4, ![a, b, c * p, d]⟩ : Shape).ShapeCasts ⟨5, ![a, b, c, p, d]⟩)
    (i : Fin a) (j : Fin b) (k : Fin c) (s : Fin p) (l : Fin d) :
    shapeCast ⟨5, ![a, b, c, p, d]⟩ x h (ix5 i j k s l) = x (ix4 i j (groupPos k s) l) :=
  shapeCast_apply x h _ _ (by
    rw [Shape.rowMajor_val_four, Shape.rowMajor_val_five]
    show ((i.val * b + j.val) * (c * p) + (k.val * p + s.val)) * d + l.val
      = (((i.val * b + j.val) * c + k.val) * p + s.val) * d + l.val
    ring)

/-- Inserting `r` on axis 2 over `(i, j, k, l)` gives `(i, j, r, k, l)`. -/
theorem reduces_axis2_lift {a b p c d : ℕ} (h : (⟨5, ![a, b, p, c, d]⟩ : Shape).Reduces [2] ⟨4, ![a, b, c, d]⟩)
    (i : Fin a) (j : Fin b) (k : Fin c) (l : Fin d) (r : Fin p) : h.lift (ix4 i j k l) r = ix5 i j r k l := by
  funext ax; apply Fin.ext
  show h.liftVal (ix4 i j k l) r.val ax = (ix5 i j r k l ax).val
  unfold Shape.Reduces.liftVal
  match ax with
  | ⟨0, _⟩ => rfl
  | ⟨1, _⟩ => rfl
  | ⟨2, _⟩ => rfl
  | ⟨3, _⟩ => rfl
  | ⟨4, _⟩ => rfl

/-- Inserting `s` on axis 3 over `(i, j, k, l)` gives `(i, j, k, s, l)`. -/
theorem reduces_axis3_lift {a b c p d : ℕ} (h : (⟨5, ![a, b, c, p, d]⟩ : Shape).Reduces [3] ⟨4, ![a, b, c, d]⟩)
    (i : Fin a) (j : Fin b) (k : Fin c) (l : Fin d) (s : Fin p) : h.lift (ix4 i j k l) s = ix5 i j k s l := by
  funext ax; apply Fin.ext
  show h.liftVal (ix4 i j k l) s.val ax = (ix5 i j k s l ax).val
  unfold Shape.Reduces.liftVal
  match ax with
  | ⟨0, _⟩ => rfl
  | ⟨1, _⟩ => rfl
  | ⟨2, _⟩ => rfl
  | ⟨3, _⟩ => rfl
  | ⟨4, _⟩ => rfl

/-- Inserting `q` on axis 1 over `(i, l)` gives `(i, q, l)`. -/
theorem reduces_mid3_lift {a p d : ℕ} (h : (⟨3, ![a, p, d]⟩ : Shape).Reduces [1] ⟨2, ![a, d]⟩)
    (i : Fin a) (l : Fin d) (q : Fin p) : h.lift (ix2 i l) q = ix3 i q l := by
  funext ax; apply Fin.ext
  show h.liftVal (ix2 i l) q.val ax = (ix3 i q l ax).val
  unfold Shape.Reduces.liftVal
  match ax with
  | ⟨0, _⟩ => rfl
  | ⟨1, _⟩ => rfl
  | ⟨2, _⟩ => rfl

/-- A maximum over the place axis 2 of a rank-5 array, at `(i, j, k, l)`: the fold of `max` over the places. -/
theorem multiReduction_maximumf_axis2_apply {a b p c d : ℕ} {φ : FTy} (src : FVec Ideal ⟨5, ![a, b, p, c, d]⟩ φ)
    (acc : BitVec φ.bits) (h : (⟨5, ![a, b, p, c, d]⟩ : Shape).Reduces [2] ⟨4, ![a, b, c, d]⟩) (hφ : FKind.Formats φ)
    (hacc : acc = FKind.maximumf.neutral φ hφ) (i : Fin a) (j : Fin b) (k : Fin c) (l : Fin d) :
    multiReduction .maximumf [2] ⟨4, ![a, b, c, d]⟩ src acc h hφ hacc (ix4 i j k l)
      = (Finset.univ : Finset (Fin p)).fold max (FloatOps.ofBits (F := Ideal) φ acc) (fun r => src (ix5 i j r k l)) := by
  refine (Ideal.multiReduction_maximumf_single src acc h hφ hacc (ix4 i j k l)).trans ?_
  exact congrArg (fun f => (Finset.univ : Finset (Fin p)).fold max (FloatOps.ofBits (F := Ideal) φ acc) f)
    (funext fun r => congrArg src (reduces_axis2_lift h i j k l r))

/-- A maximum over the place axis 3 of a rank-5 array, at `(i, j, k, l)`: the fold of `max` over the places. -/
theorem multiReduction_maximumf_axis3_apply {a b c p d : ℕ} {φ : FTy} (src : FVec Ideal ⟨5, ![a, b, c, p, d]⟩ φ)
    (acc : BitVec φ.bits) (h : (⟨5, ![a, b, c, p, d]⟩ : Shape).Reduces [3] ⟨4, ![a, b, c, d]⟩) (hφ : FKind.Formats φ)
    (hacc : acc = FKind.maximumf.neutral φ hφ) (i : Fin a) (j : Fin b) (k : Fin c) (l : Fin d) :
    multiReduction .maximumf [3] ⟨4, ![a, b, c, d]⟩ src acc h hφ hacc (ix4 i j k l)
      = (Finset.univ : Finset (Fin p)).fold max (FloatOps.ofBits (F := Ideal) φ acc) (fun s => src (ix5 i j k s l)) := by
  refine (Ideal.multiReduction_maximumf_single src acc h hφ hacc (ix4 i j k l)).trans ?_
  exact congrArg (fun f => (Finset.univ : Finset (Fin p)).fold max (FloatOps.ofBits (F := Ideal) φ acc) f)
    (funext fun s => congrArg src (reduces_axis3_lift h i j k l s))

/-- A maximum over the middle axis of a rank-3 array, at `(i, l)`: the fold of `max` over that axis. -/
theorem multiReduction_maximumf_mid3_apply {a p d : ℕ} {φ : FTy} (src : FVec Ideal ⟨3, ![a, p, d]⟩ φ)
    (acc : BitVec φ.bits) (h : (⟨3, ![a, p, d]⟩ : Shape).Reduces [1] ⟨2, ![a, d]⟩) (hφ : FKind.Formats φ)
    (hacc : acc = FKind.maximumf.neutral φ hφ) (i : Fin a) (l : Fin d) :
    multiReduction .maximumf [1] ⟨2, ![a, d]⟩ src acc h hφ hacc (ix2 i l)
      = (Finset.univ : Finset (Fin p)).fold max (FloatOps.ofBits (F := Ideal) φ acc) (fun q => src (ix3 i q l)) := by
  refine (Ideal.multiReduction_maximumf_single src acc h hφ hacc (ix2 i l)).trans ?_
  exact congrArg (fun f => (Finset.univ : Finset (Fin p)).fold max (FloatOps.ofBits (F := Ideal) φ acc) f)
    (funext fun q => congrArg src (reduces_mid3_lift h i l q))

/-- A pool along the second axis: groups of `p` rows, the maximum of each group. -/
theorem pool_axis1_apply {a b p c d : ℕ} {φ : FTy} (x : FVec Ideal ⟨4, ![a, b * p, c, d]⟩ φ)
    (hc : (⟨4, ![a, b * p, c, d]⟩ : Shape).ShapeCasts ⟨5, ![a, b, p, c, d]⟩) (acc : BitVec φ.bits)
    (h : (⟨5, ![a, b, p, c, d]⟩ : Shape).Reduces [2] ⟨4, ![a, b, c, d]⟩) (hφ : FKind.Formats φ)
    (hacc : acc = FKind.maximumf.neutral φ hφ) (i : Fin a) (j : Fin b) (k : Fin c) (l : Fin d) :
    multiReduction .maximumf [2] ⟨4, ![a, b, c, d]⟩ (shapeCast ⟨5, ![a, b, p, c, d]⟩ x hc) acc h hφ hacc (ix4 i j k l)
      = (Finset.univ : Finset (Fin p)).fold max (FloatOps.ofBits (F := Ideal) φ acc)
          (fun r => x (ix4 i (groupPos j r) k l)) := by
  rw [multiReduction_maximumf_axis2_apply]
  exact congrArg (fun f => (Finset.univ : Finset (Fin p)).fold max (FloatOps.ofBits (F := Ideal) φ acc) f)
    (funext fun r => shapeCast_group1_apply x hc i j r k l)

/-- A pool along the third axis: groups of `p` columns, the maximum of each group. -/
theorem pool_axis2_apply {a b c p d : ℕ} {φ : FTy} (x : FVec Ideal ⟨4, ![a, b, c * p, d]⟩ φ)
    (hc : (⟨4, ![a, b, c * p, d]⟩ : Shape).ShapeCasts ⟨5, ![a, b, c, p, d]⟩) (acc : BitVec φ.bits)
    (h : (⟨5, ![a, b, c, p, d]⟩ : Shape).Reduces [3] ⟨4, ![a, b, c, d]⟩) (hφ : FKind.Formats φ)
    (hacc : acc = FKind.maximumf.neutral φ hφ) (i : Fin a) (j : Fin b) (k : Fin c) (l : Fin d) :
    multiReduction .maximumf [3] ⟨4, ![a, b, c, d]⟩ (shapeCast ⟨5, ![a, b, c, p, d]⟩ x hc) acc h hφ hacc (ix4 i j k l)
      = (Finset.univ : Finset (Fin p)).fold max (FloatOps.ofBits (F := Ideal) φ acc)
          (fun s => x (ix4 i j (groupPos k s) l)) := by
  rw [multiReduction_maximumf_axis3_apply]
  exact congrArg (fun f => (Finset.univ : Finset (Fin p)).fold max (FloatOps.ofBits (F := Ideal) φ acc) f)
    (funext fun s => shapeCast_group2_apply x hc i j k s l)

end Idealize.ShloMosaic.ValueIdx
-- ==== Proof.SpecLayers.lean ====
/-
  The network's layers on ONE image, as functions of (row, column, channel) over the extended reals.

  A 3x3 convolution is written over the columns of its patch matrix: column `q` of `9 * C` names the tap `q / C` (row shift
  `q / C / 3`, column shift `q / C % 3`) and the channel `q % C`; the layer is the sum over `q` of the shifted entry times
  the weight matrix's entry, plus the bias, then the maximum with the zero word. A 2x2 pool is the maximum over the two
  rows and two columns of each group, folded from the word of `-inf`. The first layer is written the way the block
  program computes it: three rows of the image side by side (84 entries) against an `84 x 832` matrix whose columns
  are (column, channel) pairs.
-/
import proofs.«139938_g2000005272685101_pallaspilot1_161_3_alg».proof.Proof.Spec
import proofs.«139938_g2000005272685101_pallaspilot1_161_3_alg».proof.Proof.LibPoolPairs

open scoped BigOperators

noncomputable section

namespace Cert.Net

open Idealize.ShloMosaic Idealize.ShloMosaic.ValueIdx

/-- An image: row, column, channel. -/
abbrev Img (H W C : ℕ) := Fin H → Fin W → Fin C → EReal

/-- The tap a patch column names. -/
def tap {C : ℕ} (q : Fin (9 * C)) : Fin 9 := ⟨q.val / C, Nat.div_lt_of_lt_mul (by have := q.isLt; omega)⟩

/-- The channel a patch column names. -/
def chan {C : ℕ} (q : Fin (9 * C)) : Fin C :=
  ⟨q.val % C, Nat.mod_lt _ (Nat.pos_of_ne_zero fun h => by have := q.isLt; subst h; omega)⟩

/-- Row `i` shifted down by tap `n`'s row offset. -/
def shiftRow {H : ℕ} (i : Fin H) (n : Fin 9) : Fin (H + 2) := ⟨i.val + n.val / 3, by have := i.isLt; have := n.isLt; omega⟩

/-- Column `j` shifted right by tap `n`'s column offset. -/
def shiftCol {W : ℕ} (j : Fin W) (n : Fin 9) : Fin (W + 2) := ⟨j.val + n.val % 3, by have := j.isLt; omega⟩

/-- A 3x3 convolution without padding, bias added, positive part taken. -/
def conv3x3 {H W C O : ℕ} (src : Img (H + 2) (W + 2) C) (Wt : FVec Ideal ⟨2, ![9 * C, O]⟩ .f32)
    (Bs : FVec Ideal ⟨2, ![1, O]⟩ .f32) : Img H W O := fun i j o =>
  max ((∑ q : Fin (9 * C), src (shiftRow i (tap q)) (shiftCol j (tap q)) (chan q) * Wt (ix2 q o)) + Bs (ix2 (0 : Fin 1) o)) zeroW

/-- A 2x2 pool: the maximum over each group's two rows and two columns. -/
def pool2x2 {H W C : ℕ} (y : Img (H * 2) (W * 2) C) : Img H W C := fun i j c =>
  (Finset.univ : Finset (Fin 2)).fold max botW fun s =>
    (Finset.univ : Finset (Fin 2)).fold max botW fun r => y (groupPos i r) (groupPos j s) c

/-- The top-left corner of an image. -/
def crop {H W H' W' C : ℕ} (hH : H' ≤ H) (hW : W' ≤ W) (y : Img H W C) : Img H' W' C := fun i j c =>
  y (i.castLE hH) (j.castLE hW) c

/-- The first layer in banded-matrix form: rows `h, h+1, h+2` of the image side by side against the `84 x 832` matrix. -/
def conv1T (x : Fin 28 → Fin 28 → EReal) (Wt : FVec Ideal ⟨2, ![84, 832]⟩ .f32) (Bs : FVec Ideal ⟨2, ![1, 832]⟩ .f32) :
    Img 26 26 32 := fun h m c =>
  max ((∑ k : Fin 84, x ⟨h.val + k.val / 28, by have := h.isLt; have := k.isLt; omega⟩ ⟨k.val % 28, by omega⟩
        * Wt (ix2 k (groupPos m c))) + Bs (ix2 (0 : Fin 1) (groupPos m c))) zeroW

/-- The last pool: the maximum over the top-left 2x2 corner of a 3x3 map. -/
def pool3 (y : Img 3 3 128) : Fin 128 → EReal := fun c =>
  (Finset.univ : Finset (Fin 4)).fold max botW fun q => y ⟨q.val / 2, by have := q.isLt; omega⟩ ⟨q.val % 2, by omega⟩ c

/-- The 128 features of one image, from the second convolution's output on. -/
def featFrom2 (y2 : Img 11 11 64) (W3 : FVec Ideal ⟨2, ![576, 128]⟩ .f32) (B3 : FVec Ideal ⟨2, ![1, 128]⟩ .f32) : Fin 128 → EReal :=
  pool3 (conv3x3 (H := 3) (W := 3) (C := 64) (pool2x2 (H := 5) (W := 5) (crop (by decide) (by decide) y2)) W3 B3)

/-- The second convolution's output of one image, in the block program's form of the first layer. -/
def conv2OfImage (x : Fin 28 → Fin 28 → EReal) (W1t : FVec Ideal ⟨2, ![84, 832]⟩ .f32) (B1t : FVec Ideal ⟨2, ![1, 832]⟩ .f32)
    (W2 : FVec Ideal ⟨2, ![288, 64]⟩ .f32) (B2 : FVec Ideal ⟨2, ![1, 64]⟩ .f32) : Img 11 11 64 :=
  conv3x3 (H := 11) (W := 11) (C := 32) (pool2x2 (H := 13) (W := 13) (conv1T x W1t B1t)) W2 B2

end Cert.Net

end
-- ==== Proof.LibImageCasts.lean ====
/-
  Shape casts between a batch of images with channels last and the matrices a matrix product takes, read at an
  index given by coordinates. Row-major order is what each rests on: a leading run of axes flattened into one row axis
  keeps `(i, j, k)` at row `(i * b + j) * c + k`, and a row of `c * d` entries unflattened keeps `(k, l)` at `k * d + l`.
-/
import proofs.«139938_g2000005272685101_pallaspilot1_161_3_alg».proof.Proof.LibPoolPairs

namespace Idealize.ShloMosaic.ValueIdx

open Idealize.ShloMosaic

variable {α : Type}

/-- `[a, b, c]` flattened to `[a * b, c]`: row `i * b + j` is `(i, j)`. -/
theorem shapeCast_flat2_apply {a b c : ℕ} (x : (⟨3, ![a, b, c]⟩ : Shape).Idx → α)
    (h : (⟨3, ![a, b, c]⟩ : Shape).ShapeCasts ⟨2, ![a * b, c]⟩) (i : Fin a) (j : Fin b) (l : Fin c) :
    shapeCast ⟨2, ![a * b, c]⟩ x h (ix2 (groupPos i j) l) = x (ix3 i j l) :=
  shapeCast_apply x h _ _ (by
    rw [Shape.rowMajor_val_three, Shape.rowMajor_val_two]
    show (i.val * b + j.val) * c + l.val = (i.val * b + j.val) * c + l.val
    rfl)

/-- `[a, b, c, d]` flattened to `[a * b * c, d]`: row `(i * b + j) * c + k` is `(i, j, k)`. -/
theorem shapeCast_flat3_apply {a b c d : ℕ} (x : (⟨4, ![a, b, c, d]⟩ : Shape).Idx → α)
    (h : (⟨4, ![a, b, c, d]⟩ : Shape).ShapeCasts ⟨2, ![a * b * c, d]⟩) (i : Fin a) (j : Fin b) (k : Fin c) (l : Fin d) :
    shapeCast ⟨2, ![a * b * c, d]⟩ x h (ix2 (groupPos (groupPos i j) k) l) = x (ix4 i j k l) :=
  shapeCast_apply x h _ _ (by
    rw [Shape.rowMajor_val_four, Shape.rowMajor_val_two]
    show ((i.val * b + j.val) * c + k.val) * d + l.val = ((i.val * b + j.val) * c + k.val) * d + l.val
    rfl)

/-- `[a * b * c, d]` unflattened to `[a, b, c, d]`: `(i, j, k)` is row `(i * b + j) * c + k`. -/
theorem shapeCast_unflat3_apply {a b c d : ℕ} (x : (⟨2, ![a * b * c, d]⟩ : Shape).Idx → α)
    (h : (⟨2, ![a * b * c, d]⟩ : Shape).ShapeCasts ⟨4, ![a, b, c, d]⟩) (i : Fin a) (j : Fin b) (k : Fin c) (l : Fin d) :
    shapeCast ⟨4, ![a, b, c, d]⟩ x h (ix4 i j k l) = x (ix2 (groupPos (groupPos i j) k) l) :=
  shapeCast_apply x h _ _ (by
    rw [Shape.rowMajor_val_four, Shape.rowMajor_val_two]
    show ((i.val * b + j.val) * c + k.val) * d + l.val = ((i.val * b + j.val) * c + k.val) * d + l.val
    rfl)

/-- `[a * b, c * d]` unflattened to `[a, b, c, d]`: `(i, j, k, l)` is row `i * b + j`, column `k * d + l`. -/
theorem shapeCast_unflat22_apply {a b c d : ℕ} (x : (⟨2, ![a * b, c * d]⟩ : Shape).Idx → α)
    (h : (⟨2, ![a * b, c * d]⟩ : Shape).ShapeCasts ⟨4, ![a, b, c, d]⟩) (i : Fin a) (j : Fin b) (k : Fin c) (l : Fin d) :
    shapeCast ⟨4, ![a, b, c, d]⟩ x h (ix4 i j k l) = x (ix2 (groupPos i j) (groupPos k l)) :=
  shapeCast_apply x h _ _ (by
    rw [Shape.rowMajor_val_four, Shape.rowMajor_val_two]
    show (i.val * b + j.val) * (c * d) + (k.val * d + l.val) = ((i.val * b + j.val) * c + k.val) * d + l.val
    ring)

/-- `[a, b, c, d]` with its two middle axes joined, `[a, b * c, d]`: `(i, j * c + k, l)` is `(i, j, k, l)`. -/
theorem shapeCast_join_mid_apply {a b c d : ℕ} (x : (⟨4, ![a, b, c, d]⟩ : Shape).Idx → α)
    (h : (⟨4, ![a, b, c, d]⟩ : Shape).ShapeCasts ⟨3, ![a, b * c, d]⟩) (i : Fin a) (j : Fin b) (k : Fin c) (l : Fin d) :
    shapeCast ⟨3, ![a, b * c, d]⟩ x h (ix3 i (groupPos j k) l) = x (ix4 i j k l) :=
  shapeCast_apply x h _ _ (by
    rw [Shape.rowMajor_val_four, Shape.rowMajor_val_three]
    show ((i.val * b + j.val) * c + k.val) * d + l.val = (i.val * (b * c) + (j.val * c + k.val)) * d + l.val
    ring)

end Idealize.ShloMosaic.ValueIdx
-- ==== Proof.KernelFeatures.lean ====
/-
  The block-of-64 program's features, stage by stage, each read at an index as the specification's layer of ONE image:
  the second pool (crop to 10x10, pool to 5x5), the patch matrix of the third convolution, the third convolution with its
  bias and positive part, and the last pool over the top-left 2x2 corner. Image `b` of the block is read from image `b`
  of the stage before and from nothing else.
-/
import proofs.«139938_g2000005272685101_pallaspilot1_161_3_alg».proof.Proof.KernelTail
import proofs.«139938_g2000005272685101_pallaspilot1_161_3_alg».proof.Proof.SpecLayers
import proofs.«139938_g2000005272685101_pallaspilot1_161_3_alg».proof.Proof.LibImageCasts
import proofs.«139938_g2000005272685101_pallaspilot1_161_3_alg».proof.Proof.LibIm2col

set_option maxRecDepth 65536

open scoped BigOperators

noncomputable section

namespace Cert.KernelIdeal.Hand

open Cert.KernelIdeal Cert.KernelIdeal.Gen Idealize.ShloMosaic Idealize.ShloMosaic.ValueIdx Idealize.SL.Sem

variable {F : FTy → Type} [FloatOps F]

/-- The second convolution's output cropped to 10x10 and pooled over pairs of rows. -/
def rowPooled2 (v41 : FVec F S64x11x11x64 .f32) : FVec F S64x5x10x64 .f32 :=
  have v42 : FVec F S64x10x10x64 .f32 := extractStridedSlice S64x10x10x64 ![0, 0, 0, 0] v41 slices_S64x11x11x64_o0_0_0_0_S64x10x10x64
  have v43 : FVec F S64x5x2x10x64 .f32 := shapeCast S64x5x2x10x64 v42 shapeCasts_S64x10x10x64_S64x5x2x10x64
  have v44 : FVec F S64x5x10x64 .f32 := multiReduction .maximumf [2] S64x5x10x64 v43 0xFF800000#32 reduces_S64x5x2x10x64_S64x5x10x64 (.inl rfl) rfl
  v44

/-- … and over pairs of columns: the second pool. -/
def pooled2 (v41 : FVec F S64x11x11x64 .f32) : FVec F S64x5x5x64 .f32 :=
  have v44 : FVec F S64x5x10x64 .f32 := rowPooled2 v41
  have v45 : FVec F S64x5x5x2x64 .f32 := shapeCast S64x5x5x2x64 v44 shapeCasts_S64x5x10x64_S64x5x5x2x64
  have v46 : FVec F S64x5x5x64 .f32 := multiReduction .maximumf [3] S64x5x5x64 v45 0xFF800000#32 reduces_S64x5x5x2x64_S64x5x5x64 (.inl rfl) rfl
  v46

/-- The third convolution's patches: nine shifted 3x3 windows of the pooled map, side by side. -/
def patches3 (v46 : FVec F S64x5x5x64 .f32) : FVec F S64x3x3x576 .f32 :=
  have v47 : FVec F S64x3x3x64 .f32 := extractStridedSlice S64x3x3x64 ![0, 0, 0, 0] v46 slices_S64x5x5x64_o0_0_0_0_S64x3x3x64
  have v48 : FVec F S64x3x3x64 .f32 := extractStridedSlice S64x3x3x64 ![0, 0, 1, 0] v46 slices_S64x5x5x64_o0_0_1_0_S64x3x3x64
  have v49 : FVec F S64x3x3x64 .f32 := extractStridedSlice S64x3x3x64 ![0, 0, 2, 0] v46 slices_S64x5x5x64_o0_0_2_0_S64x3x3x64
  have v50 : FVec F S64x3x3x64 .f32 := extractStridedSlice S64x3x3x64 ![0, 1, 0, 0] v46 slices_S64x5x5x64_o0_1_0_0_S64x3x3x64
  have v51 : FVec F S64x3x3x64 .f32 := extractStridedSlice S64x3x3x64 ![0, 1, 1, 0] v46 slices_S64x5x5x64_o0_1_1_0_S64x3x3x64
  have v52 : FVec F S64x3x3x64 .f32 := extractStridedSlice S64x3x3x64 ![0, 1, 2, 0] v46 slices_S64x5x5x64_o0_1_2_0_S64x3x3x64
  have v53 : FVec F S64x3x3x64 .f32 := extractStridedSlice S64x3x3x64 ![0, 2, 0, 0] v46 slices_S64x5x5x64_o0_2_0_0_S64x3x3x64
  have v54 : FVec F S64x3x3x64 .f32 := extractStridedSlice S64x3x3x64 ![0, 2, 1, 0] v46 slices_S64x5x5x64_o0_2_1_0_S64x3x3x64
  have v55 : FVec F S64x3x3x64 .f32 := extractStridedSlice S64x3x3x64 ![0, 2, 2, 0] v46 slices_S64x5x5x64_o0_2_2_0_S64x3x3x64
  have v56 : FVec F S64x3x3x576 .f32 := concatenate S64x3x3x576 3 [⟨S64x3x3x64, v47⟩, ⟨S64x3x3x64, v48⟩, ⟨S64x3x3x64, v49⟩, ⟨S64x3x3x64, v50⟩, ⟨S64x3x3x64, v51⟩, ⟨S64x3x3x64, v52⟩, ⟨S64x3x3x64, v53⟩, ⟨S64x3x3x64, v54⟩, ⟨S64x3x3x64, v55⟩] concatenates_S64x3x3x64_S64x3x3x64_S64x3x3x64_S64x3x3x64_S64x3x3x64_S64x3x3x64_S64x3x3x64_S64x3x3x64_S64x3x3x64_S64x3x3x576_d3
  v56

/-- The third convolution as a product over all 576 output pixels of the block, bias added, positive part taken. -/
def conv3flat (v56 : FVec F S64x3x3x576 .f32) (v58 : Vec F S576x128 .f32) (v61 : Vec F S1x128 .f32) : FVec F S576x128 .f32 :=
  have v57 : FVec F S576x576 .f32 := shapeCast S576x576 v56 shapeCasts_S64x3x3x576_S576x576
  have v59 : FVec F S576x128 .f32 := shapeCast S576x128 v58 shapeCasts_S576x128_S576x128
  have cst_19 : FVec F S576x128 .f32 := constant S576x128 .f32 0x00000000#32
  have v60 : FVec F S576x128 .f32 := matmul dot_S576x576_S576x128_S576x128_1_0_0_1_n_n none v57 v59 cst_19
  have v62 : FVec F S1x128 .f32 := shapeCast S1x128 v61 shapeCasts_S1x128_S1x128
  have v63 : FVec F S576x128 .f32 := broadcastTo S576x128 v62 broadcasts_S1x128_S576x128
  have v64 : FVec F S576x128 .f32 := addf v60 v63
  have cst_22 : F .f32 := Scalar.ofBits .f32 0x00000000#32
  have v65 : FVec F S576x128 .f32 := broadcast S576x128 cst_22
  have v66 : FVec F S576x128 .f32 := maximumf v64 v65
  v66

/-- … as a batch of 3x3 maps. -/
def conv3out (v56 : FVec F S64x3x3x576 .f32) (v58 : Vec F S576x128 .f32) (v61 : Vec F S1x128 .f32) : FVec F S64x3x3x128 .f32 :=
  have v66 : FVec F S576x128 .f32 := conv3flat v56 v58 v61
  have v67 : FVec F S64x3x3x128 .f32 := shapeCast S64x3x3x128 v66 shapeCasts_S576x128_S64x3x3x128
  v67

/-- The last pool: the top-left 2x2 corner's four entries, their maximum. -/
def pooled3 (v67 : FVec F S64x3x3x128 .f32) : FVec F S64x128 .f32 :=
  have v68 : FVec F S64x2x2x128 .f32 := extractStridedSlice S64x2x2x128 ![0, 0, 0, 0] v67 slices_S64x3x3x128_o0_0_0_0_S64x2x2x128
  have v69 : FVec F S64x4x128 .f32 := shapeCast S64x4x128 v68 shapeCasts_S64x2x2x128_S64x4x128
  have v70 : FVec F S64x128 .f32 := multiReduction .maximumf [1] S64x128 v69 0xFF800000#32 reduces_S64x4x128_S64x128 (.inl rfl) rfl
  v70

/-- The features are the four stages in turn. -/
theorem features_eq (v41 : FVec F S64x11x11x64 .f32) (v58 : Vec F S576x128 .f32) (v61 : Vec F S1x128 .f32) :
    features v41 v58 v61 = pooled3 (conv3out (patches3 (pooled2 v41)) v58 v61) := rfl

/-- The last pool at `(b, c)`: the specification's last pool of image `b`. -/
theorem pooled3_apply (v67 : FVec Ideal S64x3x3x128 .f32) (b : Fin 64) (c : Fin 128) :
    pooled3 (F := Ideal) v67 (ix2 b c) = Cert.Net.pool3 (fun i j ch => v67 (ix4 b i j ch)) c := by
  refine (multiReduction_maximumf_mid3_apply (a := 64) (p := 4) (d := 128) (φ := .f32)
    (shapeCast S64x4x128 (extractStridedSlice S64x2x2x128 ![0, 0, 0, 0] v67 slices_S64x3x3x128_o0_0_0_0_S64x2x2x128)
      shapeCasts_S64x2x2x128_S64x4x128)
    0xFF800000#32 reduces_S64x4x128_S64x128 (.inl rfl) rfl b c).trans ?_
  unfold Cert.Net.pool3
  refine congrArg (fun f => (Finset.univ : Finset (Fin 4)).fold max Cert.Net.botW f) (funext fun q => ?_)
  have hq : q = groupPos (⟨q.val / 2, by have := q.isLt; omega⟩ : Fin 2) (⟨q.val % 2, by omega⟩ : Fin 2) :=
    Fin.ext (by show q.val = q.val / 2 * 2 + q.val % 2; omega)
  refine (congrArg (fun q' => shapeCast S64x4x128
      (extractStridedSlice S64x2x2x128 ![0, 0, 0, 0] v67 slices_S64x3x3x128_o0_0_0_0_S64x2x2x128)
      shapeCasts_S64x2x2x128_S64x4x128 (ix3 b q' c)) hq).trans ?_
  refine (shapeCast_join_mid_apply (a := 64) (b := 2) (c := 2) (d := 128) _ shapeCasts_S64x2x2x128_S64x4x128 b _ _ c).trans ?_
  refine extractStridedSlice_apply _ v67 _ _ _ fun ax => ?_
  match ax with
  | ⟨0, _⟩ => show b.val = 0 + b.val; omega
  | ⟨1, _⟩ => show q.val / 2 = 0 + q.val / 2; omega
  | ⟨2, _⟩ => show q.val % 2 = 0 + q.val % 2; omega
  | ⟨3, _⟩ => show c.val = 0 + c.val; omega

/-- The row pool at `(b, i, k, c)`: the maximum of rows `2 i` and `2 i + 1` of image `b`'s map, column `k`. -/
theorem rowPooled2_apply (v41 : FVec Ideal S64x11x11x64 .f32) (b : Fin 64) (i : Fin 5) (k : Fin 10) (c : Fin 64) :
    rowPooled2 (F := Ideal) v41 (ix4 b i k c)
      = (Finset.univ : Finset (Fin 2)).fold max Cert.Net.botW fun r =>
          v41 (ix4 b ((groupPos i r).castLE (by decide)) (k.castLE (by decide)) c) := by
  show multiReduction .maximumf [2] S64x5x10x64
      (shapeCast S64x5x2x10x64 (extractStridedSlice S64x10x10x64 ![0, 0, 0, 0] v41 slices_S64x11x11x64_o0_0_0_0_S64x10x10x64)
        shapeCasts_S64x10x10x64_S64x5x2x10x64)
      0xFF800000#32 reduces_S64x5x2x10x64_S64x5x10x64 (.inl rfl) rfl (ix4 b i k c) = _
  have h := pool_axis1_apply (a := 64) (b := 5) (p := 2) (c := 10) (d := 64) (φ := .f32)
    (extractStridedSlice S64x10x10x64 ![0, 0, 0, 0] v41 slices_S64x11x11x64_o0_0_0_0_S64x10x10x64)
    shapeCasts_S64x10x10x64_S64x5x2x10x64 0xFF800000#32 reduces_S64x5x2x10x64_S64x5x10x64 (.inl rfl) rfl b i k c
  refine h.trans ?_
  refine congrArg (fun f => (Finset.univ : Finset (Fin 2)).fold max Cert.Net.botW f) (funext fun r => ?_)
  refine extractStridedSlice_apply _ v41 _ _ _ fun ax => ?_
  match ax with
  | ⟨0, _⟩ => show b.val = 0 + b.val; omega
  | ⟨1, _⟩ => show (groupPos i r).val = 0 + (groupPos i r).val; omega
  | ⟨2, _⟩ => show k.val = 0 + k.val; omega
  | ⟨3, _⟩ => show c.val = 0 + c.val; omega

/-- The second pool at `(b, i, j, c)`: the specification's pool of image `b`'s cropped map. -/
theorem pooled2_apply (v41 : FVec Ideal S64x11x11x64 .f32) (b : Fin 64) (i j : Fin 5) (c : Fin 64) :
    pooled2 (F := Ideal) v41 (ix4 b i j c)
      = Cert.Net.pool2x2 (H := 5) (W := 5) (Cert.Net.crop (by decide) (by decide) (fun i j ch => v41 (ix4 b i j ch))) i j c := by
  refine (pool_axis2_apply (a := 64) (b := 5) (c := 5) (p := 2) (d := 64) (φ := .f32) (rowPooled2 (F := Ideal) v41)
    shapeCasts_S64x5x10x64_S64x5x5x2x64 0xFF800000#32 reduces_S64x5x5x2x64_S64x5x5x64 (.inl rfl) rfl b i j c).trans ?_
  unfold Cert.Net.pool2x2
  exact congrArg (fun f => (Finset.univ : Finset (Fin 2)).fold max Cert.Net.botW f)
    (funext fun s => rowPooled2_apply v41 b i (groupPos j s) c)

/-- The third convolution at `(b, i, j, o)`: the patch row of pixel `(b, i, j)` against column `o`, plus the bias,
    positive part. -/
theorem conv3out_apply (v56 : FVec Ideal S64x3x3x576 .f32) (v58 : Vec Ideal S576x128 .f32) (v61 : Vec Ideal S1x128 .f32)
    (b : Fin 64) (i j : Fin 3) (o : Fin 128) :
    conv3out (F := Ideal) v56 v58 v61 (ix4 b i j o)
      = max ((∑ q : Fin 576, v56 (ix4 b i j q) * v58 (ix2 q o)) + v61 (ix2 (0 : Fin 1) o)) Cert.Net.zeroW := by
  refine (shapeCast_unflat3_apply (a := 64) (b := 3) (c := 3) (d := 128) (conv3flat (F := Ideal) v56 v58 v61)
    shapeCasts_S576x128_S64x3x3x128 b i j o).trans ?_
  refine (biased_matmul_max_apply (m := 576) (k := 576) (n := 128) (φ₁ := .f32) (φ₂ := .f32)
    dot_S576x576_S576x128_S576x128_1_0_0_1_n_n_wf dot_S576x576_S576x128_S576x128_1_0_0_1_n_n rfl none
    (shapeCast S576x576 v56 shapeCasts_S64x3x3x576_S576x576) (shapeCast S576x128 v58 shapeCasts_S576x128_S576x128)
    (shapeCast S1x128 v61 shapeCasts_S1x128_S1x128) broadcasts_S1x128_S576x128 (Scalar.ofBits .f32 0x00000000#32)
    (groupPos (groupPos b i) j) o).trans ?_
  rw [shapeCast_self, shapeCast_self]
  refine congrArg (fun t => max (t + v61 (ix2 (0 : Fin 1) o)) Cert.Net.zeroW) (Finset.sum_congr rfl fun q _ => ?_)
  exact congrArg (· * v58 (ix2 q o))
    (shapeCast_flat3_apply (a := 64) (b := 3) (c := 3) (d := 576) v56 shapeCasts_S64x3x3x576_S576x576 b i j q)

/-- The patch matrix at `(b, i, j, q)`: the pooled map of image `b` at the entry column `q` names. -/
theorem patches3_apply (v46 : FVec Ideal S64x5x5x64 .f32) (b : Fin 64) (i j : Fin 3) (q : Fin 576) :
    patches3 (F := Ideal) v46 (ix4 b i j q)
      = v46 (ix4 b (Cert.Net.shiftRow i (Cert.Net.tap (C := 64) q)) (Cert.Net.shiftCol j (Cert.Net.tap (C := 64) q))
          (Cert.Net.chan (C := 64) q)) :=
  patches3x3_apply (a := 64) (H := 5) (W := 5) (C := 64) (h := 3) (w := 3) v46
    (by decide : ∀ n : Fin 9, (⟨4, ![64, 5, 5, 64]⟩ : Shape).Slices ![0, n.val / 3, n.val % 3, 0] ⟨4, ![64, 3, 3, 64]⟩)
    concatenates_S64x3x3x64_S64x3x3x64_S64x3x3x64_S64x3x3x64_S64x3x3x64_S64x3x3x64_S64x3x3x64_S64x3x3x64_S64x3x3x64_S64x3x3x576_d3 b i j q _ _ _ rfl rfl rfl

end Cert.KernelIdeal.Hand

end
-- ==== Proof.KernelConv.lean ====
/-
  The block-of-64 program's first payload, stage by stage, each read at an index as the specification's layer of ONE
  image: three rows of the image side by side; the first convolution as one product over all 1664 (image, row) pairs
  against the banded 84 x 832 matrix, bias added, positive part taken; the first pool; the second convolution's patch
  matrix; the second convolution over all 7744 output pixels.
-/
import proofs.«139938_g2000005272685101_pallaspilot1_161_3_alg».proof.Proof.KernelFeatures

set_option maxRecDepth 65536

open scoped BigOperators

noncomputable section

namespace Cert.KernelIdeal.Hand

open Cert.KernelIdeal Cert.KernelIdeal.Gen Idealize.ShloMosaic Idealize.ShloMosaic.ValueIdx Idealize.SL.Sem

variable {F : FTy → Type} [FloatOps F]

/-- Rows `h, h + 1, h + 2` of every image side by side. -/
def rows3 (v0 : Vec F S64x28x28 .f32) : FVec F S64x26x84 .f32 :=
  have v1 : FVec F S64x28x28 .f32 := shapeCast S64x28x28 v0 shapeCasts_S64x28x28_S64x28x28
  have v2 : FVec F S64x26x28 .f32 := extractStridedSlice S64x26x28 ![0, 0, 0] v1 slices_S64x28x28_o0_0_0_S64x26x28
  have v3 : FVec F S64x26x28 .f32 := extractStridedSlice S64x26x28 ![0, 1, 0] v1 slices_S64x28x28_o0_1_0_S64x26x28
  have v4 : FVec F S64x26x28 .f32 := extractStridedSlice S64x26x28 ![0, 2, 0] v1 slices_S64x28x28_o0_2_0_S64x26x28
  have v5 : FVec F S64x26x84 .f32 := concatenate S64x26x84 2 [⟨S64x26x28, v2⟩, ⟨S64x26x28, v3⟩, ⟨S64x26x28, v4⟩] concatenates_S64x26x28_S64x26x28_S64x26x28_S64x26x84_d2
  v5

/-- The first convolution as one product over the 1664 (image, row) pairs, bias added, positive part taken. -/
def conv1flat (v5 : FVec F S64x26x84 .f32) (v7 : Vec F S84x832 .f32) (v10 : Vec F S1x832 .f32) : FVec F S1664x832 .f32 :=
  have v6 : FVec F S1664x84 .f32 := shapeCast S1664x84 v5 shapeCasts_S64x26x84_S1664x84
  have v8 : FVec F S84x832 .f32 := shapeCast S84x832 v7 shapeCasts_S84x832_S84x832
  have cst : FVec F S1664x832 .f32 := constant S1664x832 .f32 0x00000000#32
  have v9 : FVec F S1664x832 .f32 := matmul dot_S1664x84_S84x832_S1664x832_1_0_0_1_n_n none v6 v8 cst
  have v11 : FVec F S1x832 .f32 := shapeCast S1x832 v10 shapeCasts_S1x832_S1x832
  have v12 : FVec F S1664x832 .f32 := broadcastTo S1664x832 v11 broadcasts_S1x832_S1664x832
  have v13 : FVec F S1664x832 .f32 := addf v9 v12
  have cst_6 : F .f32 := Scalar.ofBits .f32 0x00000000#32
  have v14 : FVec F S1664x832 .f32 := broadcast S1664x832 cst_6
  have v15 : FVec F S1664x832 .f32 := maximumf v13 v14
  v15

/-- … as a batch of 26 x 26 maps of 32 channels. -/
def conv1out (v5 : FVec F S64x26x84 .f32) (v7 : Vec F S84x832 .f32) (v10 : Vec F S1x832 .f32) : FVec F S64x26x26x32 .f32 :=
  have v15 : FVec F S1664x832 .f32 := conv1flat v5 v7 v10
  have v16 : FVec F S64x26x26x32 .f32 := shapeCast S64x26x26x32 v15 shapeCasts_S1664x832_S64x26x26x32
  v16

/-- The first map pooled over pairs of rows. -/
def rowPooled1 (v16 : FVec F S64x26x26x32 .f32) : FVec F S64x13x26x32 .f32 :=
  have v17 : FVec F S64x13x2x26x32 .f32 := shapeCast S64x13x2x26x32 v16 shapeCasts_S64x26x26x32_S64x13x2x26x32
  have v18 : FVec F S64x13x26x32 .f32 := multiReduction .maximumf [2] S64x13x26x32 v17 0xFF800000#32 reduces_S64x13x2x26x32_S64x13x26x32 (.inl rfl) rfl
  v18

/-- … and over pairs of columns: the first pool. -/
def pooled1 (v16 : FVec F S64x26x26x32 .f32) : FVec F S64x13x13x32 .f32 :=
  have v18 : FVec F S64x13x26x32 .f32 := rowPooled1 v16
  have v19 : FVec F S64x13x13x2x32 .f32 := shapeCast S64x13x13x2x32 v18 shapeCasts_S64x13x26x32_S64x13x13x2x32
  have v20 : FVec F S64x13x13x32 .f32 := multiReduction .maximumf [3] S64x13x13x32 v19 0xFF800000#32 reduces_S64x13x13x2x32_S64x13x13x32 (.inl rfl) rfl
  v20

/-- The second convolution's patches. -/
def patches2 (v20 : FVec F S64x13x13x32 .f32) : FVec F S64x11x11x288 .f32 :=
  have v21 : FVec F S64x11x11x32 .f32 := extractStridedSlice S64x11x11x32 ![0, 0, 0, 0] v20 slices_S64x13x13x32_o0_0_0_0_S64x11x11x32
  have v22 : FVec F S64x11x11x32 .f32 := extractStridedSlice S64x11x11x32 ![0, 0, 1, 0] v20 slices_S64x13x13x32_o0_0_1_0_S64x11x11x32
  have v23 : FVec F S64x11x11x32 .f32 := extractStridedSlice S64x11x11x32 ![0, 0, 2, 0] v20 slices_S64x13x13x32_o0_0_2_0_S64x11x11x32
  have v24 : FVec F S64x11x11x32 .f32 := extractStridedSlice S64x11x11x32 ![0, 1, 0, 0] v20 slices_S64x13x13x32_o0_1_0_0_S64x11x11x32
  have v25 : FVec F S64x11x11x32 .f32 := extractStridedSlice S64x11x11x32 ![0, 1, 1, 0] v20 slices_S64x13x13x32_o0_1_1_0_S64x11x11x32
  have v26 : FVec F S64x11x11x32 .f32 := extractStridedSlice S64x11x11x32 ![0, 1, 2, 0] v20 slices_S64x13x13x32_o0_1_2_0_S64x11x11x32
  have v27 : FVec F S64x11x11x32 .f32 := extractStridedSlice S64x11x11x32 ![0, 2, 0, 0] v20 slices_S64x13x13x32_o0_2_0_0_S64x11x11x32
  have v28 : FVec F S64x11x11x32 .f32 := extractStridedSlice S64x11x11x32 ![0, 2, 1, 0] v20 slices_S64x13x13x32_o0_2_1_0_S64x11x11x32
  have v29 : FVec F S64x11x11x32 .f32 := extractStridedSlice S64x11x11x32 ![0, 2, 2, 0] v20 slices_S64x13x13x32_o0_2_2_0_S64x11x11x32
  have v30 : FVec F S64x11x11x288 .f32 := concatenate S64x11x11x288 3 [⟨S64x11x11x32, v21⟩, ⟨S64x11x11x32, v22⟩, ⟨S64x11x11x32, v23⟩, ⟨S64x11x11x32, v24⟩, ⟨S64x11x11x32, v25⟩, ⟨S64x11x11x32, v26⟩, ⟨S64x11x11x32, v27⟩, ⟨S64x11x11x32, v28⟩, ⟨S64x11x11x32, v29⟩] concatenates_S64x11x11x32_S64x11x11x32_S64x11x11x32_S64x11x11x32_S64x11x11x32_S64x11x11x32_S64x11x11x32_S64x11x11x32_S64x11x11x32_S64x11x11x288_d3
  v30

/-- The second convolution as one product over the 7744 output pixels, bias added, positive part taken. -/
def conv2flat (v30 : FVec F S64x11x11x288 .f32) (v32 : Vec F S288x64 .f32) (v35 : Vec F S1x64 .f32) : FVec F S7744x64 .f32 :=
  have v31 : FVec F S7744x288 .f32 := shapeCast S7744x288 v30 shapeCasts_S64x11x11x288_S7744x288
  have v33 : FVec F S288x64 .f32 := shapeCast S288x64 v32 shapeCasts_S288x64_S288x64
  have cst_11 : FVec F S7744x64 .f32 := constant S7744x64 .f32 0x00000000#32
  have v34 : FVec F S7744x64 .f32 := matmul dot_S7744x288_S288x64_S7744x64_1_0_0_1_n_n none v31 v33 cst_11
  have v36 : FVec F S1x64 .f32 := shapeCast S1x64 v35 shapeCasts_S1x64_S1x64
  have v37 : FVec F S7744x64 .f32 := broadcastTo S7744x64 v36 broadcasts_S1x64_S7744x64
  have v38 : FVec F S7744x64 .f32 := addf v34 v37
  have cst_14 : F .f32 := Scalar.ofBits .f32 0x00000000#32
  have v39 : FVec F S7744x64 .f32 := broadcast S7744x64 cst_14
  have v40 : FVec F S7744x64 .f32 := maximumf v38 v39
  v40

/-- … as a batch of 11 x 11 maps of 64 channels. -/
def conv2out (v30 : FVec F S64x11x11x288 .f32) (v32 : Vec F S288x64 .f32) (v35 : Vec F S1x64 .f32) : FVec F S64x11x11x64 .f32 :=
  have v40 : FVec F S7744x64 .f32 := conv2flat v30 v32 v35
  have v41 : FVec F S64x11x11x64 .f32 := shapeCast S64x11x11x64 v40 shapeCasts_S7744x64_S64x11x11x64
  v41

/-- The printed payload is the stages in turn. -/
theorem pay2_eq (v0 : Vec F S64x28x28 .f32) (v7 : Vec F S84x832 .f32) (v10 : Vec F S1x832 .f32) (v32 : Vec F S288x64 .f32)
    (v35 : Vec F S1x64 .f32) :
    k0_pay2 v0 v7 v10 v32 v35 = conv2out (patches2 (pooled1 (conv1out (rows3 v0) v7 v10))) v32 v35 := rfl

/-- Three rows side by side at `(b, h, k)`: row `h + k / 28`, column `k % 28` of image `b`. -/
theorem rows3_apply (v0 : Vec Ideal S64x28x28 .f32) (b : Fin 64) (h : Fin 26) (k : Fin 84) :
    rows3 (F := Ideal) v0 (ix3 b h k)
      = v0 (ix3 b ⟨h.val + k.val / 28, by have := h.isLt; have := k.isLt; omega⟩ ⟨k.val % 28, by omega⟩) := by
  refine (rowTaps3_apply (a := 64) (H := 28) (W := 28) (h := 26) (shapeCast S64x28x28 v0 shapeCasts_S64x28x28_S64x28x28)
    (by decide : ∀ n : Fin 3, (⟨3, ![64, 28, 28]⟩ : Shape).Slices ![0, n.val, 0] ⟨3, ![64, 26, 28]⟩)
    concatenates_S64x26x28_S64x26x28_S64x26x28_S64x26x84_d2 b h k
    ⟨h.val + k.val / 28, by have := h.isLt; have := k.isLt; omega⟩ ⟨k.val % 28, by omega⟩ rfl rfl).trans ?_
  rw [shapeCast_self]

/-- The first convolution at `(b, h, m, c)`. -/
theorem conv1out_apply (v5 : FVec Ideal S64x26x84 .f32) (v7 : Vec Ideal S84x832 .f32) (v10 : Vec Ideal S1x832 .f32)
    (b : Fin 64) (h m : Fin 26) (c : Fin 32) :
    conv1out (F := Ideal) v5 v7 v10 (ix4 b h m c)
      = max ((∑ k : Fin 84, v5 (ix3 b h k) * v7 (ix2 k (groupPos m c))) + v10 (ix2 (0 : Fin 1) (groupPos m c))) Cert.Net.zeroW := by
  refine (shapeCast_unflat22_apply (a := 64) (b := 26) (c := 26) (d := 32) (conv1flat (F := Ideal) v5 v7 v10)
    shapeCasts_S1664x832_S64x26x26x32 b h m c).trans ?_
  refine (biased_matmul_max_apply (m := 1664) (k := 84) (n := 832) (φ₁ := .f32) (φ₂ := .f32)
    dot_S1664x84_S84x832_S1664x832_1_0_0_1_n_n_wf dot_S1664x84_S84x832_S1664x832_1_0_0_1_n_n rfl none
    (shapeCast S1664x84 v5 shapeCasts_S64x26x84_S1664x84) (shapeCast S84x832 v7 shapeCasts_S84x832_S84x832)
    (shapeCast S1x832 v10 shapeCasts_S1x832_S1x832) broadcasts_S1x832_S1664x832 (Scalar.ofBits .f32 0x00000000#32)
    (groupPos b h) (groupPos m c)).trans ?_
  rw [shapeCast_self, shapeCast_self]
  refine congrArg (fun t => max (t + v10 (ix2 (0 : Fin 1) (groupPos m c))) Cert.Net.zeroW) (Finset.sum_congr rfl fun k _ => ?_)
  exact congrArg (· * v7 (ix2 k (groupPos m c)))
    (shapeCast_flat2_apply (a := 64) (b := 26) (c := 84) v5 shapeCasts_S64x26x84_S1664x84 b h k)

/-- The first row pool at `(b, i, k, c)`. -/
theorem rowPooled1_apply (v16 : FVec Ideal S64x26x26x32 .f32) (b : Fin 64) (i : Fin 13) (k : Fin 26) (c : Fin 32) :
    rowPooled1 (F := Ideal) v16 (ix4 b i k c)
      = (Finset.univ : Finset (Fin 2)).fold max Cert.Net.botW fun r => v16 (ix4 b (groupPos i r) k c) :=
  pool_axis1_apply (a := 64) (b := 13) (p := 2) (c := 26) (d := 32) (φ := .f32) v16
    shapeCasts_S64x26x26x32_S64x13x2x26x32 0xFF800000#32 reduces_S64x13x2x26x32_S64x13x26x32 (.inl rfl) rfl b i k c

/-- The first pool at `(b, i, j, c)`: the specification's pool of image `b`'s map. -/
theorem pooled1_apply (v16 : FVec Ideal S64x26x26x32 .f32) (b : Fin 64) (i j : Fin 13) (c : Fin 32) :
    pooled1 (F := Ideal) v16 (ix4 b i j c)
      = Cert.Net.pool2x2 (H := 13) (W := 13) (fun i j ch => v16 (ix4 b i j ch)) i j c := by
  refine (pool_axis2_apply (a := 64) (b := 13) (c := 13) (p := 2) (d := 32) (φ := .f32) (rowPooled1 (F := Ideal) v16)
    shapeCasts_S64x13x26x32_S64x13x13x2x32 0xFF800000#32 reduces_S64x13x13x2x32_S64x13x13x32 (.inl rfl) rfl b i j c).trans ?_
  unfold Cert.Net.pool2x2
  exact congrArg (fun f => (Finset.univ : Finset (Fin 2)).fold max Cert.Net.botW f)
    (funext fun s => rowPooled1_apply v16 b i (groupPos j s) c)

/-- The second patch matrix at `(b, i, j, q)`. -/
theorem patches2_apply (v20 : FVec Ideal S64x13x13x32 .f32) (b : Fin 64) (i j : Fin 11) (q : Fin 288) :
    patches2 (F := Ideal) v20 (ix4 b i j q)
      = v20 (ix4 b (Cert.Net.shiftRow i (Cert.Net.tap (C := 32) q)) (Cert.Net.shiftCol j (Cert.Net.tap (C := 32) q))
          (Cert.Net.chan (C := 32) q)) :=
  patches3x3_apply (a := 64) (H := 13) (W := 13) (C := 32) (h := 11) (w := 11) v20
    (by decide : ∀ n : Fin 9, (⟨4, ![64, 13, 13, 32]⟩ : Shape).Slices ![0, n.val / 3, n.val % 3, 0] ⟨4, ![64, 11, 11, 32]⟩)
    concatenates_S64x11x11x32_S64x11x11x32_S64x11x11x32_S64x11x11x32_S64x11x11x32_S64x11x11x32_S64x11x11x32_S64x11x11x32_S64x11x11x32_S64x11x11x288_d3 b i j q _ _ _ rfl rfl rfl

/-- The second convolution at `(b, i, j, o)`. -/
theorem conv2out_apply (v30 : FVec Ideal S64x11x11x288 .f32) (v32 : Vec Ideal S288x64 .f32) (v35 : Vec Ideal S1x64 .f32)
    (b : Fin 64) (i j : Fin 11) (o : Fin 64) :
    conv2out (F := Ideal) v30 v32 v35 (ix4 b i j o)
      = max ((∑ q : Fin 288, v30 (ix4 b i j q) * v32 (ix2 q o)) + v35 (ix2 (0 : Fin 1) o)) Cert.Net.zeroW := by
  refine (shapeCast_unflat3_apply (a := 64) (b := 11) (c := 11) (d := 64) (conv2flat (F := Ideal) v30 v32 v35)
    shapeCasts_S7744x64_S64x11x11x64 b i j o).trans ?_
  refine (biased_matmul_max_apply (m := 7744) (k := 288) (n := 64) (φ₁ := .f32) (φ₂ := .f32)
    dot_S7744x288_S288x64_S7744x64_1_0_0_1_n_n_wf dot_S7744x288_S288x64_S7744x64_1_0_0_1_n_n rfl none
    (shapeCast S7744x288 v30 shapeCasts_S64x11x11x288_S7744x288) (shapeCast S288x64 v32 shapeCasts_S288x64_S288x64)
    (shapeCast S1x64 v35 shapeCasts_S1x64_S1x64) broadcasts_S1x64_S7744x64 (Scalar.ofBits .f32 0x00000000#32)
    (groupPos (groupPos b i) j) o).trans ?_
  rw [shapeCast_self, shapeCast_self]
  refine congrArg (fun t => max (t + v35 (ix2 (0 : Fin 1) o)) Cert.Net.zeroW) (Finset.sum_congr rfl fun q _ => ?_)
  exact congrArg (· * v32 (ix2 q o))
    (shapeCast_flat3_apply (a := 64) (b := 11) (c := 11) (d := 288) v30 shapeCasts_S64x11x11x288_S7744x288 b i j q)

end Cert.KernelIdeal.Hand

end
-- ==== Proof.KernelBlock.lean ====
/-
  The block-of-64 program's stored block as the specification's network, image by image: entry `(b, j)` of the block is
  the tail of the features of the second convolution of image `b`, a function of image `b` and the weights alone.
-/
import proofs.«139938_g2000005272685101_pallaspilot1_161_3_alg».proof.Proof.KernelConv

set_option maxRecDepth 65536

open scoped BigOperators

noncomputable section

namespace Cert.KernelIdeal.Hand

open Cert.KernelIdeal Cert.KernelIdeal.Gen Idealize.ShloMosaic Idealize.ShloMosaic.ValueIdx Idealize.SL.Sem

/-- The first convolution of image `b`, in the banded-matrix form. -/
theorem conv1_image (P0 : Vec Ideal S64x28x28 .f32) (P1 : Vec Ideal S84x832 .f32) (P2 : Vec Ideal S1x832 .f32)
    (b : Fin 64) (h m : Fin 26) (c : Fin 32) :
    conv1out (F := Ideal) (rows3 P0) P1 P2 (ix4 b h m c) = Cert.Net.conv1T (fun h w => P0 (ix3 b h w)) P1 P2 h m c := by
  rw [conv1out_apply]
  unfold Cert.Net.conv1T
  refine congrArg (fun t => max (t + P2 (ix2 (0 : Fin 1) (groupPos m c))) Cert.Net.zeroW) (Finset.sum_congr rfl fun k _ => ?_)
  rw [rows3_apply]

/-- The second convolution of image `b`. -/
theorem conv2_image (P0 : Vec Ideal S64x28x28 .f32) (P1 : Vec Ideal S84x832 .f32) (P2 : Vec Ideal S1x832 .f32)
    (P3 : Vec Ideal S288x64 .f32) (P4 : Vec Ideal S1x64 .f32) (b : Fin 64) (i j : Fin 11) (o : Fin 64) :
    k0_pay2 (F := Ideal) P0 P1 P2 P3 P4 (ix4 b i j o)
      = Cert.Net.conv2OfImage (fun h w => P0 (ix3 b h w)) P1 P2 P3 P4 i j o := by
  rw [pay2_eq, conv2out_apply]
  unfold Cert.Net.conv2OfImage Cert.Net.conv3x3
  refine congrArg (fun t => max (t + P4 (ix2 (0 : Fin 1) o)) Cert.Net.zeroW) (Finset.sum_congr rfl fun q _ => ?_)
  rw [patches2_apply, pooled1_apply]
  refine congrArg (· * P3 (ix2 q o)) ?_
  unfold Cert.Net.pool2x2
  simp only [conv1_image]

/-- The features of image `b`, from the second convolution's output on. -/
theorem feat_image (v41 : FVec Ideal S64x11x11x64 .f32) (P5 : Vec Ideal S576x128 .f32) (P6 : Vec Ideal S1x128 .f32)
    (b : Fin 64) (c : Fin 128) :
    features (F := Ideal) v41 P5 P6 (ix2 b c) = Cert.Net.featFrom2 (fun i j ch => v41 (ix4 b i j ch)) P5 P6 c := by
  rw [features_eq, pooled3_apply]
  unfold Cert.Net.featFrom2 Cert.Net.pool3
  refine congrArg (fun f => (Finset.univ : Finset (Fin 4)).fold max Cert.Net.botW f) (funext fun q4 => ?_)
  beta_reduce
  rw [conv3out_apply]
  unfold Cert.Net.conv3x3
  refine congrArg (fun t => max (t + P6 (ix2 (0 : Fin 1) c)) Cert.Net.zeroW) (Finset.sum_congr rfl fun q _ => ?_)
  rw [patches3_apply, pooled2_apply]

/-- The stored block at `(b, j)`: the network on image `b`. -/
theorem block_apply (P0 : Vec Ideal S64x28x28 .f32) (P1 : Vec Ideal S84x832 .f32) (P2 : Vec Ideal S1x832 .f32)
    (P3 : Vec Ideal S288x64 .f32) (P4 : Vec Ideal S1x64 .f32) (P5 : Vec Ideal S576x128 .f32) (P6 : Vec Ideal S1x128 .f32)
    (P7 : Vec Ideal S128x512 .f32) (P8 : Vec Ideal S1x512 .f32) (P9 : Vec Ideal S512x10 .f32) (P10 : Vec Ideal S1x10 .f32)
    (b : Fin 64) (j : Fin 10) :
    k0_pay1 (F := Ideal) (k0_pay3 (k0_pay2 P0 P1 P2 P3 P4) P5 P6 P7 P8 P9) P10 (ix2 b j)
      = Cert.Net.tailRow
          (Cert.Net.featFrom2 (Cert.Net.conv2OfImage (fun h w => P0 (ix3 b h w)) P1 P2 P3 P4) P5 P6) P7 P8 P9 P10 j := by
  rw [pay3_eq, pay1_dense_apply]
  refine congrArg (fun f => Cert.Net.tailRow f P7 P8 P9 P10 j) (funext fun c => ?_)
  rw [feat_image]
  refine congrArg (fun y => Cert.Net.featFrom2 y P5 P6 c) ?_
  funext i j' o
  exact conv2_image P0 P1 P2 P3 P4 b i j' o

end Cert.KernelIdeal.Hand

end
-- ==== Proof.KernelArray.lean ====
/-
  From blocks to the array, for the block-of-64 program: grid point `t` writes back rows `64 t … 64 t + 63` of the result,
  each the network on the image of that row; the 128 points cover all 8192 rows.
-/
import proofs.«139938_g2000005272685101_pallaspilot1_161_3_alg».proof.Proof.KernelBlock
import proofs.«139938_g2000005272685101_pallaspilot1_161_3_alg».proof.Proof.Gen.KernelIdeal.Value

set_option maxRecDepth 65536

open scoped BigOperators

noncomputable section

namespace Cert.Net

open Idealize.ShloMosaic Idealize.ShloMosaic.ValueIdx

/-- The whole result array as ONE function of the image array and the ten weight arrays the region is given: row `n` is the
    network on image `n`. -/
def netArray (X : FVec Ideal ⟨3, ![8192, 28, 28]⟩ .f32) (W1t : FVec Ideal ⟨2, ![84, 832]⟩ .f32) (B1t : FVec Ideal ⟨2, ![1, 832]⟩ .f32)
    (W2 : FVec Ideal ⟨2, ![288, 64]⟩ .f32) (B2 : FVec Ideal ⟨2, ![1, 64]⟩ .f32) (W3 : FVec Ideal ⟨2, ![576, 128]⟩ .f32)
    (B3 : FVec Ideal ⟨2, ![1, 128]⟩ .f32) (Wf1 : FVec Ideal ⟨2, ![128, 512]⟩ .f32) (Bf1 : FVec Ideal ⟨2, ![1, 512]⟩ .f32)
    (Wf2 : FVec Ideal ⟨2, ![512, 10]⟩ .f32) (Bf2 : FVec Ideal ⟨2, ![1, 10]⟩ .f32) : (⟨2, ![8192, 10]⟩ : Shape).Idx → EReal := fun i =>
  tailRow (featFrom2 (conv2OfImage (fun h w => X (ix3 (i 0) h w)) W1t B1t W2 B2) W3 B3) Wf1 Bf1 Wf2 Bf2 (i 1)

end Cert.Net

namespace Cert.KernelIdeal.Hand

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The result array as the region's arrays determine it. -/
def resultOf (c : Dev nD) : S8192x10.Idx → EReal :=
  Cert.Net.netArray (V m c main_v0) (V m c main_v24) (V m c main_v28) (V m c main_v29) (V m c main_v30) (V m c main_v31)
    (V m c main_v32) (V m c main_v34) (V m c main_v35) (V m c main_arg9) (V m c main_v36)

/-- The printed index maps, decided over the 128 grid points: the image window and the result window move with the point,
    every weight window stays on its whole array. -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- The row of the arrays that grid point `t`'s block row `b` is. -/
def rowOf (t : Fin cfg0.N) (b : Fin 64) : Fin 8192 := ⟨64 * t.val + b.val, by have := t.isLt; have := b.isLt; show _ < 8192; have : t.val < 128 := t.isLt; omega⟩

/-- Window 1's block is its whole array at every point. -/
theorem iblk1_eq (c : Dev nD) (t : Fin cfg0.N) : (iblk m c 1 t : S84x832.Idx → EReal) = V m c main_v24 := by
  funext y
  show V m c main_v24 (((cfg0.win 1).blk t).view.emb y) = V m c main_v24 y
  refine congrArg (V m c main_v24) (funext fun a => Fin.ext ?_)
  have e0 : win0_1.index t (0 : Fin 2) = 0 := (idx_facts t).2.2.2.1
  have e1 : win0_1.index t (1 : Fin 2) = 0 := (idx_facts t).2.2.2.2.1
  match a with
  | ⟨0, _⟩ => show win0_1.index t (0 : Fin 2) * 84 + 1 * (y 0).val = (y 0).val; omega
  | ⟨1, _⟩ => show win0_1.index t (1 : Fin 2) * 832 + 1 * (y 1).val = (y 1).val; omega

/-- Window 2's block is its whole array at every point. -/
theorem iblk2_eq (c : Dev nD) (t : Fin cfg0.N) : (iblk m c 2 t : S1x832.Idx → EReal) = V m c main_v28 := by
  funext y
  show V m c main_v28 (((cfg0.win 2).blk t).view.emb y) = V m c main_v28 y
  refine congrArg (V m c main_v28) (funext fun a => Fin.ext ?_)
  have e0 : win0_2.index t (0 : Fin 2) = 0 := (idx_facts t).2.2.2.2.2.1
  have e1 : win0_2.index t (1 : Fin 2) = 0 := (idx_facts t).2.2.2.2.2.2.1
  match a with
  | ⟨0, _⟩ => show win0_2.index t (0 : Fin 2) * 1 + 1 * (y 0).val = (y 0).val; omega
  | ⟨1, _⟩ => show win0_2.index t (1 : Fin 2) * 832 + 1 * (y 1).val = (y 1).val; omega

/-- Window 3's block is its whole array at every point. -/
theorem iblk3_eq (c : Dev nD) (t : Fin cfg0.N) : (iblk m c 3 t : S288x64.Idx → EReal) = V m c main_v29 := by
  funext y
  show V m c main_v29 (((cfg0.win 3).blk t).view.emb y) = V m c main_v29 y
  refine congrArg (V m c main_v29) (funext fun a => Fin.ext ?_)
  have e0 : win0_3.index t (0 : Fin 2) = 0 := (idx_facts t).2.2.2.2.2.2.2.1
  have e1 : win0_3.index t (1 : Fin 2) = 0 := (idx_facts t).2.2.2.2.2.2.2.2.1
  match a with
  | ⟨0, _⟩ => show win0_3.index t (0 : Fin 2) * 288 + 1 * (y 0).val = (y 0).val; omega
  | ⟨1, _⟩ => show win0_3.index t (1 : Fin 2) * 64 + 1 * (y 1).val = (y 1).val; omega

/-- Window 4's block is its whole array at every point. -/
theorem iblk4_eq (c : Dev nD) (t : Fin cfg0.N) : (iblk m c 4 t : S1x64.Idx → EReal) = V m c main_v30 := by
  funext y
  show V m c main_v30 (((cfg0.win 4).blk t).view.emb y) = V m c main_v30 y
  refine congrArg (V m c main_v30) (funext fun a => Fin.ext ?_)
  have e0 : win0_4.index t (0 : Fin 2) = 0 := (idx_facts t).2.2.2.2.2.2.2.2.2.1
  have e1 : win0_4.index t (1 : Fin 2) = 0 := (idx_facts t).2.2.2.2.2.2.2.2.2.2.1
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block is its whole array at every point. -/
theorem iblk5_eq (c : Dev nD) (t : Fin cfg0.N) : (iblk m c 5 t : S576x128.Idx → EReal) = V m c main_v31 := by
  funext y
  show V m c main_v31 (((cfg0.win 5).blk t).view.emb y) = V m c main_v31 y
  refine congrArg (V m c main_v31) (funext fun a => Fin.ext ?_)
  have e0 : win0_5.index t (0 : Fin 2) = 0 := (idx_facts t).2.2.2.2.2.2.2.2.2.2.2.1
  have e1 : win0_5.index t (1 : Fin 2) = 0 := (idx_facts t).2.2.2.2.2.2.2.2.2.2.2.2.1
  match a with
  | ⟨0, _⟩ => show win0_5.index t (0 : Fin 2) * 576 + 1 * (y 0).val = (y 0).val; omega
  | ⟨1, _⟩ => show win0_5.index t (1 : Fin 2) * 128 + 1 * (y 1).val = (y 1).val; omega

/-- Window 6's block is its whole array at every point. -/
theorem iblk6_eq (c : Dev nD) (t : Fin cfg0.N) : (iblk m c 6 t : S1x128.Idx → EReal) = V m c main_v32 := by
  funext y
  show V m c main_v32 (((cfg0.win 6).blk t).view.emb y) = V m c main_v32 y
  refine congrArg (V m c main_v32) (funext fun a => Fin.ext ?_)
  have e0 : win0_6.index t (0 : Fin 2) = 0 := (idx_facts t).2.2.2.2.2.2.2.2.2.2.2.2.2.1
  have e1 : win0_6.index t (1 : Fin 2) = 0 := (idx_facts t).2.2.2.2.2.2.2.2.2.2.2.2.2.2.1
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem iblk7_eq (c : Dev nD) (t : Fin cfg0.N) : (iblk m c 7 t : S128x512.Idx → EReal) = V m c main_v34 := by
  funext y
  show V m c main_v34 (((cfg0.win 7).blk t).view.emb y) = V m c main_v34 y
  refine congrArg (V m c main_v34) (funext fun a => Fin.ext ?_)
  have e0 : win0_7.index t (0 : Fin 2) = 0 := (idx_facts t).2.2.2.2.2.2.2.2.2.2.2.2.2.2.2.1
  have e1 : win0_7.index t (1 : Fin 2) = 0 := (idx_facts t).2.2.2.2.2.2.2.2.2.2.2.2.2.2.2.2.1
  match a with
  | ⟨0, _⟩ => show win0_7.index t (0 : Fin 2) * 128 + 1 * (y 0).val = (y 0).val; omega
  | ⟨1, _⟩ => show win0_7.index t (1 : Fin 2) * 512 + 1 * (y 1).val = (y 1).val; omega

/-- Window 8's block is its whole array at every point. -/
theorem iblk8_eq (c : Dev nD) (t : Fin cfg0.N) : (iblk m c 8 t : S1x512.Idx → EReal) = V m c main_v35 := by
  funext y
  show V m c main_v35 (((cfg0.win 8).blk t).view.emb y) = V m c main_v35 y
  refine congrArg (V m c main_v35) (funext fun a => Fin.ext ?_)
  have e0 : win0_8.index t (0 : Fin 2) = 0 := (idx_facts t).2.2.2.2.2.2.2.2.2.2.2.2.2.2.2.2.2.1
  have e1 : win0_8.index t (1 : Fin 2) = 0 := (idx_facts t).2.2.2.2.2.2.2.2.2.2.2.2.2.2.2.2.2.2.1
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- Window 9's block is its whole array at every point. -/
theorem iblk9_eq (c : Dev nD) (t : Fin cfg0.N) : (iblk m c 9 t : S512x10.Idx → EReal) = V m c main_arg9 := by
  funext y
  show V m c main_arg9 (((cfg0.win 9).blk t).view.emb y) = V m c main_arg9 y
  refine congrArg (V m c main_arg9) (funext fun a => Fin.ext ?_)
  have e0 : win0_9.index t (0 : Fin 2) = 0 := (idx_facts t).2.2.2.2.2.2.2.2.2.2.2.2.2.2.2.2.2.2.2.1
  have e1 : win0_9.index t (1 : Fin 2) = 0 := (idx_facts t).2.2.2.2.2.2.2.2.2.2.2.2.2.2.2.2.2.2.2.2.1
  match a with
  | ⟨0, _⟩ => show win0_9.index t (0 : Fin 2) * 512 + 1 * (y 0).val = (y 0).val; omega
  | ⟨1, _⟩ => show win0_9.index t (1 : Fin 2) * 10 + 1 * (y 1).val = (y 1).val; omega

/-- Window 10's block is its whole array at every point. -/
theorem iblk10_eq (c : Dev nD) (t : Fin cfg0.N) : (iblk m c 10 t : S1x10.Idx → EReal) = V m c main_v36 := by
  funext y
  show V m c main_v36 (((cfg0.win 10).blk t).view.emb y) = V m c main_v36 y
  refine congrArg (V m c main_v36) (funext fun a => Fin.ext ?_)
  have e0 : win0_10.index t (0 : Fin 2) = 0 := (idx_facts t).2.2.2.2.2.2.2.2.2.2.2.2.2.2.2.2.2.2.2.2.2.1
  have e1 : win0_10.index t (1 : Fin 2) = 0 := (idx_facts t).2.2.2.2.2.2.2.2.2.2.2.2.2.2.2.2.2.2.2.2.2.2.1
  match a with
  | ⟨0, _⟩ => show win0_10.index t (0 : Fin 2) * 1 + 1 * (y 0).val = (y 0).val; omega
  | ⟨1, _⟩ => show win0_10.index t (1 : Fin 2) * 10 + 1 * (y 1).val = (y 1).val; omega

/-- The image window's block at point `t` holds images `64 t … 64 t + 63`. -/
theorem iblk0_apply (c : Dev nD) (t : Fin cfg0.N) (b : Fin 64) (h w : Fin 28) :
    (iblk m c 0 t : S64x28x28.Idx → EReal) (ix3 b h w) = V m c main_v0 (ix3 (rowOf t b) h w) := by
  show V m c main_v0 (((cfg0.win 0).blk t).view.emb (ix3 b h w)) = V m c main_v0 (ix3 (rowOf t b) h w)
  refine congrArg (V m c main_v0) (funext fun a => Fin.ext ?_)
  obtain ⟨e0, e1, e2, -⟩ := idx_facts t
  match a with
  | ⟨0, _⟩ => show win0_0.index t (0 : Fin 3) * 64 + 1 * b.val = 64 * t.val + b.val; omega
  | ⟨1, _⟩ => show win0_0.index t (1 : Fin 3) * 28 + 1 * h.val = h.val; omega
  | ⟨2, _⟩ => show win0_0.index t (2 : Fin 3) * 28 + 1 * w.val = w.val; omega

/-- What point `t` computes at `(b, j)` is the result function at row `64 t + b`. -/
theorem flushed_entry (c : Dev nD) (t : Fin cfg0.N) (b : Fin 64) (j : Fin 10) :
    k0_pay1 (F := Ideal)
        (k0_pay3 (k0_pay2 (iblk m c 0 t) (iblk m c 1 t) (iblk m c 2 t) (iblk m c 3 t) (iblk m c 4 t)) (iblk m c 5 t)
          (iblk m c 6 t) (iblk m c 7 t) (iblk m c 8 t) (iblk m c 9 t))
        (iblk m c 10 t) (ix2 b j)
      = resultOf m c (ix2 (rowOf t b) j) := by
  refine (block_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) b j).trans ?_
  unfold resultOf Cert.Net.netArray
  rw [iblk1_eq m c t, iblk2_eq m c t, iblk3_eq m c t, iblk4_eq m c t, iblk5_eq m c t, iblk6_eq m c t, iblk7_eq m c t,
    iblk8_eq m c t, iblk9_eq m c t, iblk10_eq m c t]
  have hx : (fun h w => (iblk m c 0 t : S64x28x28.Idx → EReal) (ix3 b h w)) = fun h w => V m c main_v0 (ix3 (rowOf t b) h w) :=
    funext fun h => funext fun w => iblk0_apply m c t b h w
  rw [hx]

theorem flushed_eq (c : Dev nD) (t : Fin cfg0.N) :
    (dats m 0 c).flushed 11 t = ((cfg0.win 11).blk t).view.read (Elt Ideal) (resultOf m c) := by
  rw [Cert.KernelIdeal.Value.flushed11]
  unfold out0_11
  rw [View.canon_unit_zero hz2]
  simp only [View.ld_unit_zero (S := S64x28x28) hz3, View.ld_unit_zero (S := S84x832) hz2, View.ld_unit_zero (S := S1x832) hz2,
    View.ld_unit_zero (S := S288x64) hz2, View.ld_unit_zero (S := S1x64) hz2, View.ld_unit_zero (S := S576x128) hz2,
    View.ld_unit_zero (S := S1x128) hz2, View.ld_unit_zero (S := S128x512) hz2, View.ld_unit_zero (S := S1x512) hz2,
    View.ld_unit_zero (S := S512x10) hz2, View.ld_unit_zero (S := S1x10) hz2]
  funext y
  have ey : (y : S64x10.Idx) = ix2 (y 0) (y 1) := eq_ix2 (show S64x10.Idx from y)
  refine (congrArg (k0_pay1 (F := Ideal)
        (k0_pay3 (k0_pay2 (iblk m c 0 t) (iblk m c 1 t) (iblk m c 2 t) (iblk m c 3 t) (iblk m c 4 t)) (iblk m c 5 t)
          (iblk m c 6 t) (iblk m c 7 t) (iblk m c 8 t) (iblk m c 9 t))
        (iblk m c 10 t)) ey).trans ?_
  refine (flushed_entry m c t (y 0) (y 1)).trans ?_
  show resultOf m c (ix2 (rowOf t (y 0)) (y 1)) = resultOf m c (((cfg0.win 11).blk t).view.emb y)
  refine congrArg (resultOf m c) (funext fun a => Fin.ext ?_)
  have e0 : win0_11.index t (0 : Fin 2) = t.val := (idx_facts t).2.2.2.2.2.2.2.2.2.2.2.2.2.2.2.2.2.2.2.2.2.2.2.1
  have e1 : win0_11.index t (1 : Fin 2) = 0 := (idx_facts t).2.2.2.2.2.2.2.2.2.2.2.2.2.2.2.2.2.2.2.2.2.2.2.2
  match a with
  | ⟨0, _⟩ => show 64 * t.val + (y 0).val = win0_11.index t (0 : Fin 2) * 64 + 1 * (y 0).val; omega
  | ⟨1, _⟩ => show (y 1).val = win0_11.index t (1 : Fin 2) * 10 + 1 * (y 1).val; omega

/-- An index of the result array is in point `t`'s block iff each coordinate is in the block's range on its axis. -/
theorem mem_blk (t : Fin cfg0.N) (i : S8192x10.Idx) :
    i ∈ ((cfg0.win 11).blk t).view.set ↔ ∀ a : Fin 2, win0_11.index t a * S64x10.size a ≤ (i a).val
      ∧ (i a).val < win0_11.index t a * S64x10.size a + S64x10.size a := by
  show i ∈ ((View.whole main_v37).slice (win0_11.rect t)).set ↔ _
  rw [View.set_slice_whole, Rect.mem_set_unit]
  exact Iff.rfl

/-- Every row of the result is in some point's block: row `n` in point `n / 64`'s. -/
theorem cover (i : S8192x10.Idx) :
    ∃ t : Fin cfg0.N, (cfg0.win 11).flush t = true ∧ i ∈ ((cfg0.win 11).blk t).view.set := by
  have hi0 : (i 0).val < 8192 := (i 0).isLt
  have hi1 : (i 1).val < 10 := (i 1).isLt
  refine ⟨⟨(i 0).val / 64, by show _ < 128; omega⟩, flush0_11 _, ?_⟩
  rw [mem_blk]
  intro a
  have e0 : win0_11.index ⟨(i 0).val / 64, by show _ < 128; omega⟩ (0 : Fin 2) = (i 0).val / 64 :=
    (idx_facts _).2.2.2.2.2.2.2.2.2.2.2.2.2.2.2.2.2.2.2.2.2.2.2.1
  have e1 : win0_11.index ⟨(i 0).val / 64, by show _ < 128; omega⟩ (1 : Fin 2) = 0 :=
    (idx_facts _).2.2.2.2.2.2.2.2.2.2.2.2.2.2.2.2.2.2.2.2.2.2.2.2
  match a with
  | ⟨0, _⟩ =>
    show win0_11.index _ (0 : Fin 2) * 64 ≤ (i 0).val ∧ (i 0).val < win0_11.index _ (0 : Fin 2) * 64 + 64
    rw [e0]; omega
  | ⟨1, _⟩ =>
    show win0_11.index _ (1 : Fin 2) * 10 ≤ (i 1).val ∧ (i 1).val < win0_11.index _ (1 : Fin 2) * 10 + 10
    rw [e1]; omega

/-- The result array after the run: the network on every image, as the region's arrays determine it. -/
theorem final (c : Dev nD) : (dats m 0 c).arrAt 11 cfg0.N = resultOf m c :=
  (dats m 0 c).arrAt_eq_of_cover 11 (resultOf m c) (fun t _ => flushed_eq m c t) cover

end Cert.KernelIdeal.Hand

end
-- ==== Proof.KernelHost.lean ====
/-
  The arrays the block-of-64 program's region is given, as functions of the arguments: plain reshapes, the second dense
  layer's matrix summed over its nine copies, the bias of the first layer repeated over the 26 columns, and the image
  array with its unit channel axis dropped.
-/
import proofs.«139938_g2000005272685101_pallaspilot1_161_3_alg».proof.Proof.KernelArray
import Idealize.ShloMosaic.Lib.StableHlo.Run

set_option maxRecDepth 65536
set_option maxHeartbeats 2000000

open scoped BigOperators

noncomputable section

namespace Cert.KernelIdeal.Hand

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- Unfold the host operations before the region down to the arguments. -/
macro "host_read" : tactic => `(tactic| (
  dsimp only [V]
  simp only [hostOps0, hostOps0_1, hostOps0_2, hostOps0_3, hostOps0_4, List.flatten_cons, List.flatten_nil, List.append_nil,
    List.cons_append, List.nil_append]
  after_results))

theorem V_v29 (c : Dev nD) : (V m c main_v29 : S288x64.Idx → EReal)
    = shapeCast S288x64 (m ((c : Thread nD τ).loc main_arg3)) shapeCasts_S3x3x32x64_S288x64 := by host_read; rfl
theorem V_v30 (c : Dev nD) : (V m c main_v30 : S1x64.Idx → EReal)
    = shapeCast S1x64 (m ((c : Thread nD τ).loc main_arg4)) shapeCasts_S64_S1x64 := by host_read; rfl
theorem V_v31 (c : Dev nD) : (V m c main_v31 : S576x128.Idx → EReal)
    = shapeCast S576x128 (m ((c : Thread nD τ).loc main_arg5)) shapeCasts_S3x3x64x128_S576x128 := by host_read; rfl
theorem V_v32 (c : Dev nD) : (V m c main_v32 : S1x128.Idx → EReal)
    = shapeCast S1x128 (m ((c : Thread nD τ).loc main_arg6)) shapeCasts_S128_S1x128 := by host_read; rfl
theorem V_v34 (c : Dev nD) : (V m c main_v34 : S128x512.Idx → EReal)
    = Host.reduceAdd (F := Ideal) (shapeCast S128x9x512 (m ((c : Thread nD τ).loc main_arg7)) shapeCasts_S1152x512_S128x9x512)
        (constant (F := Ideal) S_ .f32 0x00000000#32) reducesTo_S128x9x512_S128x512_d1 h_S_ := by host_read; rfl
theorem V_v35 (c : Dev nD) : (V m c main_v35 : S1x512.Idx → EReal)
    = shapeCast S1x512 (m ((c : Thread nD τ).loc main_arg8)) shapeCasts_S512_S1x512 := by host_read; rfl
theorem V_v36 (c : Dev nD) : (V m c main_v36 : S1x10.Idx → EReal)
    = shapeCast S1x10 (m ((c : Thread nD τ).loc main_arg10)) shapeCasts_S10_S1x10 := by host_read; rfl

/-- The image array: the unit channel axis dropped. -/
theorem V_v0_apply (c : Dev nD) (n : Fin 8192) (h w : Fin 28) :
    (V m c main_v0 : S8192x28x28.Idx → EReal) (ix3 n h w) = m ((c : Thread nD τ).loc main_arg0) (ix4 n (0 : Fin 1) h w) := by
  have e : (V m c main_v0 : S8192x28x28.Idx → EReal)
      = shapeCast S8192x28x28 (m ((c : Thread nD τ).loc main_arg0)) shapeCasts_S8192x1x28x28_S8192x28x28 := by host_read; rfl
  rw [e]
  refine shapeCast_apply _ _ _ _ ?_
  show (S8192x1x28x28.rowMajor (ix4 n (0 : Fin 1) h w)).val = (S8192x28x28.rowMajor (ix3 n h w)).val
  rw [Shape.rowMajor_val_four, Shape.rowMajor_val_three]
  show ((n.val * 1 + 0) * 28 + h.val) * 28 + w.val = (n.val * 28 + h.val) * 28 + w.val
  omega

/-- The first layer's bias repeated over the 26 columns. -/
theorem V_v28_apply (c : Dev nD) (mm : Fin 26) (ch : Fin 32) :
    (V m c main_v28 : S1x832.Idx → EReal) (ix2 (0 : Fin 1) (groupPos mm ch)) = m ((c : Thread nD τ).loc main_arg2) (ix1 ch) := by
  have e : (V m c main_v28 : S1x832.Idx → EReal)
      = shapeCast S1x832 (broadcastInDim S1x1x26x32 ![0, 1, 2, 3] bcast_S1x1x1x32_S1x1x26x32_0_1_2_3
          (shapeCast S1x1x1x32 (shapeCast S1x32 (m ((c : Thread nD τ).loc main_arg2)) shapeCasts_S32_S1x32) shapeCasts_S1x32_S1x1x1x32))
          shapeCasts_S1x1x26x32_S1x832 := by host_read; rfl
  rw [e]
  refine (shapeCast_apply _ _ (ix2 (0 : Fin 1) (groupPos mm ch)) (ix4 (0 : Fin 1) (0 : Fin 1) mm ch) ?_).trans ?_
  · rw [Shape.rowMajor_val_four, Shape.rowMajor_val_two]
    show ((0 * 1 + 0) * 26 + mm.val) * 32 + ch.val = 0 * 832 + (mm.val * 32 + ch.val)
    omega
  refine (broadcastInDim_apply _ _ _ (ix4 (0 : Fin 1) (0 : Fin 1) mm ch) (ix4 (0 : Fin 1) (0 : Fin 1) (0 : Fin 1) ch) fun a => ?_).trans ?_
  · match a with
    | ⟨0, _⟩ => rfl
    | ⟨1, _⟩ => rfl
    | ⟨2, _⟩ => rfl
    | ⟨3, _⟩ => rfl
  refine (shapeCast_apply _ _ (ix4 (0 : Fin 1) (0 : Fin 1) (0 : Fin 1) ch) (ix2 (0 : Fin 1) ch) ?_).trans ?_
  · rw [Shape.rowMajor_val_four, Shape.rowMajor_val_two]
    show 0 * 32 + ch.val = ((0 * 1 + 0) * 1 + 0) * 32 + ch.val
    omega
  refine shapeCast_apply _ _ (ix2 (0 : Fin 1) ch) (ix1 ch) ?_
  show (S32.rowMajor (ix1 ch)).val = (S1x32.rowMajor (ix2 (0 : Fin 1) ch)).val
  rw [Shape.rowMajor_val_one, Shape.rowMajor_val_two]
  show ch.val = 0 * 32 + ch.val
  omega

end Cert.KernelIdeal.Hand

end
-- ==== Proof.LibFlatten22.lean ====
/-
  A rank-4 array flattened to a matrix by joining its first two and its last two axes, read at an index given by
  coordinates: row-major order keeps `(i, j, k, l)` at row `i * b + j`, column `k * d + l`.
-/
import proofs.«139938_g2000005272685101_pallaspilot1_161_3_alg».proof.Proof.LibPoolPairs

namespace Idealize.ShloMosaic.ValueIdx

open Idealize.ShloMosaic

variable {α : Type}

/-- `[a, b, c, d]` flattened to `[a * b, c * d]`. -/
theorem shapeCast_flat22_apply {a b c d : ℕ} (x : (⟨4, ![a, b, c, d]⟩ : Shape).Idx → α)
    (h : (⟨4, ![a, b, c, d]⟩ : Shape).ShapeCasts ⟨2, ![a * b, c * d]⟩) (i : Fin a) (j : Fin b) (k : Fin c) (l : Fin d) :
    shapeCast ⟨2, ![a * b, c * d]⟩ x h (ix2 (groupPos i j) (groupPos k l)) = x (ix4 i j k l) :=
  shapeCast_apply x h _ _ (by
    rw [Shape.rowMajor_val_four, Shape.rowMajor_val_two]
    show ((i.val * b + j.val) * c + k.val) * d + l.val = (i.val * b + j.val) * (c * d) + (k.val * d + l.val)
    ring)

end Idealize.ShloMosaic.ValueIdx
-- ==== Proof.KernelBand.lean ====
/-
  The banded first-layer matrix the block-of-64 program's host side builds: entry `(di * 28 + w, m * 32 + c)` is the 3 x 3
  weight `(di, w - m, c)` when `m ≤ w ≤ m + 2` and zero otherwise. The host computes `w - m` as 32-bit words, masks the band by
  two signed comparisons, clamps the difference into `[0, 2]`, gathers the weight row at the clamped difference and
  selects zero outside the band; for `w < 28`, `m < 26` the word arithmetic is exact (checked over all 728 pairs).
-/
import proofs.«139938_g2000005272685101_pallaspilot1_161_3_alg».proof.Proof.KernelHost
import proofs.«139938_g2000005272685101_pallaspilot1_161_3_alg».proof.Proof.LibFlatten22
import Idealize.ShloMosaic.Lib.IdealHost

set_option maxRecDepth 65536
set_option maxHeartbeats 4000000

open scoped BigOperators

noncomputable section

namespace Cert.KernelIdeal.Hand

open Cert.KernelIdeal Cert.KernelIdeal.Gen Idealize.ShloMosaic Idealize.ShloMosaic.ValueIdx Idealize.ShloMosaic.TcCoe Idealize.SL.Sem

/-- `w - m` as a word. -/
def diffW (w mm : ℕ) : BitVec 32 := IntOp.subi (BitVec.ofNat 32 w) (BitVec.ofNat 32 mm)
/-- The band's mask bit. -/
def maskBit (w mm : ℕ) : BitVec 1 := IntOp.andi (IntOp.cmpi .sge (diffW w mm) 0#32) (IntOp.cmpi .sle (diffW w mm) 2#32)
/-- The difference clamped into `[0, 2]`. -/
def clipW (w mm : ℕ) : BitVec 32 := IntOp.minsi 2#32 (IntOp.maxsi 0#32 (diffW w mm))
/-- The gather's row number: the clamped difference, wrapped if negative. -/
def idxW (w mm : ℕ) : BitVec 32 :=
  Scalar.select (IntOp.cmpi .slt (clipW w mm) 0#32) (IntOp.addi (clipW w mm) 3#32) (clipW w mm)

theorem mask_iff : ∀ (w : Fin 28) (mm : Fin 26), maskBit w.val mm.val = 1#1 ↔ (mm.val ≤ w.val ∧ w.val ≤ mm.val + 2) := by
  decide +kernel

theorem idx_val : ∀ (w : Fin 28) (mm : Fin 26), mm.val ≤ w.val ∧ w.val ≤ mm.val + 2 →
    min (idxW w.val mm.val).toInt.toNat 2 = w.val - mm.val := by
  decide +kernel

/-- `w - m` over the 28 x 26 grid. -/
def diffA : IVec S28x26 32 :=
  subi (broadcastInDim S28x26 ![0, 1] bcast_S28x1_S28x26_0_1 (broadcastInDim S28x1 ![0] bcast_S28_S28x1_0 (iotaInDim S28 32 0)))
    (broadcastInDim S28x26 ![0, 1] bcast_S1x26_S28x26_0_1 (broadcastInDim S1x26 ![1] bcast_S26_S1x26_1 (iotaInDim S26 32 0)))

def maskA : IVec S28x26 1 :=
  andi (cmpi .sge diffA (broadcastInDim S28x26 ![] bcast_S_S28x26 (constantI S_ 32 0#32)))
    (cmpi .sle diffA (broadcastInDim S28x26 ![] bcast_S_S28x26 (constantI S_ 32 2#32)))

def clipA : IVec S28x26 32 :=
  minsi (broadcastInDim S28x26 ![] bcast_S_S28x26 (id (constantI S_ 32 2#32)))
    (maxsi (broadcastInDim S28x26 ![] bcast_S_S28x26 (id (constantI S_ 32 0#32))) diffA)

def idxA : IVec S28x26 32 :=
  select (cmpi .slt clipA (broadcastInDim S28x26 ![] bcast_S_S28x26 (constantI S_ 32 0#32)))
    (addi clipA (broadcastInDim S28x26 ![] bcast_S_S28x26 (constantI S_ 32 3#32))) clipA

/-- The banded weights as a 3 x 28 x 26 x 32 array. -/
def bandA (A1 : S3x3x1x32.Idx → EReal) : FVec Ideal S3x28x26x32 .f32 :=
  select (broadcastInDim S3x28x26x32 ![0, 1, 2, 3] bcast_S1x28x26x1_S3x28x26x32_0_1_2_3
      (broadcastInDim S1x28x26x1 ![1, 2] bcast_S28x26_S1x28x26x1_1_2 maskA))
    (Host.gather gather_S3x3x32_S28x26x1_S3x28x26x32_03_1_n_n_1_2_3132 (shapeCast S3x3x32 A1 shapeCasts_S3x3x1x32_S3x3x32)
      (broadcastInDim S28x26x1 ![0, 1] bcast_S28x26_S28x26x1_0_1 idxA))
    (broadcastInDim S3x28x26x32 ![] bcast_S_S3x28x26x32 (id (constant (F := Ideal) S_ .f32 0x00000000#32)))

theorem diffA_apply (w : Fin 28) (mm : Fin 26) : diffA (ix2 w mm) = diffW w.val mm.val := by
  show IntOp.subi _ _ = IntOp.subi _ _
  refine congrArg₂ IntOp.subi ?_ ?_
  · refine (broadcastInDim_apply _ bcast_S28x1_S28x26_0_1 _ (ix2 w mm) (ix2 w (0 : Fin 1)) fun a => ?_).trans ?_
    · match a with
      | ⟨0, _⟩ => rfl
      | ⟨1, _⟩ => rfl
    refine (broadcastInDim_apply _ bcast_S28_S28x1_0 _ (ix2 w (0 : Fin 1)) (ix1 w) fun a => ?_).trans rfl
    match a with
    | ⟨0, _⟩ => rfl
  · refine (broadcastInDim_apply _ bcast_S1x26_S28x26_0_1 _ (ix2 w mm) (ix2 (0 : Fin 1) mm) fun a => ?_).trans ?_
    · match a with
      | ⟨0, _⟩ => rfl
      | ⟨1, _⟩ => rfl
    refine (broadcastInDim_apply _ bcast_S26_S1x26_1 _ (ix2 (0 : Fin 1) mm) (ix1 mm) fun a => ?_).trans rfl
    match a with
    | ⟨0, _⟩ => rfl

theorem maskA_apply (w : Fin 28) (mm : Fin 26) : maskA (ix2 w mm) = maskBit w.val mm.val := by
  show IntOp.andi (IntOp.cmpi .sge (diffA (ix2 w mm)) _) (IntOp.cmpi .sle (diffA (ix2 w mm)) _) = _
  rw [diffA_apply, broadcastInDim_scalar_apply, broadcastInDim_scalar_apply]
  rfl

theorem clipA_apply (w : Fin 28) (mm : Fin 26) : clipA (ix2 w mm) = clipW w.val mm.val := by
  show IntOp.minsi _ (IntOp.maxsi _ (diffA (ix2 w mm))) = _
  rw [diffA_apply, broadcastInDim_scalar_apply, broadcastInDim_scalar_apply]
  rfl

theorem idxA_apply (w : Fin 28) (mm : Fin 26) : idxA (ix2 w mm) = idxW w.val mm.val := by
  show Scalar.select (IntOp.cmpi .slt (clipA (ix2 w mm)) _) (IntOp.addi (clipA (ix2 w mm)) _) (clipA (ix2 w mm)) = _
  rw [clipA_apply, broadcastInDim_scalar_apply, broadcastInDim_scalar_apply]
  rfl

/-- The gathered weights at `(di, w, m, c)`: the weight row at the clamped difference. -/
theorem gather_apply (A1 : S3x3x1x32.Idx → EReal) (di : Fin 3) (w : Fin 28) (mm : Fin 26) (ch : Fin 32) :
    Host.gather gather_S3x3x32_S28x26x1_S3x28x26x32_03_1_n_n_1_2_3132 (shapeCast S3x3x32 A1 shapeCasts_S3x3x1x32_S3x3x32)
        (broadcastInDim S28x26x1 ![0, 1] bcast_S28x26_S28x26x1_0_1 idxA) (ix4 di w mm ch)
      = A1 (ix4 di ⟨min (idxW w.val mm.val).toInt.toNat 2, by omega⟩ (0 : Fin 1) ch) := by
  unfold Host.gather
  have hidx : broadcastInDim S28x26x1 ![0, 1] bcast_S28x26_S28x26x1_0_1 idxA (ix3 w mm (0 : Fin 1)) = idxW w.val mm.val := by
    refine (broadcastInDim_apply _ bcast_S28x26_S28x26x1_0_1 _ (ix3 w mm (0 : Fin 1)) (ix2 w mm) fun a => ?_).trans (idxA_apply w mm)
    match a with
    | ⟨0, _⟩ => rfl
    | ⟨1, _⟩ => rfl
  have hop : gather_S3x3x32_S28x26x1_S3x28x26x32_03_1_n_n_1_2_3132.operandIdx (ix4 di w mm ch)
      (broadcastInDim S28x26x1 ![0, 1] bcast_S28x26_S28x26x1_0_1 idxA)
      = ix3 di ⟨min (idxW w.val mm.val).toInt.toNat 2, by omega⟩ ch := by
    funext a; refine Fin.ext ?_
    match a with
    | ⟨0, _⟩ =>
      show gather_S3x3x32_S28x26x1_S3x28x26x32_03_1_n_n_1_2_3132.start (ix4 di w mm ch) _ 0 + gather_S3x3x32_S28x26x1_S3x28x26x32_03_1_n_n_1_2_3132.batchCoord (ix4 di w mm ch) 0
        + gather_S3x3x32_S28x26x1_S3x28x26x32_03_1_n_n_1_2_3132.offCoord (ix4 di w mm ch) 0 = di.val
      rw [GatherDims.batchCoord_eq_zero _ _ _ (by decide)]
      have hs : gather_S3x3x32_S28x26x1_S3x28x26x32_03_1_n_n_1_2_3132.start (ix4 di w mm ch) (broadcastInDim S28x26x1 ![0, 1] bcast_S28x26_S28x26x1_0_1 idxA) 0 = 0 := by
        unfold GatherDims.start; exact dif_neg (by decide)
      have ho : gather_S3x3x32_S28x26x1_S3x28x26x32_03_1_n_n_1_2_3132.offCoord (ix4 di w mm ch) 0 = di.val := by
        unfold GatherDims.offCoord
        rw [dif_pos (by decide)]
        rfl
      rw [hs, ho]
      omega
    | ⟨1, _⟩ =>
      show min ((broadcastInDim S28x26x1 ![0, 1] bcast_S28x26_S28x26x1_0_1 idxA) (ix3 w mm (0 : Fin 1))).toInt.toNat 2 + 0 + 0 = _
      rw [hidx]
      rfl
    | ⟨2, _⟩ =>
      show gather_S3x3x32_S28x26x1_S3x28x26x32_03_1_n_n_1_2_3132.start (ix4 di w mm ch) _ 2 + gather_S3x3x32_S28x26x1_S3x28x26x32_03_1_n_n_1_2_3132.batchCoord (ix4 di w mm ch) 2
        + gather_S3x3x32_S28x26x1_S3x28x26x32_03_1_n_n_1_2_3132.offCoord (ix4 di w mm ch) 2 = ch.val
      rw [GatherDims.batchCoord_eq_zero _ _ _ (by decide)]
      have hs : gather_S3x3x32_S28x26x1_S3x28x26x32_03_1_n_n_1_2_3132.start (ix4 di w mm ch) (broadcastInDim S28x26x1 ![0, 1] bcast_S28x26_S28x26x1_0_1 idxA) 2 = 0 := by
        unfold GatherDims.start; exact dif_neg (by decide)
      have ho : gather_S3x3x32_S28x26x1_S3x28x26x32_03_1_n_n_1_2_3132.offCoord (ix4 di w mm ch) 2 = ch.val := by
        unfold GatherDims.offCoord
        rw [dif_pos (by decide)]
        rfl
      rw [hs, ho]
      omega
  rw [hop]
  refine shapeCast_apply _ _ _ _ ?_
  show (S3x3x1x32.rowMajor (ix4 di ⟨min (idxW w.val mm.val).toInt.toNat 2, by omega⟩ (0 : Fin 1) ch)).val
    = (S3x3x32.rowMajor (ix3 di ⟨min (idxW w.val mm.val).toInt.toNat 2, by omega⟩ ch)).val
  rw [Shape.rowMajor_val_four, Shape.rowMajor_val_three]
  show ((di.val * 3 + min (idxW w.val mm.val).toInt.toNat 2) * 1 + 0) * 32 + ch.val
    = (di.val * 3 + min (idxW w.val mm.val).toInt.toNat 2) * 32 + ch.val
  omega

/-- The banded array at `(di, w, m, c)`. -/
theorem bandA_apply (A1 : S3x3x1x32.Idx → EReal) (di : Fin 3) (w : Fin 28) (mm : Fin 26) (ch : Fin 32) :
    bandA A1 (ix4 di w mm ch)
      = if h : mm.val ≤ w.val ∧ w.val ≤ mm.val + 2 then A1 (ix4 di ⟨w.val - mm.val, by omega⟩ (0 : Fin 1) ch) else 0 := by
  unfold bandA
  rw [select_apply, gather_apply]
  have hc : broadcastInDim S3x28x26x32 ![0, 1, 2, 3] bcast_S1x28x26x1_S3x28x26x32_0_1_2_3
      (broadcastInDim S1x28x26x1 ![1, 2] bcast_S28x26_S1x28x26x1_1_2 maskA) (ix4 di w mm ch) = maskBit w.val mm.val := by
    refine (broadcastInDim_apply _ bcast_S1x28x26x1_S3x28x26x32_0_1_2_3 _ (ix4 di w mm ch)
      (ix4 (0 : Fin 1) w mm (0 : Fin 1)) fun a => ?_).trans ?_
    · match a with
      | ⟨0, _⟩ => rfl
      | ⟨1, _⟩ => rfl
      | ⟨2, _⟩ => rfl
      | ⟨3, _⟩ => rfl
    refine (broadcastInDim_apply _ bcast_S28x26_S1x28x26x1_1_2 _ (ix4 (0 : Fin 1) w mm (0 : Fin 1)) (ix2 w mm) fun a => ?_).trans
      (maskA_apply w mm)
    match a with
    | ⟨0, _⟩ => rfl
    | ⟨1, _⟩ => rfl
  rw [hc, broadcastInDim_scalar_apply]
  by_cases hb : mm.val ≤ w.val ∧ w.val ≤ mm.val + 2
  · rw [dif_pos hb, (mask_iff w mm).mpr hb, select_one]
    exact congrArg A1 (congrArg (fun q => ix4 di q (0 : Fin 1) ch) (Fin.ext (idx_val w mm hb)))
  · rw [dif_neg hb, eq_zero_of_ne_one (fun h1 => hb ((mask_iff w mm).mp h1)), select_zero]
    show Ideal.ofBits .f32 0x00000000#32 = 0
    exact Ideal.ofBits_zero_f32

variable (m : (ℓ : Loc nD τ sig) → Buf (Elt Ideal) ℓ)

/-- The banded matrix the region is given, at row `di * 28 + w`, column `m * 32 + c`. -/
theorem V_v24_apply (c : Dev nD) (di : Fin 3) (w : Fin 28) (mm : Fin 26) (ch : Fin 32) :
    ((V m c main_v24 : S84x832.Idx → EReal) (ix2 (groupPos di w) (groupPos mm ch)) : EReal)
      = if h : mm.val ≤ w.val ∧ w.val ≤ mm.val + 2 then
          m ((c : Thread nD τ).loc main_arg1) (ix4 di ⟨w.val - mm.val, by omega⟩ (0 : Fin 1) ch)
        else (0 : EReal) := by
  have e : (V m c main_v24 : S84x832.Idx → EReal)
      = shapeCast S84x832 (bandA (m ((c : Thread nD τ).loc main_arg1))) shapeCasts_S3x28x26x32_S84x832 := by host_read; rfl
  rw [e]
  refine (shapeCast_flat22_apply (a := 3) (b := 28) (c := 26) (d := 32) _ shapeCasts_S3x28x26x32_S84x832 di w mm ch).trans ?_
  exact bandA_apply _ di w mm ch

end Cert.KernelIdeal.Hand

end
-- ==== Proof.LibSelectRow.lean ====
/-
  A row of zeros with a single one, against a column: the sum of the products is the column's entry where the one is.
  On the extended reals `0 * x = 0` and `1 * x = x` for every `x`, infinite ones included, so nothing is assumed of the column.
-/
import Mathlib.Data.EReal.Basic
import Mathlib.Algebra.BigOperators.Fin

open scoped BigOperators

namespace Idealize.ShloMosaic.ValueIdx

/-- `∑ t, (if t = a then 1 else 0) * y t = y a` on the extended reals. -/
theorem sum_indicator_mul {n : ℕ} (a : Fin n) (s y : Fin n → EReal) (hs : ∀ t, s t = if t = a then 1 else 0) :
    ∑ t : Fin n, s t * y t = y a := by
  rw [Finset.sum_eq_single a]
  · rw [hs a, if_pos rfl, one_mul]
  · intro t _ hne
    rw [hs t, if_neg hne, zero_mul]
  · intro h
    exact absurd (Finset.mem_univ a) h

end Idealize.ShloMosaic.ValueIdx
-- ==== Proof.LibTwoLanes.lean ====
/-
  Reductions along the rows of a two-column matrix.

  Over two lanes a fold is a single binary operation: the maximum of a row, started from a value b, is
  max(x₀, max(x₁, b)), and the sum of a row is x₀ + x₁. Started from the word of minus infinity — the bottom of the
  extended reals — the row maximum is max(x₀, x₁). (The general forms over b lanes are
  `multiReduction_maximumf_rows_apply` and `multiReduction_add_rows_apply`.)
-/
import proofs.«139938_g2000005272685101_pallaspilot1_161_3_alg».proof.Proof.LibLaneMax

open scoped BigOperators

namespace Idealize.ShloMosaic.ValueIdx

open Idealize.ShloMosaic

/-- The fold of the maximum over two lanes, from a starting value `b`: `max (f 0) (max (f 1) b)`. -/
theorem fold_max_univ_two {α : Type} [LinearOrder α] (f : Fin 2 → α) (b : α) :
    (Finset.univ : Finset (Fin 2)).fold max b f = max (f 0) (max (f 1) b) := by
  have h : (Finset.univ : Finset (Fin 2)) = insert (0 : Fin 2) {(1 : Fin 2)} := by decide
  rw [h, Finset.fold_insert (by decide), Finset.fold_singleton]

/-- The 32-bit word of minus infinity reads as the bottom of the extended reals. -/
theorem ofBits_neg_inf_f32 : Ideal.ofBits .f32 0xFF800000#32 = (⊥ : EReal) := by
  simp [Ideal.ofBits, Ideal.ieee]

/-- The maximum of an `[a, 2]` matrix over axis 1, started from minus infinity, read at row `i`: the larger of the
    row's two entries. -/
theorem multiReduction_maximumf_two_apply {a : ℕ} (src : FVec Ideal ⟨2, ![a, 2]⟩ .f32)
    (h : (⟨2, ![a, 2]⟩ : Shape).Reduces [1] ⟨1, ![a]⟩) (hφ : FKind.Formats .f32)
    (hacc : (0xFF800000#32 : BitVec FTy.f32.bits) = FKind.maximumf.neutral .f32 hφ) (i : Fin a) :
    multiReduction .maximumf [1] ⟨1, ![a]⟩ src 0xFF800000#32 h hφ hacc (ix1 i)
      = max (src (ix2 i (0 : Fin 2))) (src (ix2 i (1 : Fin 2))) := by
  refine (multiReduction_maximumf_rows_apply src _ h hφ hacc i).trans ?_
  rw [fold_max_univ_two]
  show max _ (max _ (Ideal.ofBits .f32 0xFF800000#32)) = _
  rw [ofBits_neg_inf_f32, max_bot_right]

/-- The sum of an `[a, 2]` matrix over axis 1, read at row `i`: the sum of the row's two entries. -/
theorem multiReduction_add_two_apply {a : ℕ} {φ : FTy} (src : FVec Ideal ⟨2, ![a, 2]⟩ φ) (acc : BitVec φ.bits)
    (h : (⟨2, ![a, 2]⟩ : Shape).Reduces [1] ⟨1, ![a]⟩) (hφ : FKind.Formats φ) (hacc : acc = FKind.add.neutral φ hφ) (i : Fin a) :
    multiReduction .add [1] ⟨1, ![a]⟩ src acc h hφ hacc (ix1 i)
      = src (ix2 i (0 : Fin 2)) + src (ix2 i (1 : Fin 2)) :=
  (multiReduction_add_rows_apply src acc h hφ hacc i).trans (Fin.sum_univ_two _)

end Idealize.ShloMosaic.ValueIdx
-- ==== Proof.Bridge.lean ====
/-
  One image through the two arrangements gives the same 128 features.

  Assumed of the image and the first-layer arrays (proved from the host operations elsewhere): the selection matrices are
  zero except for a one at column `2 w` of row `w`, and the first convolution in banded-matrix form is the bias plus the
  nine terms. Then, layer by layer: the selection product picks entry `2 w`, so a pooled row of the block-of-8 program is
  the maximum over a 2 x 2 group, the same four numbers the block-of-64 program folds; a patch row's column `q` names the
  same (row shift, column shift, channel) in both spellings; and the last pool is the same four numbers.
-/
import proofs.«139938_g2000005272685101_pallaspilot1_161_3_alg».proof.Proof.RefValue
import proofs.«139938_g2000005272685101_pallaspilot1_161_3_alg».proof.Proof.SpecLayers
import proofs.«139938_g2000005272685101_pallaspilot1_161_3_alg».proof.Proof.LibSelectRow
import proofs.«139938_g2000005272685101_pallaspilot1_161_3_alg».proof.Proof.LibTwoLanes

set_option maxRecDepth 65536
set_option maxHeartbeats 1000000

open scoped BigOperators

noncomputable section

namespace Cert.Bridge

open Cert.Net Cert.ReferenceIdeal Cert.ReferenceIdeal.Gen Cert.ReferenceIdeal.Hand Idealize.ShloMosaic Idealize.ShloMosaic.ValueIdx

theorem botW_eq : botW = (⊥ : EReal) := ofBits_neg_inf_f32

/-- A fold of the maximum over two entries from minus infinity is the larger of the two. -/
theorem fold2 (f : Fin 2 → EReal) : (Finset.univ : Finset (Fin 2)).fold max botW f = max (f 0) (f 1) := by
  rw [fold_max_univ_two, botW_eq, max_bot_right]

/-- `convR` depends on its indices through their values only. -/
theorem convR_congr (xt : FVec Ideal S28x28 .f32) (w1 : FVec Ideal S9x32 .f32) (b1 : FVec Ideal S1x32 .f32)
    {o0 o1 o2 o0' o1' o2' : Fin 28} {m m' : Fin 26} (ch : Fin 32) (h0 : o0.val = o0'.val) (h1 : o1.val = o1'.val)
    (h2 : o2.val = o2'.val) (hm : m.val = m'.val) :
    convR xt w1 b1 o0 o1 o2 m ch = convR xt w1 b1 o0' o1' o2' m' ch := by
  obtain rfl := Fin.ext h0; obtain rfl := Fin.ext h1; obtain rfl := Fin.ext h2; obtain rfl := Fin.ext hm; rfl

section image

variable (x : Fin 28 → Fin 28 → EReal) (xt : FVec Ideal S28x28 .f32) (w1 : FVec Ideal S9x32 .f32) (b1 : FVec Ideal S1x32 .f32)
  (W1t : FVec Ideal ⟨2, ![84, 832]⟩ .f32) (B1t : FVec Ideal ⟨2, ![1, 832]⟩ .f32) (sel1 : FVec Ideal S13x25 .f32)
  (sel2 : FVec Ideal S5x10 .f32) (b2 : FVec Ideal S1x64 .f32) (W2 : Vec Ideal S288x64 .f32) (b3 : Vec Ideal S1x128 .f32)
  (W3 : Vec Ideal S576x128 .f32)

/-- The first layer pooled, in the block-of-64 program's form. -/
abbrev P1 : Img 13 13 32 := pool2x2 (H := 13) (W := 13) (conv1T x W1t B1t)

/-- The second layer pooled. -/
abbrev P2 : Img 5 5 64 :=
  pool2x2 (H := 5) (W := 5) (crop (by decide) (by decide) (conv3x3 (H := 11) (W := 11) (C := 32) (P1 x W1t B1t) W2 b2))

variable (hsel1 : ∀ (w : Fin 13) (t : Fin 25), sel1 (ix2 w t) = if t.val = 2 * w.val then 1 else 0)
  (hsel2 : ∀ (w : Fin 5) (t : Fin 10), sel2 (ix2 w t) = if t.val = 2 * w.val then 1 else 0)
  (hc1 : ∀ (h m : Fin 26) (c : Fin 32), conv1T x W1t B1t h m c
      = convR xt w1 b1 ⟨h.val, by have := h.isLt; omega⟩ ⟨h.val + 1, by have := h.isLt; omega⟩ ⟨h.val + 2, by have := h.isLt; omega⟩ m c)

include hsel1 hc1 in
/-- A pooled first-layer row of the block-of-8 program is the block-of-64 program's pooled map. -/
theorem pooled1_eq (p : Fin 10) (j : Fin 11) (q : Fin 96) :
    groupE (F := Ideal) p xt w1 b1 sel1 (ix2 j q)
      = P1 x W1t B1t ⟨p.val, by have := p.isLt; omega⟩ ⟨j.val + q.val / 32, by have := j.isLt; have := q.isLt; omega⟩
          ⟨q.val % 32, by omega⟩ := by
  have hj := j.isLt; have hq := q.isLt; have hp := p.isLt
  rw [groupE_apply]
  rw [sum_indicator_mul (⟨2 * (j.val + q.val / 32), by omega⟩ : Fin 25) _ _
    (fun t => (hsel1 _ t).trans (if_congr ⟨fun h => Fin.ext h, fun h => congrArg Fin.val h⟩ rfl rfl))]
  unfold P1 pool2x2
  simp only [fold2]
  unfold pairR
  simp only [hc1]
  refine congrArg₂ max (congrArg₂ max ?_ ?_) (congrArg₂ max ?_ ?_) <;>
    refine convR_congr xt w1 b1 _ ?_ ?_ ?_ ?_ <;> simp only [off, groupPos_val] <;> omega

/-- An image map depends on its indices through their values only. -/
theorem img_congr {H W C : ℕ} (y : Img H W C) {a a' : Fin H} {b b' : Fin W} {c c' : Fin C} (ha : a.val = a'.val)
    (hb : b.val = b'.val) (hc : c.val = c'.val) : y a b c = y a' b' c' := by
  obtain rfl := Fin.ext ha; obtain rfl := Fin.ext hb; obtain rfl := Fin.ext hc; rfl

include hsel1 hc1 in
/-- A second-layer row of the block-of-8 program is the block-of-64 program's second layer at that row. -/
theorem row2_eq (i : Fin 8) (j : Fin 11) (o : Fin 64) :
    row2 (F := Ideal) i xt w1 b1 sel1 b2 W2 (ix2 j o)
      = conv3x3 (H := 11) (W := 11) (C := 32) (P1 x W1t B1t) W2 b2 ⟨i.val, by have := i.isLt; omega⟩ j o := by
  have hi := i.isLt; have hj := j.isLt
  unfold row2
  rw [pay134_apply]
  unfold conv3x3
  refine congrArg (fun t => max (t + b2 (ix2 (0 : Fin 1) o)) zeroW) (Finset.sum_congr rfl fun q _ => congrArg (· * W2 (ix2 q o)) ?_)
  have hq := q.isLt
  unfold patch2
  have h3 : q.val / 96 = 0 ∨ q.val / 96 = 1 ∨ q.val / 96 = 2 := by omega
  rcases h3 with h | h | h
  · have e : (⟨q.val / 96, by omega⟩ : Fin 3) = 0 := Fin.ext h
    rw [e]
    show groupE (F := Ideal) ⟨i.val, by omega⟩ xt w1 b1 sel1 (ix2 j ⟨q.val % 96, by omega⟩) = _
    rw [pooled1_eq x xt w1 b1 W1t B1t sel1 hsel1 hc1]
    exact img_congr _ (by simp only [shiftRow, tap]; omega) (by simp only [shiftCol, tap]; omega) (by simp only [chan]; omega)
  · have e : (⟨q.val / 96, by omega⟩ : Fin 3) = 1 := Fin.ext h
    rw [e]
    show groupE (F := Ideal) ⟨i.val + 1, by omega⟩ xt w1 b1 sel1 (ix2 j ⟨q.val % 96, by omega⟩) = _
    rw [pooled1_eq x xt w1 b1 W1t B1t sel1 hsel1 hc1]
    exact img_congr _ (by simp only [shiftRow, tap]; omega) (by simp only [shiftCol, tap]; omega) (by simp only [chan]; omega)
  · have e : (⟨q.val / 96, by omega⟩ : Fin 3) = 2 := Fin.ext h
    rw [e]
    show groupE (F := Ideal) ⟨i.val + 2, by omega⟩ xt w1 b1 sel1 (ix2 j ⟨q.val % 96, by omega⟩) = _
    rw [pooled1_eq x xt w1 b1 W1t B1t sel1 hsel1 hc1]
    exact img_congr _ (by simp only [shiftRow, tap]; omega) (by simp only [shiftCol, tap]; omega) (by simp only [chan]; omega)

include hsel1 hsel2 hc1 in
/-- A pooled second-layer row of the block-of-8 program is the block-of-64 program's pooled map. -/
theorem pooled2_eq (q : Fin 4) (j : Fin 3) (s : Fin 192) :
    pooled2 (F := Ideal) q xt w1 b1 sel1 b2 sel2 W2 (ix2 j s)
      = P2 x W1t B1t b2 W2 ⟨q.val, by have := q.isLt; omega⟩ ⟨j.val + s.val / 64, by have := j.isLt; have := s.isLt; omega⟩
          ⟨s.val % 64, by omega⟩ := by
  have hq := q.isLt; have hj := j.isLt; have hs := s.isLt
  unfold pooled2
  rw [pool2of_apply]
  rw [sum_indicator_mul (⟨2 * (j.val + s.val / 64), by omega⟩ : Fin 10) _ _
    (fun t => (hsel2 _ t).trans (if_congr ⟨fun h => Fin.ext h, fun h => congrArg Fin.val h⟩ rfl rfl))]
  unfold P2 pool2x2 crop
  simp only [fold2, maximumf_apply, row2_eq x xt w1 b1 W1t B1t sel1 b2 W2 hsel1 hc1]
  refine congrArg₂ max (congrArg₂ max ?_ ?_) (congrArg₂ max ?_ ?_) <;>
    exact img_congr _ (by simp only [Fin.coe_castLE, groupPos_val]; omega) (by simp only [Fin.coe_castLE, groupPos_val]; omega) rfl

/-- A fold of the maximum over four entries from minus infinity. -/
theorem fold4 (f : Fin 4 → EReal) :
    (Finset.univ : Finset (Fin 4)).fold max botW f = max (f 0) (max (f 1) (max (f 2) (f 3))) := by
  have h : (Finset.univ : Finset (Fin 4)) = insert (0 : Fin 4) (insert (1 : Fin 4) (insert (2 : Fin 4) {(3 : Fin 4)})) := by decide
  rw [h, Finset.fold_insert (by decide), Finset.fold_insert (by decide), Finset.fold_insert (by decide), Finset.fold_singleton,
    botW_eq, max_bot_right]

include hsel1 hsel2 hc1 in
/-- A third-layer patch row of the block-of-8 program names the block-of-64 program's pooled second map. -/
theorem patch3_eq (i : Fin 2) (j : Fin 3) (q : Fin 576) :
    patch3 (pooled2 (F := Ideal) ⟨i.val, by have := i.isLt; omega⟩ xt w1 b1 sel1 b2 sel2 W2)
        (pooled2 (F := Ideal) ⟨i.val + 1, by have := i.isLt; omega⟩ xt w1 b1 sel1 b2 sel2 W2)
        (pooled2 (F := Ideal) ⟨i.val + 2, by have := i.isLt; omega⟩ xt w1 b1 sel1 b2 sel2 W2) j q
      = P2 x W1t B1t b2 W2 (shiftRow (H := 3) ⟨i.val, by have := i.isLt; omega⟩ (tap (C := 64) q)) (shiftCol (W := 3) j (tap (C := 64) q))
          (chan (C := 64) q) := by
  have hi := i.isLt; have hj := j.isLt; have hq := q.isLt
  unfold patch3
  have h3 : q.val / 192 = 0 ∨ q.val / 192 = 1 ∨ q.val / 192 = 2 := by omega
  rcases h3 with h | h | h
  · have e : (⟨q.val / 192, by omega⟩ : Fin 3) = 0 := Fin.ext h
    rw [e]
    show pooled2 (F := Ideal) ⟨i.val, by omega⟩ xt w1 b1 sel1 b2 sel2 W2 (ix2 j ⟨q.val % 192, by omega⟩) = _
    rw [pooled2_eq x xt w1 b1 W1t B1t sel1 sel2 b2 W2 hsel1 hsel2 hc1]
    exact img_congr _ (by simp only [shiftRow, tap]; omega) (by simp only [shiftCol, tap]; omega) (by simp only [chan]; omega)
  · have e : (⟨q.val / 192, by omega⟩ : Fin 3) = 1 := Fin.ext h
    rw [e]
    show pooled2 (F := Ideal) ⟨i.val + 1, by omega⟩ xt w1 b1 sel1 b2 sel2 W2 (ix2 j ⟨q.val % 192, by omega⟩) = _
    rw [pooled2_eq x xt w1 b1 W1t B1t sel1 sel2 b2 W2 hsel1 hsel2 hc1]
    exact img_congr _ (by simp only [shiftRow, tap]; omega) (by simp only [shiftCol, tap]; omega) (by simp only [chan]; omega)
  · have e : (⟨q.val / 192, by omega⟩ : Fin 3) = 2 := Fin.ext h
    rw [e]
    show pooled2 (F := Ideal) ⟨i.val + 2, by omega⟩ xt w1 b1 sel1 b2 sel2 W2 (ix2 j ⟨q.val % 192, by omega⟩) = _
    rw [pooled2_eq x xt w1 b1 W1t B1t sel1 sel2 b2 W2 hsel1 hsel2 hc1]
    exact img_congr _ (by simp only [shiftRow, tap]; omega) (by simp only [shiftCol, tap]; omega) (by simp only [chan]; omega)

/-- The third layer of the block-of-64 program's specification on this image. -/
abbrev Y3 : Img 3 3 128 := conv3x3 (H := 3) (W := 3) (C := 64) (P2 x W1t B1t b2 W2) W3 b3

include hsel1 hsel2 hc1 in
/-- The third layer's first row. -/
theorem conv3a_eq (j : Fin 3) (o : Fin 128) :
    k0_pay140 (F := Ideal) (k0_pay145 b3) (pooled2 0 xt w1 b1 sel1 b2 sel2 W2) (pooled2 1 xt w1 b1 sel1 b2 sel2 W2)
        (pooled2 2 xt w1 b1 sel1 b2 sel2 W2) W3 (ix2 j o)
      = Y3 x W1t B1t b2 W2 b3 W3 0 j o := by
  rw [pay140_apply]
  unfold k0_pay145
  rw [shapeCast_self]
  unfold Y3 conv3x3
  refine congrArg (fun t => max (t + b3 (ix2 (0 : Fin 1) o)) zeroW) (Finset.sum_congr rfl fun q _ => congrArg (· * W3 (ix2 q o)) ?_)
  exact patch3_eq x xt w1 b1 W1t B1t sel1 sel2 b2 W2 hsel1 hsel2 hc1 0 j q

include hsel1 hsel2 hc1 in
/-- The third layer's second row. -/
theorem conv3b_eq (j : Fin 3) (o : Fin 128) :
    c3row (F := Ideal) b3
        (concatenate S3x576 1 [⟨S3x192, pooled2 1 xt w1 b1 sel1 b2 sel2 W2⟩, ⟨S3x192, pooled2 2 xt w1 b1 sel1 b2 sel2 W2⟩,
          ⟨S3x192, pooled2 3 xt w1 b1 sel1 b2 sel2 W2⟩] concatenates_S3x192_S3x192_S3x192_S3x576_d1) W3 (ix2 j o)
      = Y3 x W1t B1t b2 W2 b3 W3 1 j o := by
  rw [c3row_apply]
  unfold Y3 conv3x3
  refine congrArg (fun t => max (t + b3 (ix2 (0 : Fin 1) o)) zeroW) (Finset.sum_congr rfl fun q _ => congrArg (· * W3 (ix2 q o)) ?_)
  have hq := q.isLt
  refine (concat3_cols_apply (n := 3) (K := 192)
    ![pooled2 (F := Ideal) 1 xt w1 b1 sel1 b2 sel2 W2, pooled2 (F := Ideal) 2 xt w1 b1 sel1 b2 sel2 W2,
      pooled2 (F := Ideal) 3 xt w1 b1 sel1 b2 sel2 W2] concatenates_S3x192_S3x192_S3x192_S3x576_d1 j q
    ⟨q.val / 192, by omega⟩ ⟨q.val % 192, by omega⟩ rfl rfl).trans ?_
  exact patch3_eq x xt w1 b1 W1t B1t sel1 sel2 b2 W2 hsel1 hsel2 hc1 1 j q

include hsel1 hsel2 hc1 in
/-- ONE IMAGE: the block-of-8 program's feature row is the block-of-64 program's. -/
theorem feat_eq (ch : Fin 128) :
    imgFeat (F := Ideal) w1 b1 b2 b3 sel1 sel2 xt W2 W3 (ix2 (0 : Fin 1) ch)
      = featFrom2 (conv2OfImage x W1t B1t W2 b2) W3 b3 ch := by
  unfold imgFeat
  rw [lastRow_apply, conv3a_eq x xt w1 b1 W1t B1t sel1 sel2 b2 W2 b3 W3 hsel1 hsel2 hc1,
    conv3a_eq x xt w1 b1 W1t B1t sel1 sel2 b2 W2 b3 W3 hsel1 hsel2 hc1,
    conv3b_eq x xt w1 b1 W1t B1t sel1 sel2 b2 W2 b3 W3 hsel1 hsel2 hc1,
    conv3b_eq x xt w1 b1 W1t B1t sel1 sel2 b2 W2 b3 W3 hsel1 hsel2 hc1]
  unfold featFrom2 conv2OfImage pool3
  rw [fold4]
  show max (max (Y3 x W1t B1t b2 W2 b3 W3 0 0 ch) (Y3 x W1t B1t b2 W2 b3 W3 1 0 ch))
      (max (Y3 x W1t B1t b2 W2 b3 W3 0 1 ch) (Y3 x W1t B1t b2 W2 b3 W3 1 1 ch))
    = max (Y3 x W1t B1t b2 W2 b3 W3 0 0 ch) (max (Y3 x W1t B1t b2 W2 b3 W3 0 1 ch)
        (max (Y3 x W1t B1t b2 W2 b3 W3 1 0 ch) (Y3 x W1t B1t b2 W2 b3 W3 1 1 ch)))
  simp only [max_assoc, max_left_comm, max_comm]

end image

end Cert.Bridge

end
-- ==== Proof.Toeplitz.lean ====
/-
  The first convolution in its two spellings agrees.

  The block-of-64 program multiplies three image rows laid side by side (84 entries) by an 84 x 832 matrix whose entry at
  row `di * 28 + w`, column `m * 32 + c` is the 3 x 3 weight `(di, w - m, c)` when `m ≤ w ≤ m + 2` and zero otherwise. A zero
  entry contributes nothing (`x * 0 = 0` on the extended reals for every `x`), so the 84-term sum is the nine terms of the
  window at column `m`; the block-of-8 program adds those nine terms to the bias one after another. Addition on the
  extended reals is commutative and associative, so the two totals agree.
-/
import proofs.«139938_g2000005272685101_pallaspilot1_161_3_alg».proof.Proof.RefValue
import proofs.«139938_g2000005272685101_pallaspilot1_161_3_alg».proof.Proof.SpecLayers

set_option maxRecDepth 65536
set_option maxHeartbeats 1000000

open scoped BigOperators

noncomputable section

namespace Cert.Bridge

open Cert.Net Cert.ReferenceIdeal Cert.ReferenceIdeal.Gen Cert.ReferenceIdeal.Hand Idealize.ShloMosaic Idealize.ShloMosaic.ValueIdx

/-- A row against a band of three: only the three entries under the band count. -/
theorem band_sum (A : Fin 28 → EReal) (Wd : Fin 3 → EReal) (m : Fin 26) :
    ∑ w : Fin 28, A w * (if h : m.val ≤ w.val ∧ w.val ≤ m.val + 2 then Wd ⟨w.val - m.val, by omega⟩ else 0)
      = A ⟨m.val, by have := m.isLt; omega⟩ * Wd 0 + A ⟨m.val + 1, by have := m.isLt; omega⟩ * Wd 1
          + A ⟨m.val + 2, by have := m.isLt; omega⟩ * Wd 2 := by
  have hm := m.isLt
  set a0 : Fin 28 := ⟨m.val, by omega⟩ with ha0
  set a1 : Fin 28 := ⟨m.val + 1, by omega⟩ with ha1
  set a2 : Fin 28 := ⟨m.val + 2, by omega⟩ with ha2
  have h01 : a0 ≠ a1 := fun h => by have := congrArg Fin.val h; simp only [ha0, ha1] at this; omega
  have h02 : a0 ≠ a2 := fun h => by have := congrArg Fin.val h; simp only [ha0, ha2] at this; omega
  have h12 : a1 ≠ a2 := fun h => by have := congrArg Fin.val h; simp only [ha1, ha2] at this; omega
  rw [← Finset.add_sum_erase Finset.univ _ (Finset.mem_univ a0),
    ← Finset.add_sum_erase (Finset.univ.erase a0) _ (Finset.mem_erase.mpr ⟨h01.symm, Finset.mem_univ a1⟩),
    ← Finset.add_sum_erase ((Finset.univ.erase a0).erase a1) _
      (Finset.mem_erase.mpr ⟨h12.symm, Finset.mem_erase.mpr ⟨h02.symm, Finset.mem_univ a2⟩⟩)]
  rw [Finset.sum_eq_zero, add_zero, ← add_assoc]
  · have e0 : (if h : m.val ≤ a0.val ∧ a0.val ≤ m.val + 2 then Wd ⟨a0.val - m.val, by omega⟩ else 0) = Wd 0 := by
      rw [dif_pos ⟨by simp only [ha0]; omega, by simp only [ha0]; omega⟩]; exact congrArg Wd (Fin.ext (by simp only [ha0]; omega))
    have e1 : (if h : m.val ≤ a1.val ∧ a1.val ≤ m.val + 2 then Wd ⟨a1.val - m.val, by omega⟩ else 0) = Wd 1 := by
      rw [dif_pos ⟨by simp only [ha1]; omega, by simp only [ha1]; omega⟩]; exact congrArg Wd (Fin.ext (by simp only [ha1]; omega))
    have e2 : (if h : m.val ≤ a2.val ∧ a2.val ≤ m.val + 2 then Wd ⟨a2.val - m.val, by omega⟩ else 0) = Wd 2 := by
      rw [dif_pos ⟨by simp only [ha2]; omega, by simp only [ha2]; omega⟩]; exact congrArg Wd (Fin.ext (by simp only [ha2]; omega))
    rw [e0, e1, e2]
  · intro w hw
    have hw2 : w ≠ a2 := (Finset.mem_erase.mp hw).1
    have hw1 : w ≠ a1 := (Finset.mem_erase.mp (Finset.mem_erase.mp hw).2).1
    have hw0 : w ≠ a0 := (Finset.mem_erase.mp (Finset.mem_erase.mp (Finset.mem_erase.mp hw).2).2).1
    have hn : ¬ (m.val ≤ w.val ∧ w.val ≤ m.val + 2) := by
      rintro ⟨hl, hu⟩
      have c0 : w.val ≠ m.val := fun h => hw0 (Fin.ext (by simp only [ha0]; exact h))
      have c1 : w.val ≠ m.val + 1 := fun h => hw1 (Fin.ext (by simp only [ha1]; exact h))
      have c2 : w.val ≠ m.val + 2 := fun h => hw2 (Fin.ext (by simp only [ha2]; exact h))
      omega
    rw [dif_neg hn, mul_zero]

/-- THE TWO SPELLINGS OF THE FIRST CONVOLUTION AGREE, given the banded matrix's entries, the weight matrix's rows, the
    repeated bias and the transposed image. -/
theorem conv1_forms (x : Fin 28 → Fin 28 → EReal) (xt : FVec Ideal S28x28 .f32) (w1 : FVec Ideal S9x32 .f32)
    (b1 : FVec Ideal S1x32 .f32) (W1t : FVec Ideal ⟨2, ![84, 832]⟩ .f32) (B1t : FVec Ideal ⟨2, ![1, 832]⟩ .f32)
    (A1 : Fin 3 → Fin 3 → Fin 32 → EReal)
    (hxt : ∀ (w hh : Fin 28), xt (ix2 w hh) = x hh w)
    (hw1 : ∀ (di dj : Fin 3) (ch : Fin 32),
      w1 (ix2 ⟨3 * di.val + dj.val, by have := di.isLt; have := dj.isLt; omega⟩ ch) = A1 di dj ch)
    (hW : ∀ (di : Fin 3) (w : Fin 28) (mm : Fin 26) (ch : Fin 32), W1t (ix2 (groupPos di w) (groupPos mm ch))
      = if hb : mm.val ≤ w.val ∧ w.val ≤ mm.val + 2 then A1 di ⟨w.val - mm.val, by omega⟩ ch else 0)
    (hB : ∀ (mm : Fin 26) (ch : Fin 32), B1t (ix2 (0 : Fin 1) (groupPos mm ch)) = b1 (ix2 (0 : Fin 1) ch))
    (h m : Fin 26) (c : Fin 32) :
    conv1T x W1t B1t h m c
      = convR xt w1 b1 ⟨h.val, by have := h.isLt; omega⟩ ⟨h.val + 1, by have := h.isLt; omega⟩ ⟨h.val + 2, by have := h.isLt; omega⟩ m c := by
  have hh := h.isLt; have hm := m.isLt
  unfold conv1T convR
  refine congrArg (fun t => max t zeroW) ?_
  rw [hB]
  -- the 84 columns as (row shift, image column) pairs
  have hsplit : (∑ k : Fin 84, x ⟨h.val + k.val / 28, by have := k.isLt; omega⟩ ⟨k.val % 28, by omega⟩ * W1t (ix2 k (groupPos m c)))
      = ∑ di : Fin 3, (x ⟨h.val + di.val, by have := di.isLt; omega⟩ ⟨m.val, by omega⟩ * A1 di 0 c
          + x ⟨h.val + di.val, by have := di.isLt; omega⟩ ⟨m.val + 1, by omega⟩ * A1 di 1 c
          + x ⟨h.val + di.val, by have := di.isLt; omega⟩ ⟨m.val + 2, by omega⟩ * A1 di 2 c) := by
    rw [← Equiv.sum_comp (finProdFinEquiv (m := 3) (n := 28))
      (fun k : Fin (3 * 28) => x ⟨h.val + k.val / 28, by have := k.isLt; omega⟩ ⟨k.val % 28, by omega⟩ * W1t (ix2 k (groupPos m c))),
      Fintype.sum_prod_type]
    refine Finset.sum_congr rfl fun di _ => ?_
    have hdi := di.isLt
    refine (Finset.sum_congr rfl fun w _ => ?_).trans
      (band_sum (fun w => x ⟨h.val + di.val, by omega⟩ w) (fun dj => A1 di dj c) m)
    have hw := w.isLt
    have ek : finProdFinEquiv (m := 3) (n := 28) (di, w) = groupPos di w :=
      Fin.ext (by simp only [finProdFinEquiv_apply_val, groupPos_val]; omega)
    rw [ek, hW]
    exact congrArg (· * _) (congrArg₂ x (Fin.ext (by simp only [groupPos_val]; omega)) (Fin.ext (by simp only [groupPos_val]; omega)))
  rw [hsplit, Fin.sum_univ_three]
  simp only [Fin.val_zero, Fin.val_one, Fin.val_two, Nat.add_zero]
  have t0 : xt (ix2 ⟨0 + m.val, by omega⟩ ⟨h.val, by omega⟩) * w1 (ix2 0 c)
      = x ⟨h.val + 0, by omega⟩ ⟨m.val, by omega⟩ * A1 0 0 c := by
    rw [hxt, show w1 (ix2 (0 : Fin 9) c) = A1 0 0 c from hw1 0 0 c]
    exact congrArg (· * A1 0 0 c) (congrArg₂ x (Fin.ext (by first | rfl | (simp; done) | (simp; omega) | omega)) (Fin.ext (by first | rfl | (simp; done) | (simp; omega) | omega)))
  have t1 : xt (ix2 ⟨1 + m.val, by omega⟩ ⟨h.val, by omega⟩) * w1 (ix2 1 c)
      = x ⟨h.val + 0, by omega⟩ ⟨m.val + 1, by omega⟩ * A1 0 1 c := by
    rw [hxt, show w1 (ix2 (1 : Fin 9) c) = A1 0 1 c from hw1 0 1 c]
    exact congrArg (· * A1 0 1 c) (congrArg₂ x (Fin.ext (by first | rfl | (simp; done) | (simp; omega) | omega)) (Fin.ext (by first | rfl | (simp; done) | (simp; omega) | omega)))
  have t2 : xt (ix2 ⟨2 + m.val, by omega⟩ ⟨h.val, by omega⟩) * w1 (ix2 2 c)
      = x ⟨h.val + 0, by omega⟩ ⟨m.val + 2, by omega⟩ * A1 0 2 c := by
    rw [hxt, show w1 (ix2 (2 : Fin 9) c) = A1 0 2 c from hw1 0 2 c]
    exact congrArg (· * A1 0 2 c) (congrArg₂ x (Fin.ext (by first | rfl | (simp; done) | (simp; omega) | omega)) (Fin.ext (by first | rfl | (simp; done) | (simp; omega) | omega)))
  have t3 : xt (ix2 ⟨0 + m.val, by omega⟩ ⟨h.val + 1, by omega⟩) * w1 (ix2 3 c)
      = x ⟨h.val + 1, by omega⟩ ⟨m.val, by omega⟩ * A1 1 0 c := by
    rw [hxt, show w1 (ix2 (3 : Fin 9) c) = A1 1 0 c from hw1 1 0 c]
    exact congrArg (· * A1 1 0 c) (congrArg₂ x (Fin.ext (by first | rfl | (simp; done) | (simp; omega) | omega)) (Fin.ext (by first | rfl | (simp; done) | (simp; omega) | omega)))
  have t4 : xt (ix2 ⟨1 + m.val, by omega⟩ ⟨h.val + 1, by omega⟩) * w1 (ix2 4 c)
      = x ⟨h.val + 1, by omega⟩ ⟨m.val + 1, by omega⟩ * A1 1 1 c := by
    rw [hxt, show w1 (ix2 (4 : Fin 9) c) = A1 1 1 c from hw1 1 1 c]
    exact congrArg (· * A1 1 1 c) (congrArg₂ x (Fin.ext (by first | rfl | (simp; done) | (simp; omega) | omega)) (Fin.ext (by first | rfl | (simp; done) | (simp; omega) | omega)))
  have t5 : xt (ix2 ⟨2 + m.val, by omega⟩ ⟨h.val + 1, by omega⟩) * w1 (ix2 5 c)
      = x ⟨h.val + 1, by omega⟩ ⟨m.val + 2, by omega⟩ * A1 1 2 c := by
    rw [hxt, show w1 (ix2 (5 : Fin 9) c) = A1 1 2 c from hw1 1 2 c]
    exact congrArg (· * A1 1 2 c) (congrArg₂ x (Fin.ext (by first | rfl | (simp; done) | (simp; omega) | omega)) (Fin.ext (by first | rfl | (simp; done) | (simp; omega) | omega)))
  have t6 : xt (ix2 ⟨0 + m.val, by omega⟩ ⟨h.val + 2, by omega⟩) * w1 (ix2 6 c)
      = x ⟨h.val + 2, by omega⟩ ⟨m.val, by omega⟩ * A1 2 0 c := by
    rw [hxt, show w1 (ix2 (6 : Fin 9) c) = A1 2 0 c from hw1 2 0 c]
    exact congrArg (· * A1 2 0 c) (congrArg₂ x (Fin.ext (by first | rfl | (simp; done) | (simp; omega) | omega)) (Fin.ext (by first | rfl | (simp; done) | (simp; omega) | omega)))
  have t7 : xt (ix2 ⟨1 + m.val, by omega⟩ ⟨h.val + 2, by omega⟩) * w1 (ix2 7 c)
      = x ⟨h.val + 2, by omega⟩ ⟨m.val + 1, by omega⟩ * A1 2 1 c := by
    rw [hxt, show w1 (ix2 (7 : Fin 9) c) = A1 2 1 c from hw1 2 1 c]
    exact congrArg (· * A1 2 1 c) (congrArg₂ x (Fin.ext (by first | rfl | (simp; done) | (simp; omega) | omega)) (Fin.ext (by first | rfl | (simp; done) | (simp; omega) | omega)))
  have t8 : xt (ix2 ⟨2 + m.val, by omega⟩ ⟨h.val + 2, by omega⟩) * w1 (ix2 8 c)
      = x ⟨h.val + 2, by omega⟩ ⟨m.val + 2, by omega⟩ * A1 2 2 c := by
    rw [hxt, show w1 (ix2 (8 : Fin 9) c) = A1 2 2 c from hw1 2 2 c]
    exact congrArg (· * A1 2 2 c) (congrArg₂ x (Fin.ext (by first | rfl | (simp; done) | (simp; omega) | omega)) (Fin.ext (by first | rfl | (simp; done) | (simp; omega) | omega)))
  simp only [Nat.add_zero] at t0 t1 t2 t3 t4 t5 t6 t7 t8
  rw [t0, t1, t2, t3, t4, t5, t6, t7, t8]
  abel

end Cert.Bridge

end
-- ==== Proof.Final.lean ====
/-
  The two result arrays are one array. With the arguments agreeing, the arrays both regions are given for the second
  and third layers and the dense tail are built by the same operations from the same arguments; image `n` is the same
  28 x 28 numbers, transposed on one side; the banded first-layer matrix holds the 3 x 3 weights on its band and the
  selectors hold their ones at even positions. So row `n` of either result is the tail of the same 128 features.
-/
import proofs.«139938_g2000005272685101_pallaspilot1_161_3_alg».proof.Proof.RefHost
import proofs.«139938_g2000005272685101_pallaspilot1_161_3_alg».proof.Proof.KernelBand
import proofs.«139938_g2000005272685101_pallaspilot1_161_3_alg».proof.Proof.Bridge
import proofs.«139938_g2000005272685101_pallaspilot1_161_3_alg».proof.Proof.Toeplitz

set_option maxRecDepth 65536
set_option maxHeartbeats 4000000

open scoped BigOperators

noncomputable section

namespace Cert.Final

open Idealize.ShloMosaic Idealize.ShloMosaic.ValueIdx Idealize.ShloMosaic.TcCoe Idealize.SL.Sem

theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Hand.resultOf m' c = Cert.KernelIdeal.Hand.resultOf m c := by
  obtain ⟨h0, h1, h2, h3, h4, h5, h6, h7, h8, h9, h10⟩ := hagree
  -- the arrays built alike from the same arguments
  have e4 : (Cert.ReferenceIdeal.Gen.V m' c Cert.ReferenceIdeal.main_v4 : Cert.ReferenceIdeal.S288x64.Idx → EReal) = Cert.KernelIdeal.Gen.V m c Cert.KernelIdeal.main_v29 := by
    rw [Cert.ReferenceIdeal.Hand.V_v4, Cert.KernelIdeal.Hand.V_v29, h3]
  have e5 : (Cert.ReferenceIdeal.Gen.V m' c Cert.ReferenceIdeal.main_v5 : Cert.ReferenceIdeal.S1x64.Idx → EReal) = Cert.KernelIdeal.Gen.V m c Cert.KernelIdeal.main_v30 := by
    rw [Cert.ReferenceIdeal.Hand.V_v5, Cert.KernelIdeal.Hand.V_v30, h4]
  have e6 : (Cert.ReferenceIdeal.Gen.V m' c Cert.ReferenceIdeal.main_v6 : Cert.ReferenceIdeal.S576x128.Idx → EReal) = Cert.KernelIdeal.Gen.V m c Cert.KernelIdeal.main_v31 := by
    rw [Cert.ReferenceIdeal.Hand.V_v6, Cert.KernelIdeal.Hand.V_v31, h5]
  have e7 : (Cert.ReferenceIdeal.Gen.V m' c Cert.ReferenceIdeal.main_v7 : Cert.ReferenceIdeal.S1x128.Idx → EReal) = Cert.KernelIdeal.Gen.V m c Cert.KernelIdeal.main_v32 := by
    rw [Cert.ReferenceIdeal.Hand.V_v7, Cert.KernelIdeal.Hand.V_v32, h6]
  have e9 : (Cert.ReferenceIdeal.Gen.V m' c Cert.ReferenceIdeal.main_v9 : Cert.ReferenceIdeal.S128x512.Idx → EReal) = Cert.KernelIdeal.Gen.V m c Cert.KernelIdeal.main_v34 := by
    rw [Cert.ReferenceIdeal.Hand.V_v9, Cert.KernelIdeal.Hand.V_v34, h7]
  have e10 : (Cert.ReferenceIdeal.Gen.V m' c Cert.ReferenceIdeal.main_v10 : Cert.ReferenceIdeal.S1x512.Idx → EReal) = Cert.KernelIdeal.Gen.V m c Cert.KernelIdeal.main_v35 := by
    rw [Cert.ReferenceIdeal.Hand.V_v10, Cert.KernelIdeal.Hand.V_v35, h8]
  have ea9 : (Cert.ReferenceIdeal.Gen.V m' c Cert.ReferenceIdeal.main_arg9 : Cert.ReferenceIdeal.S512x10.Idx → EReal) = Cert.KernelIdeal.Gen.V m c Cert.KernelIdeal.main_arg9 := by
    rw [Cert.ReferenceIdeal.Gen.V_main_arg9, Cert.KernelIdeal.Gen.V_main_arg9, h9]
  have e11 : (Cert.ReferenceIdeal.Gen.V m' c Cert.ReferenceIdeal.main_v11 : Cert.ReferenceIdeal.S1x10.Idx → EReal) = Cert.KernelIdeal.Gen.V m c Cert.KernelIdeal.main_v36 := by
    rw [Cert.ReferenceIdeal.Hand.V_v11, Cert.KernelIdeal.Hand.V_v36, h10]
  funext i
  unfold Cert.ReferenceIdeal.Hand.resultOf Cert.KernelIdeal.Hand.resultOf Cert.Net.netArray
  rw [e9, e10, ea9, e11]
  refine congrArg (fun f => Cert.Net.tailRow f (Cert.KernelIdeal.Gen.V m c Cert.KernelIdeal.main_v34) (Cert.KernelIdeal.Gen.V m c Cert.KernelIdeal.main_v35)
    (Cert.KernelIdeal.Gen.V m c Cert.KernelIdeal.main_arg9) (Cert.KernelIdeal.Gen.V m c Cert.KernelIdeal.main_v36) (i 1)) (funext fun ch => ?_)
  -- one image
  have hf := Cert.Bridge.feat_eq
    (fun h w => (Cert.KernelIdeal.Gen.V m c Cert.KernelIdeal.main_v0 : Cert.KernelIdeal.S8192x28x28.Idx → EReal) (ix3 (i 0 : Fin 8192) h w))
    (Cert.ReferenceIdeal.Hand.imageOf (Cert.ReferenceIdeal.Gen.V m' c Cert.ReferenceIdeal.main_v1) (i 0 : Fin 8192))
    (Cert.ReferenceIdeal.Gen.V m' c Cert.ReferenceIdeal.main_v2) (Cert.ReferenceIdeal.Gen.V m' c Cert.ReferenceIdeal.main_v3)
    (Cert.KernelIdeal.Gen.V m c Cert.KernelIdeal.main_v24) (Cert.KernelIdeal.Gen.V m c Cert.KernelIdeal.main_v28)
    (Cert.ReferenceIdeal.Gen.V m' c Cert.ReferenceIdeal.main_v21) (Cert.ReferenceIdeal.Gen.V m' c Cert.ReferenceIdeal.main_v31)
    (Cert.ReferenceIdeal.Gen.V m' c Cert.ReferenceIdeal.main_v5) (Cert.ReferenceIdeal.Gen.V m' c Cert.ReferenceIdeal.main_v4) (Cert.ReferenceIdeal.Gen.V m' c Cert.ReferenceIdeal.main_v7) (Cert.ReferenceIdeal.Gen.V m' c Cert.ReferenceIdeal.main_v6)
    (fun w t => Cert.ReferenceIdeal.Hand.V_v21_apply m' c w t) (fun w t => Cert.ReferenceIdeal.Hand.V_v31_apply m' c w t)
    (Cert.Bridge.conv1_forms _ _ _ _ _ _
      (fun di dj ch => m ((c.tc : Thread Cert.KernelIdeal.nD Cert.KernelIdeal.τ).loc Cert.KernelIdeal.main_arg1) (ix4 di dj (0 : Fin 1) ch))
      (fun w hh => (Cert.ReferenceIdeal.Hand.V_v1_apply m' c (i 0 : Fin 8192) w hh).trans
        ((congrFun h0 (ix4 (i 0 : Fin 8192) (0 : Fin 1) hh w)).trans (Cert.KernelIdeal.Hand.V_v0_apply m c (i 0 : Fin 8192) hh w).symm))
      (fun di dj ch => (Cert.ReferenceIdeal.Hand.V_v2_apply m' c di dj ch).trans (congrFun h1 (ix4 di dj (0 : Fin 1) ch)))
      (fun di w mm ch => Cert.KernelIdeal.Hand.V_v24_apply m c di w mm ch)
      (fun mm ch => (Cert.KernelIdeal.Hand.V_v28_apply m c mm ch).trans
        (((Cert.ReferenceIdeal.Hand.V_v3_apply m' c ch).trans (congrFun h2 (ix1 ch))).symm)))
    ch
  refine hf.trans ?_
  rw [e4, e5, e6, e7]

end Cert.Final

end
-- ==== Proof.lean ====
/- The network of three 3x3 convolutions (each followed by a positive part and a 2x2 floor-mode maximum pool), two dense
   layers and a row-wise log-softmax, computed two ways over the extended reals: 64 images per grid point through
   whole-block matrix products, and 8 images per grid point one image at a time. The three frames are the generated
   runs; the idealization rewrote nothing; the value claim is that both arrangements are one function of the arguments. -/
import proofs.«139938_g2000005272685101_pallaspilot1_161_3_alg».proof.Defs
import proofs.«139938_g2000005272685101_pallaspilot1_161_3_alg».proof.Proof.Gen.Kernel
import proofs.«139938_g2000005272685101_pallaspilot1_161_3_alg».proof.Proof.Gen.Kernel.Skeleton
import proofs.«139938_g2000005272685101_pallaspilot1_161_3_alg».proof.Proof.Gen.Kernel.Launch
import proofs.«139938_g2000005272685101_pallaspilot1_161_3_alg».proof.Proof.Gen.Kernel.Points
import proofs.«139938_g2000005272685101_pallaspilot1_161_3_alg».proof.Proof.Gen.Kernel.Frame
import proofs.«139938_g2000005272685101_pallaspilot1_161_3_alg».proof.Proof.Gen.KernelIdeal
import proofs.«139938_g2000005272685101_pallaspilot1_161_3_alg».proof.Proof.Gen.KernelIdeal.Skeleton
import proofs.«139938_g2000005272685101_pallaspilot1_161_3_alg».proof.Proof.Gen.KernelIdeal.Launch
import proofs.«139938_g2000005272685101_pallaspilot1_161_3_alg».proof.Proof.Gen.KernelIdeal.Points
import proofs.«139938_g2000005272685101_pallaspilot1_161_3_alg».proof.Proof.Gen.KernelIdeal.Frame
import proofs.«139938_g2000005272685101_pallaspilot1_161_3_alg».proof.Proof.Gen.ReferenceIdeal
import proofs.«139938_g2000005272685101_pallaspilot1_161_3_alg».proof.Proof.Gen.ReferenceIdeal.Skeleton
import proofs.«139938_g2000005272685101_pallaspilot1_161_3_alg».proof.Proof.Gen.ReferenceIdeal.Loops
import proofs.«139938_g2000005272685101_pallaspilot1_161_3_alg».proof.Proof.Gen.ReferenceIdeal.Launch
import proofs.«139938_g2000005272685101_pallaspilot1_161_3_alg».proof.Proof.Gen.ReferenceIdeal.Points
import proofs.«139938_g2000005272685101_pallaspilot1_161_3_alg».proof.Proof.Gen.ReferenceIdeal.Frame
import proofs.«139938_g2000005272685101_pallaspilot1_161_3_alg».proof.Proof.Gen.Pre_finite_inputs
import proofs.«139938_g2000005272685101_pallaspilot1_161_3_alg».proof.Proof.Gen.KernelIdeal.Value
import proofs.«139938_g2000005272685101_pallaspilot1_161_3_alg».proof.Proof.Gen.ReferenceIdeal.Value
import proofs.«139938_g2000005272685101_pallaspilot1_161_3_alg».proof.Proof.Final
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- Both programs end, each with its result array one function of the arrays its region is given (`final` on either
    side): row `n` is the log-softmax tail of image `n`'s 128 features. With the arguments agreeing those are one array. -/
theorem algebraic : Cert.algebraic_KernelIdeal_ReferenceIdeal := by
  intro m ρ m' ρ' hpre hagree
  refine ⟨fun c => (Cert.KernelIdeal.Gen.dats m 0 c).arrAt 11 Cert.KernelIdeal.cfg0.N,
    Cert.KernelIdeal.Value.run_blocks (F := Ideal) m ρ, ?_⟩
  refine (θ_run Cert.ReferenceIdeal.defs _ _).mono (fun r h c => ⟨(h c).1.trans ?_, (h c).2⟩)
    (Cert.ReferenceIdeal.Value.run_blocks (F := Ideal) m' ρ')
  show (Cert.ReferenceIdeal.Gen.dats m' 0 c).arrAt 13 Cert.ReferenceIdeal.cfg0.N = (Cert.KernelIdeal.Gen.dats m 0 c).arrAt 11 Cert.KernelIdeal.cfg0.N
  rw [Cert.ReferenceIdeal.Hand.final m' c, Cert.KernelIdeal.Hand.final m c]
  exact Cert.Final.arrays_eq m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
